-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_arg9 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1000000 32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S5000x128 : Shape := ⟨2, ![5000, 128]⟩
abbrev S5000x64 : Shape := ⟨2, ![5000, 64]⟩
abbrev S1100000x64 : Shape := ⟨2, ![1100000, 64]⟩
abbrev S1x64 : Shape := ⟨2, ![1, 64]⟩

abbrev nBuf : Space → Nat
  | .hbm => 166
  | .vmem => 22
  | .smem => 0
  | _ => 0

abbrev hbmTy0_0 (i : Nat) : BufTy := match i % 128 with
  | 0 => ⟨S100000x128, .f32⟩
  | 1 => ⟨S2x1000000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S1x1000000, .i32⟩
  | 11 => ⟨S1000000, .i32⟩
  | 12 => ⟨S1x1000000, .i32⟩
  | 13 => ⟨S1000000, .i32⟩
  | 14 => ⟨S100000, .i32⟩
  | 15 => ⟨S1100000, .i32⟩
  | 16 => ⟨S1100000, .i32⟩
  | 17 => ⟨S_, .f32⟩
  | 18 => ⟨S1100000, .f32⟩
  | 19 => ⟨S_, .f32⟩
  | 20 => ⟨S100000, .f32⟩
  | 21 => ⟨S1100000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1100000, .i32⟩
  | 33 => ⟨S1100000, .i1⟩
  | 34 => ⟨S_, .i32⟩
  | 35 => ⟨S1100000, .i32⟩
  | 36 => ⟨S1100000, .i32⟩
  | 37 => ⟨S1100000, .i32⟩
  | 38 => ⟨S1100000x1, .i32⟩
  | 39 => ⟨S1100000, .f32⟩
  | 40 => ⟨S_, .i32⟩
  | 41 => ⟨S1100000, .i32⟩
  | 42 => ⟨S1100000, .i1⟩
  | 43 => ⟨S_, .i32⟩
  | 44 => ⟨S1100000, .i32⟩
  | 45 => ⟨S1100000, .i32⟩
  | 46 => ⟨S1100000, .i32⟩
  | 47 => ⟨S1100000x1, .i32⟩
  | 48 => ⟨S1100000, .f32⟩
  | 49 => ⟨S1100000, .f32⟩
  | 50 => ⟨S100000x64, .f32⟩
  | 51 => ⟨S_, .i32⟩
  | 52 => ⟨S1100000, .i32⟩
  | 53 => ⟨S1100000, .i1⟩
  | 54 => ⟨S_, .i32⟩
  | 55 => ⟨S1100000, .i32⟩
  | 56 => ⟨S1100000, .i32⟩
  | 57 => ⟨S1100000, .i32⟩
  | 58 => ⟨S1100000x1, .i32⟩
  | 59 => ⟨S1100000x64, .f32⟩
  | 60 => ⟨S1100000x1, .f32⟩
  | 61 => ⟨S1100000x64, .f32⟩
  | 62 => ⟨S1100000x64, .f32⟩
  | 63 => ⟨S_, .f32⟩
  | 64 => ⟨S100000x64, .f32⟩
  | 65 => ⟨S1100000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S64, .f32⟩
  | 72 => ⟨S_, .f32⟩
  | 73 => ⟨S64, .f32⟩
  | 74 => ⟨S64, .f32⟩
  | 75 => ⟨S_, .i32⟩
  | 76 => ⟨S_, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S100000x64, .f32⟩
  | 83 => ⟨S100000x64, .f32⟩
  | 84 => ⟨S100000x64, .f32⟩
  | 85 => ⟨S_, .f32⟩
  | 86 => ⟨S_, .f32⟩
  | 87 => ⟨S_, .f32⟩
  | 88 => ⟨S_, .f32⟩
  | 89 => ⟨S64, .f32⟩
  | 90 => ⟨S64, .f32⟩
  | 91 => ⟨S64, .f32⟩
  | 92 => ⟨S_, .f32⟩
  | 93 => ⟨S_, .i1⟩
  | 94 => ⟨S_, .f32⟩
  | 95 => ⟨S_, .f32⟩
  | 96 => ⟨S64, .f32⟩
  | 97 => ⟨S64, .f32⟩
  | 98 => ⟨S_, .f32⟩
  | 99 => ⟨S64, .f32⟩
  | 100 => ⟨S64, .f32⟩
  | 101 => ⟨S64, .f32⟩
  | 102 => ⟨S64, .f32⟩
  | 103 => ⟨S64, .f32⟩
  | 104 => ⟨S64, .f32⟩
  | 105 => ⟨S1x64, .f32⟩
  | 106 => ⟨S1x64, .f32⟩
  | 107 => ⟨S100000x64, .f32⟩
  | 108 => ⟨S100000x64, .f32⟩
  | 109 => ⟨S_, .i32⟩
  | 110 => ⟨S1100000, .i32⟩
  | 111 => ⟨S1100000, .i1⟩
  | 112 => ⟨S_, .i32⟩
  | 113 => ⟨S1100000, .i32⟩
  | 114 => ⟨S1100000, .i32⟩
  | 115 => ⟨S1100000, .i32⟩
  | 116 => ⟨S1100000x1, .i32⟩
  | 117 => ⟨S1100000x64, .f32⟩
  | 118 => ⟨S1100000x1, .f32⟩
  | 119 => ⟨S1100000x64, .f32⟩
  | 120 => ⟨S1100000x64, .f32⟩
  | 121 => ⟨S_, .f32⟩
  | 122 => ⟨S100000x64, .f32⟩
  | 123 => ⟨S1100000x1, .i32⟩
  | 124 => ⟨S100000x64, .f32⟩
  | 125 => ⟨S1x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S64, .f32⟩
  | 2 => ⟨S_, .f32⟩
  | 3 => ⟨S64, .f32⟩
  | 4 => ⟨S64, .f32⟩
  | 5 => ⟨S_, .i32⟩
  | 6 => ⟨S_, .f32⟩
  | 7 => ⟨S64, .f32⟩
  | 8 => ⟨S1x64, .f32⟩
  | 9 => ⟨S_, .f32⟩
  | 10 => ⟨S1x64, .f32⟩
  | 11 => ⟨S1x64, .f32⟩
  | 12 => ⟨S100000x64, .f32⟩
  | 13 => ⟨S100000x64, .f32⟩
  | 14 => ⟨S100000x64, .f32⟩
  | 15 => ⟨S_, .f32⟩
  | 16 => ⟨S_, .f32⟩
  | 17 => ⟨S_, .f32⟩
  | 18 => ⟨S_, .f32⟩
  | 19 => ⟨S64, .f32⟩
  | 20 => ⟨S64, .f32⟩
  | 21 => ⟨S64, .f32⟩
  | 22 => ⟨S_, .f32⟩
  | 23 => ⟨S_, .i1⟩
  | 24 => ⟨S_, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S64, .f32⟩
  | 32 => ⟨S64, .f32⟩
  | 33 => ⟨S64, .f32⟩
  | 34 => ⟨S64, .f32⟩
  | 35 => ⟨S1x64, .f32⟩
  | 36 => ⟨S1x64, .f32⟩
  | 37 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_cst_2 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_cst_3 : Ref sig .tc := ⟨.hbm, 92, rfl⟩
abbrev main_call1_v12 : Ref sig .tc := ⟨.hbm, 93, rfl⟩
abbrev main_call1_cst_4 : Ref sig .tc := ⟨.hbm, 94, rfl⟩
abbrev main_call1_call0_v0 : Ref sig .tc := ⟨.hbm, 95, rfl⟩
abbrev main_call1_call0_v1 : Ref sig .tc := ⟨.hbm, 96, rfl⟩
abbrev main_v50 : Ref sig .tc := ⟨.hbm, 97, rfl⟩
abbrev main_cst_12 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_c_13 : Ref sig .tc := ⟨.hbm, 109, rfl⟩
abbrev main_v61 : Ref sig .tc := ⟨.hbm, 110, rfl⟩
abbrev main_v62 : Ref sig .tc := ⟨.hbm, 111, rfl⟩
abbrev main_c_14 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_15 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_16 : Ref sig .tc := ⟨.hbm, 128, rfl⟩
abbrev main_v77 : Ref sig .tc := ⟨.hbm, 129, rfl⟩
abbrev main_cst_17 : Ref sig .tc := ⟨.hbm, 130, rfl⟩
abbrev main_v78 : Ref sig .tc := ⟨.hbm, 131, rfl⟩
abbrev main_v79 : Ref sig .tc := ⟨.hbm, 132, rfl⟩
abbrev main_c_18 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_cst_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_v7 : Ref sig .tc := ⟨.hbm, 143, rfl⟩
abbrev main_call2_cst_1 : Ref sig .tc := ⟨.hbm, 144, rfl⟩
abbrev main_call2_v8 : Ref sig .tc := ⟨.hbm, 145, rfl⟩
abbrev main_call2_cst_2 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_cst_3 : Ref sig .tc := ⟨.hbm, 150, rfl⟩
abbrev main_call2_v12 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v80 : Ref sig .tc := ⟨.hbm, 155, rfl⟩
abbrev main_cst_19 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x128_S128x64_S5000x64_1_0_0_1_n_n_wf : DotDims.WF S5000x128 S128x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S1x1000000 : Shape := ⟨2, ![1, 1000000]⟩
abbrev S1000000 : Shape := ⟨1, ![1000000]⟩
abbrev S100000x64 : Shape := ⟨2, ![100000, 64]⟩
abbrev S100000 : Shape := ⟨1, ![100000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 220
  | .vmem => 0
  | .smem => 0
  | _ => 0

abbrev hbmTy0_0 (i : Nat) : BufTy := match i % 128 with
  | 0 => ⟨S100000x128, .f32⟩
  | 1 => ⟨S2x1000000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S1x1000000, .i32⟩
  | 11 => ⟨S1000000, .i32⟩
  | 12 => ⟨S1x1000000, .i32⟩
  | 13 => ⟨S1000000, .i32⟩
  | 14 => ⟨S100000x64, .f32⟩
  | 15 => ⟨S100000, .i32⟩
  | 16 => ⟨S1100000, .i32⟩
  | 17 => ⟨S1100000, .i32⟩
  | 18 => ⟨S_, .f32⟩
  | 19 => ⟨S1100000, .f32⟩
  | 20 => ⟨S_, .f32⟩
  | 21 => ⟨S100000, .f32⟩
  | 22 => ⟨S1100000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1100000, .i32⟩
  | 34 => ⟨S1100000, .i1⟩
  | 35 => ⟨S_, .i32⟩
  | 36 => ⟨S1100000, .i32⟩
  | 37 => ⟨S1100000, .i32⟩
  | 38 => ⟨S1100000, .i32⟩
  | 39 => ⟨S1100000x1, .i32⟩
  | 40 => ⟨S1100000, .f32⟩
  | 41 => ⟨S_, .i32⟩
  | 42 => ⟨S1100000, .i32⟩
  | 43 => ⟨S1100000, .i1⟩
  | 44 => ⟨S_, .i32⟩
  | 45 => ⟨S1100000, .i32⟩
  | 46 => ⟨S1100000, .i32⟩
  | 47 => ⟨S1100000, .i32⟩
  | 48 => ⟨S1100000x1, .i32⟩
  | 49 => ⟨S1100000, .f32⟩
  | 50 => ⟨S1100000, .f32⟩
  | 51 => ⟨S_, .i32⟩
  | 52 => ⟨S1100000, .i32⟩
  | 53 => ⟨S1100000, .i1⟩
  | 54 => ⟨S_, .i32⟩
  | 55 => ⟨S1100000, .i32⟩
  | 56 => ⟨S1100000, .i32⟩
  | 57 => ⟨S1100000, .i32⟩
  | 58 => ⟨S1100000x1, .i32⟩
  | 59 => ⟨S1100000x64, .f32⟩
  | 60 => ⟨S1100000x1, .f32⟩
  | 61 => ⟨S1100000x64, .f32⟩
  | 62 => ⟨S1100000x64, .f32⟩
  | 63 => ⟨S_, .f32⟩
  | 64 => ⟨S100000x64, .f32⟩
  | 65 => ⟨S1100000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S64, .f32⟩
  | 72 => ⟨S_, .f32⟩
  | 73 => ⟨S64, .f32⟩
  | 74 => ⟨S64, .f32⟩
  | 75 => ⟨S_, .i32⟩
  | 76 => ⟨S_, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S100000x64, .f32⟩
  | 83 => ⟨S100000x64, .f32⟩
  | 84 => ⟨S100000x64, .f32⟩
  | 85 => ⟨S_, .f32⟩
  | 86 => ⟨S_, .f32⟩
  | 87 => ⟨S_, .f32⟩
  | 88 => ⟨S_, .f32⟩
  | 89 => ⟨S64, .f32⟩
  | 90 => ⟨S64, .f32⟩
  | 91 => ⟨S64, .f32⟩
  | 92 => ⟨S_, .f32⟩
  | 93 => ⟨S_, .i1⟩
  | 94 => ⟨S_, .f32⟩
  | 95 => ⟨S_, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S_, .f32⟩
  | 102 => ⟨S64, .f32⟩
  | 103 => ⟨S64, .f32⟩
  | 104 => ⟨S64, .f32⟩
  | 105 => ⟨S1x64, .f32⟩
  | 106 => ⟨S100000x64, .f32⟩
  | 107 => ⟨S100000x64, .f32⟩
  | 108 => ⟨S1x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S100000x64, .f32⟩
  | 118 => ⟨S100000, .i32⟩
  | 119 => ⟨S1100000, .i32⟩
  | 120 => ⟨S1100000, .i32⟩
  | 121 => ⟨S_, .f32⟩
  | 122 => ⟨S1100000, .f32⟩
  | 123 => ⟨S_, .f32⟩
  | 124 => ⟨S100000, .f32⟩
  | 125 => ⟨S1100000x1, .i32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .i1⟩
  | 2 => ⟨S100000, .f32⟩
  | 3 => ⟨S_, .f32⟩
  | 4 => ⟨S_, .f32⟩
  | 5 => ⟨S100000, .f32⟩
  | 6 => ⟨S100000, .f32⟩
  | 7 => ⟨S_, .i32⟩
  | 8 => ⟨S1100000, .i32⟩
  | 9 => ⟨S1100000, .i1⟩
  | 10 => ⟨S_, .i32⟩
  | 11 => ⟨S1100000, .i32⟩
  | 12 => ⟨S1100000, .i32⟩
  | 13 => ⟨S1100000, .i32⟩
  | 14 => ⟨S1100000x1, .i32⟩
  | 15 => ⟨S1100000, .f32⟩
  | 16 => ⟨S_, .i32⟩
  | 17 => ⟨S1100000, .i32⟩
  | 18 => ⟨S1100000, .i1⟩
  | 19 => ⟨S_, .i32⟩
  | 20 => ⟨S1100000, .i32⟩
  | 21 => ⟨S1100000, .i32⟩
  | 22 => ⟨S1100000, .i32⟩
  | 23 => ⟨S1100000x1, .i32⟩
  | 24 => ⟨S1100000, .f32⟩
  | 25 => ⟨S1100000, .f32⟩
  | 26 => ⟨S_, .i32⟩
  | 27 => ⟨S1100000, .i32⟩
  | 28 => ⟨S1100000, .i1⟩
  | 29 => ⟨S_, .i32⟩
  | 30 => ⟨S1100000, .i32⟩
  | 31 => ⟨S1100000, .i32⟩
  | 32 => ⟨S1100000, .i32⟩
  | 33 => ⟨S1100000x1, .i32⟩
  | 34 => ⟨S1100000x64, .f32⟩
  | 35 => ⟨S1100000x1, .f32⟩
  | 36 => ⟨S1100000x64, .f32⟩
  | 37 => ⟨S1100000x64, .f32⟩
  | 38 => ⟨S_, .f32⟩
  | 39 => ⟨S100000x64, .f32⟩
  | 40 => ⟨S1100000x1, .i32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S64, .f32⟩
  | 47 => ⟨S_, .f32⟩
  | 48 => ⟨S64, .f32⟩
  | 49 => ⟨S64, .f32⟩
  | 50 => ⟨S_, .i32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S100000x64, .f32⟩
  | 58 => ⟨S100000x64, .f32⟩
  | 59 => ⟨S100000x64, .f32⟩
  | 60 => ⟨S_, .f32⟩
  | 61 => ⟨S_, .f32⟩
  | 62 => ⟨S_, .f32⟩
  | 63 => ⟨S_, .f32⟩
  | 64 => ⟨S64, .f32⟩
  | 65 => ⟨S64, .f32⟩
  | 66 => ⟨S64, .f32⟩
  | 67 => ⟨S_, .f32⟩
  | 68 => ⟨S_, .i1⟩
  | 69 => ⟨S_, .f32⟩
  | 70 => ⟨S_, .f32⟩
  | 71 => ⟨S64, .f32⟩
  | 72 => ⟨S64, .f32⟩
  | 73 => ⟨S1x64, .f32⟩
  | 74 => ⟨S100000x64, .f32⟩
  | 75 => ⟨S100000x64, .f32⟩
  | 76 => ⟨S_, .f32⟩
  | 77 => ⟨S64, .f32⟩
  | 78 => ⟨S64, .f32⟩
  | 79 => ⟨S64, .f32⟩
  | 80 => ⟨S1x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_cst_2 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_cst_3 : Ref sig .tc := ⟨.hbm, 92, rfl⟩
abbrev main_call1_v12 : Ref sig .tc := ⟨.hbm, 93, rfl⟩
abbrev main_call1_cst_4 : Ref sig .tc := ⟨.hbm, 94, rfl⟩
abbrev main_call1_call0_v0 : Ref sig .tc := ⟨.hbm, 95, rfl⟩
abbrev main_call1_call0_v1 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_12 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_call2_cst : Ref sig .tc := ⟨.hbm, 114, rfl⟩
abbrev main_call2_v0 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_13 : Ref sig .tc := ⟨.hbm, 121, rfl⟩
abbrev main_v71 : Ref sig .tc := ⟨.hbm, 122, rfl⟩
abbrev main_cst_14 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_cst_15 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_16 : Ref sig .tc := ⟨.hbm, 131, rfl⟩
abbrev main_call3_v0 : Ref sig .tc := ⟨.hbm, 132, rfl⟩
abbrev main_call3_v1 : Ref sig .tc := ⟨.hbm, 133, rfl⟩
abbrev main_v78 : Ref sig .tc := ⟨.hbm, 134, rfl⟩
abbrev main_c_17 : Ref sig .tc := ⟨.hbm, 135, rfl⟩
abbrev main_v79 : Ref sig .tc := ⟨.hbm, 136, rfl⟩
abbrev main_v80 : Ref sig .tc := ⟨.hbm, 137, rfl⟩
abbrev main_c_18 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_c_19 : Ref sig .tc := ⟨.hbm, 144, rfl⟩
abbrev main_v86 : Ref sig .tc := ⟨.hbm, 145, rfl⟩
abbrev main_v87 : Ref sig .tc := ⟨.hbm, 146, rfl⟩
abbrev main_c_20 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_c_21 : Ref sig .tc := ⟨.hbm, 154, rfl⟩
abbrev main_v94 : Ref sig .tc := ⟨.hbm, 155, rfl⟩
abbrev main_v95 : Ref sig .tc := ⟨.hbm, 156, rfl⟩
abbrev main_c_22 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_cst_23 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_cst_24 : Ref sig .tc := ⟨.hbm, 173, rfl⟩
abbrev main_v110 : Ref sig .tc := ⟨.hbm, 174, rfl⟩
abbrev main_cst_25 : Ref sig .tc := ⟨.hbm, 175, rfl⟩
abbrev main_v111 : Ref sig .tc := ⟨.hbm, 176, rfl⟩
abbrev main_v112 : Ref sig .tc := ⟨.hbm, 177, rfl⟩
abbrev main_c_26 : Ref sig .tc := ⟨.hbm, 178, rfl⟩
abbrev main_call4_cst : Ref sig .tc := ⟨.hbm, 179, rfl⟩
abbrev main_call4_v0 : Ref sig .tc := ⟨.hbm, 180, rfl⟩
abbrev main_call4_v1 : Ref sig .tc := ⟨.hbm, 181, rfl⟩
abbrev main_call4_cst_0 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_call4_v5 : Ref sig .tc := ⟨.hbm, 186, rfl⟩
abbrev main_call4_v6 : Ref sig .tc := ⟨.hbm, 187, rfl⟩
abbrev main_call4_v7 : Ref sig .tc := ⟨.hbm, 188, rfl⟩
abbrev main_call4_cst_1 : Ref sig .tc := ⟨.hbm, 189, rfl⟩
abbrev main_call4_v8 : Ref sig .tc := ⟨.hbm, 190, rfl⟩
abbrev main_call4_cst_2 : Ref sig .tc := ⟨.hbm, 191, rfl⟩
abbrev main_call4_v9 : Ref sig .tc := ⟨.hbm, 192, rfl⟩
abbrev main_call4_v10 : Ref sig .tc := ⟨.hbm, 193, rfl⟩
abbrev main_call4_v11 : Ref sig .tc := ⟨.hbm, 194, rfl⟩
abbrev main_call4_cst_3 : Ref sig .tc := ⟨.hbm, 195, rfl⟩
abbrev main_call4_v12 : Ref sig .tc := ⟨.hbm, 196, rfl⟩
abbrev main_call4_cst_4 : Ref sig .tc := ⟨.hbm, 197, rfl⟩
abbrev main_call4_call0_v0 : Ref sig .tc := ⟨.hbm, 198, rfl⟩
abbrev main_call4_call0_v1 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_cst_27 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_call5_cst : Ref sig .tc := ⟨.hbm, 217, rfl⟩
abbrev main_call5_v0 : Ref sig .tc := ⟨.hbm, 218, rfl⟩
abbrev main_v129 : Ref sig .tc := ⟨.hbm, 219, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  dot_S100000x128_S128x64_S100000x64_1_0_0_1_n_n_wf : DotDims.WF S100000x128 S128x64 S100000x64 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KerRunW.lean ====
/- The kernel program's run with its result named: every weakly fair execution of @main from a memory with zero
   counters terminates without a fault, the argument arrays end as launched, and the result array ends at the
   contents the last segment boundary assigns to it (the fold of the host stretches and the four regions'
   write-backs from the launch memory). -/
import proofs.«139092_j81415400063394_1_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen (adm pdats cellOf_inj segs main_run Tₙ R W0 W13 𝒱₀ L lv)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read at the last boundary's contents: the same launch over the thirteen segments
    as the frame's, the final state read against every unscoped buffer, the result among them. -/
theorem run_boundary : θ_run defs (onTc (τ := τ) (main (F := F))) ⟨m, fun _ => 0, ρ⟩ (fun r => ∀ c : Dev nD,
      r.2.mem ((c.tc : Thread nD τ).loc main_v89) = W13 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (Gen.mem_uc main_v89 (by decide)),
       (h c _ (Gen.mem_uc main_arg0 (by decide))).trans (Gen.W13_main_arg0 m ρ c),
       (h c _ (Gen.mem_uc main_arg1 (by decide))).trans (Gen.W13_main_arg1 m ρ c),
       (h c _ (Gen.mem_uc main_arg2 (by decide))).trans (Gen.W13_main_arg2 m ρ c),
       (h c _ (Gen.mem_uc main_arg3 (by decide))).trans (Gen.W13_main_arg3 m ρ c),
       (h c _ (Gen.mem_uc main_arg4 (by decide))).trans (Gen.W13_main_arg4 m ρ c),
       (h c _ (Gen.mem_uc main_arg5 (by decide))).trans (Gen.W13_main_arg5 m ρ c),
       (h c _ (Gen.mem_uc main_arg6 (by decide))).trans (Gen.W13_main_arg6 m ρ c),
       (h c _ (Gen.mem_uc main_arg7 (by decide))).trans (Gen.W13_main_arg7 m ρ c),
       (h c _ (Gen.mem_uc main_arg8 (by decide))).trans (Gen.W13_main_arg8 m ρ c),
       (h c _ (Gen.mem_uc main_arg9 (by decide))).trans (Gen.W13_main_arg9 m ρ c)⟩)

end Cert.KernelIdeal.KerRun

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibMatProd.lean ====
/-
  The product of two matrices on the extended reals as ONE whole-array function, and two ways a program spells it.

  For an [m, K] matrix l and a [K, n] matrix r the product is the [m, n] matrix whose entry (p, q) is
  Σ_k l(p, k) · r(k, q).  The host's `dot_general` of the plain form (axis 1 of the left against axis 0 of the right,
  no batch axis) IS that matrix, and so is a kernel's `tpu.matmul` of the same form accumulated into the zero splat:
  both are the textbook sum at every entry, and a matrix is its entries.  No finiteness is used: nothing is
  re-associated or distributed.
-/
import proofs.«139092_j81415400063394_1_alg».proof.Proof.LibPlainMatmul

noncomputable section

namespace Cert.MatProd

open Idealize.ShloMosaic Idealize.ShloMosaic.ValueIdx

/-- The matrix product, entry by entry. -/
def matProd {m K n : ℕ} (l : (⟨2, ![m, K]⟩ : Shape).Idx → EReal) (r : (⟨2, ![K, n]⟩ : Shape).Idx → EReal) :
    (⟨2, ![m, n]⟩ : Shape).Idx → EReal :=
  fun i => ∑ k : Fin K, l (ix2 (i 0) k) * r (ix2 k (i 1))

/-- The product read at (p, q). -/
theorem matProd_apply {m K n : ℕ} (l : (⟨2, ![m, K]⟩ : Shape).Idx → EReal) (r : (⟨2, ![K, n]⟩ : Shape).Idx → EReal)
    (p : Fin m) (q : Fin n) : matProd l r (ix2 p q) = ∑ k : Fin K, l (ix2 p k) * r (ix2 k q) := rfl

/-- The host's plain `dot_general` is the matrix product, as a whole array, under any schedule key. -/
theorem dotGeneral_eq {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) :
    FloatOps.dotGeneral (PlainMatmul.plain wf) prec sched l r = matProd l r := by
  funext i
  obtain ⟨p, q, rfl⟩ : ∃ (p : Fin m) (q : Fin n), i = ix2 p q := ⟨i 0, i 1, eq_ix2 i⟩
  exact PlainMatmul.dotGeneral_apply wf prec sched l r p q

/-- A kernel's plain `tpu.matmul` into the zero splat is the matrix product, as a whole block. -/
theorem matmul_zero_eq {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) :
    FloatOps.matmul (PlainMatmul.plain wf) prec l r (constant (⟨2, ![m, n]⟩ : Shape) .f32 0x00000000#32) = matProd l r := by
  funext i
  obtain ⟨p, q, rfl⟩ : ∃ (p : Fin m) (q : Fin n), i = ix2 p q := ⟨i 0, i 1, eq_ix2 i⟩
  exact PlainMatmul.matmul_zero_apply wf prec l r p q

end Cert.MatProd

end
-- ==== Proof.KerStages.lean ====
/-
  The stages of a two-layer graph convolution with batch normalisation, as plain functions of array values.

  A layer reads the edge list (two rows of node numbers), appends a self loop for every node, counts each node's
  incoming edges (deg), takes dinv = deg^(-1/2) where deg > 0 and 0 elsewhere, weighs edge e by
  dinv(src e) · dinv(dst e), and sends, for every edge, the weighted source row of the transformed features to the
  destination row, where the contributions are added; the bias is added to every row. Batch normalisation then
  uses, per feature column, the mean and the (biased) variance over the 100000 rows. Each function below is spelt
  with the array operations in the order the program applies them, so that a run of the program ends, by
  unfolding, at these functions of its argument arrays.
-/
import proofs.«139092_j81415400063394_1_alg».proof.KernelIdeal
import proofs.«139092_j81415400063394_1_alg».proof.Proof.LibMatProd
import Idealize.ShloMosaic.Lib.ValueIdx

noncomputable section

namespace Cert.KernelIdeal.Stage

open Idealize.ShloMosaic Cert.KernelIdeal

variable {F : FTy → Type} [FloatOps F] [Facts]
open Facts₀ Facts

/-- The first row of the edge list (the sources) followed by 0, …, N − 1 (the self loops). -/
def srcv (ei : (⟨S2x1000000, .i32⟩ : BufTy).Contents (Elt F)) : (⟨S1100000, .i32⟩ : BufTy).Contents (Elt F) :=
  concatenate S1100000 0
    [⟨S1000000, shapeCast S1000000 (extractStridedSlice S1x1000000 ![0, 0] ei slices_S2x1000000_S1x1000000_0_0) shapeCasts_S1x1000000_S1000000⟩,
     ⟨S100000, iotaInDim S100000 32 0⟩] concatenates_S1000000_S100000_S1100000_d0

/-- The second row of the edge list (the destinations) followed by 0, …, N − 1. -/
def dstv (ei : (⟨S2x1000000, .i32⟩ : BufTy).Contents (Elt F)) : (⟨S1100000, .i32⟩ : BufTy).Contents (Elt F) :=
  concatenate S1100000 0
    [⟨S1000000, shapeCast S1000000 (extractStridedSlice S1x1000000 ![1, 0] ei slices_S2x1000000_S1x1000000_1_0) shapeCasts_S1x1000000_S1000000⟩,
     ⟨S100000, iotaInDim S100000 32 0⟩] concatenates_S1000000_S100000_S1100000_d0

/-- A vector of node numbers as a one-column matrix of indices. -/
def col (v : (⟨S1100000, .i32⟩ : BufTy).Contents (Elt F)) : (⟨S1100000x1, .i32⟩ : BufTy).Contents (Elt F) :=
  broadcastInDim S1100000x1 ![0] bcast_S1100000_S1100000x1_0 v

/-- The same with a negative number n read as n + N (an index counted from the end). -/
def wrap (v : (⟨S1100000, .i32⟩ : BufTy).Contents (Elt F)) : (⟨S1100000x1, .i32⟩ : BufTy).Contents (Elt F) :=
  col (F := F) (select (cmpi .slt v (broadcastInDim S1100000 ![] bcast_S_S1100000 (constantI S_ 32 0#32)))
    (addi v (broadcastInDim S1100000 ![] bcast_S_S1100000 (constantI S_ 32 100000#32))) v)

/-- deg: the number of edges (self loop included) that arrive at each node, as a sum of ones. -/
def deg (ei : (⟨S2x1000000, .i32⟩ : BufTy).Contents (Elt F)) : (⟨S100000, .f32⟩ : BufTy).Contents (Elt F) :=
  Host.scatterAdd scatter_S100000_S1100000x1_S1100000_n_0_0_1
    (broadcastInDim S100000 ![] bcast_S_S100000 (constant S_ .f32 0x00000000#32))
    (col (F := F) (dstv (F := F) ei))
    (broadcastInDim S1100000 ![] bcast_S_S1100000 (constant S_ .f32 0x3F800000#32))

/-- dinv = deg^(-1/2) where deg > 0, and 0 elsewhere. -/
def dinv (ei : (⟨S2x1000000, .i32⟩ : BufTy).Contents (Elt F)) : (⟨S100000, .f32⟩ : BufTy).Contents (Elt F) :=
  select (cmpf .ogt (deg (F := F) ei) (broadcastInDim S100000 ![] bcast_S_S100000 (constant S_ .f32 0x00000000#32)))
    (Host.rsqrt (deg (F := F) ei))
    (broadcastInDim S100000 ![] bcast_S_S100000 (id (constant S_ .f32 0x00000000#32)))

/-- The weight of every edge: dinv at its source times dinv at its destination. -/
def normv (ei : (⟨S2x1000000, .i32⟩ : BufTy).Contents (Elt F)) : (⟨S1100000, .f32⟩ : BufTy).Contents (Elt F) :=
  mulf (Host.gather gather_S100000_S1100000x1_S1100000_n_0_n_n_0_1_1 (dinv (F := F) ei) (wrap (F := F) (srcv (F := F) ei)))
       (Host.gather gather_S100000_S1100000x1_S1100000_n_0_n_n_0_1_1 (dinv (F := F) ei) (wrap (F := F) (dstv (F := F) ei)))

/-- A vector of 64 entries laid along the 100000 rows. -/
def alongRows (v : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 v)

/-- One layer's aggregation: for every edge the source row of h times the edge's weight, added into the destination
    row (from zeros), plus the bias along the rows. -/
def agg (h : (⟨S100000x64, .f32⟩ : BufTy).Contents (Elt F)) (ei : (⟨S2x1000000, .i32⟩ : BufTy).Contents (Elt F))
    (b : (⟨S64, .f32⟩ : BufTy).Contents (Elt F)) : (⟨S100000x64, .f32⟩ : BufTy).Contents (Elt F) :=
  addf (Host.scatterAdd scatter_S100000x64_S1100000x1_S1100000x64_1_0_0_1
          (broadcastInDim S100000x64 ![] bcast_S_S100000x64 (constant S_ .f32 0x00000000#32))
          (col (F := F) (dstv (F := F) ei))
          (mulf (Host.gather gather_S100000x64_S1100000x1_S1100000x64_1_0_n_n_0_1_164 h (wrap (F := F) (srcv (F := F) ei)))
            (broadcastInDim S1100000x64 ![0, 1] bcast_S1100000x1_S1100000x64_0_1
              (broadcastInDim S1100000x1 ![0] bcast_S1100000_S1100000x1_0 (normv (F := F) ei)))))
       (alongRows (F := F) b)

/-- The sum of every feature column over the 100000 rows. -/
def colSum (z : (⟨S100000x64, .f32⟩ : BufTy).Contents (Elt F)) : (⟨S64, .f32⟩ : BufTy).Contents (Elt F) :=
  Host.reduceAdd z (constant S_ .f32 0x00000000#32) reducesTo_S100000x64_S64_d0 h_S_

/-- The mean of every feature column: its sum divided by 100000. -/
def meanv (z : (⟨S100000x64, .f32⟩ : BufTy).Contents (Elt F)) : (⟨S64, .f32⟩ : BufTy).Contents (Elt F) :=
  Host.divf (colSum (F := F) z) (broadcastInDim S64 ![] bcast_S_S64 (constant S_ .f32 0x47C35000#32))

/-- The number of rows less the degrees of freedom taken off (none): 100000 − 0. -/
def rowsLessDdof : (⟨S_, .f32⟩ : BufTy).Contents (Elt F) :=
  subf (constant S_ .f32 0x47C35000#32) (sitofp .f32 (constantI S_ 32 0#32))

/-- Every entry less its column's mean (the mean as the variance routine computes it, through a one-row matrix). -/
def centred (z : (⟨S100000x64, .f32⟩ : BufTy).Contents (Elt F)) : (⟨S100000x64, .f32⟩ : BufTy).Contents (Elt F) :=
  subf z (broadcastInDim S100000x64 ![0, 1] bcast_S1x64_S100000x64_0_1
    (Host.divf (broadcastInDim S1x64 ![1] bcast_S64_S1x64_1 (colSum (F := F) z))
      (broadcastInDim S1x64 ![] bcast_S_S1x64 (constant S_ .f32 0x47C35000#32))))

/-- The variance of every feature column: the sum of the squared centred entries over (100000 − 0) where that
    count is positive (it is), and not-a-number otherwise. -/
def varv (z : (⟨S100000x64, .f32⟩ : BufTy).Contents (Elt F)) : (⟨S64, .f32⟩ : BufTy).Contents (Elt F) :=
  select (broadcastInDim S64 ![] bcast_S_S64 (cmpf .ogt (rowsLessDdof (F := F)) (constant S_ .f32 0x00000000#32)))
    (Host.divf (colSum (F := F) (mulf (centred (F := F) z) (centred (F := F) z)))
      (broadcastInDim S64 ![] bcast_S_S64 (rowsLessDdof (F := F))))
    (broadcastInDim S64 ![] bcast_S_S64 (id (constant S_ .f32 0x7FC00000#32)))

/-- (variance + 10⁻⁵)^(-1/2), per feature column. -/
def invStd (z : (⟨S100000x64, .f32⟩ : BufTy).Contents (Elt F)) : (⟨S64, .f32⟩ : BufTy).Contents (Elt F) :=
  Host.rsqrt (addf (varv (F := F) z) (broadcastInDim S64 ![] bcast_S_S64 (constant S_ .f32 0x3727C5AC#32)))

/-- The normalisation's scale per feature column: γ · invStd. -/
def scalev (z : (⟨S100000x64, .f32⟩ : BufTy).Contents (Elt F)) (g : (⟨S64, .f32⟩ : BufTy).Contents (Elt F)) :
    (⟨S64, .f32⟩ : BufTy).Contents (Elt F) :=
  mulf g (invStd (F := F) z)

/-- The normalisation's shift per feature column: β − mean · scale. -/
def shiftv (z : (⟨S100000x64, .f32⟩ : BufTy).Contents (Elt F)) (g bt : (⟨S64, .f32⟩ : BufTy).Contents (Elt F)) :
    (⟨S64, .f32⟩ : BufTy).Contents (Elt F) :=
  subf bt (mulf (meanv (F := F) z) (scalev (F := F) z g))

/-- A vector of 64 entries as a one-row matrix. -/
def row (v : (⟨S64, .f32⟩ : BufTy).Contents (Elt F)) : (⟨S1x64, .f32⟩ : BufTy).Contents (Elt F) :=
  shapeCast S1x64 v shapeCasts_S64_S1x64

end Cert.KernelIdeal.Stage

namespace Cert.KernelIdeal.Stage

open Idealize.ShloMosaic Idealize.ShloMosaic.ValueIdx Cert.KernelIdeal

variable [Facts]

/-- The matrix product on the extended reals: entry (p, q) is Σ_k a(p, k) · w(k, q). -/
abbrev mm {m K n : ℕ} (a : (⟨2, ![m, K]⟩ : Shape).Idx → EReal) (w : (⟨2, ![K, n]⟩ : Shape).Idx → EReal) :
    (⟨2, ![m, n]⟩ : Shape).Idx → EReal :=
  Cert.MatProd.matProd a w

/-- Scale, shift and rectify, entry by entry: max(z(p, q) · s(0, q) + t(0, q), 0). -/
def bnr (z : S100000x64.Idx → EReal) (s t : S1x64.Idx → EReal) : S100000x64.Idx → EReal :=
  fun i => max (z i * s (ix2 (0 : Fin 1) (i 1)) + t (ix2 (0 : Fin 1) (i 1))) 0

/-- One layer as the kernel computes it: the matrix product, the aggregation, then scale, shift and rectify with
    the scale and shift rows taken from the batch statistics. -/
def layer {K : ℕ} (a : (⟨2, ![100000, K]⟩ : Shape).Idx → EReal) (ei : (⟨S2x1000000, .i32⟩ : BufTy).Contents (Elt Ideal))
    (w : (⟨2, ![K, 64]⟩ : Shape).Idx → EReal) (b g bt : (⟨S64, .f32⟩ : BufTy).Contents (Elt Ideal)) :
    S100000x64.Idx → EReal :=
  bnr (agg (F := Ideal) (mm a w) ei b)
    (row (F := Ideal) (scalev (F := Ideal) (agg (F := Ideal) (mm a w) ei b) g))
    (row (F := Ideal) (shiftv (F := Ideal) (agg (F := Ideal) (mm a w) ei b) g bt))

/-- The kernel's result: two such layers. -/
def out (x : (⟨S100000x128, .f32⟩ : BufTy).Contents (Elt Ideal)) (ei : (⟨S2x1000000, .i32⟩ : BufTy).Contents (Elt Ideal))
    (W1 : (⟨S128x64, .f32⟩ : BufTy).Contents (Elt Ideal)) (b1 g1 bt1 : (⟨S64, .f32⟩ : BufTy).Contents (Elt Ideal))
    (W2 : (⟨S64x64, .f32⟩ : BufTy).Contents (Elt Ideal)) (b2 g2 bt2 : (⟨S64, .f32⟩ : BufTy).Contents (Elt Ideal)) :
    (⟨S100000x64, .f32⟩ : BufTy).Contents (Elt Ideal) :=
  layer (K := 64) (layer (K := 128) x ei W1 b1 g1 bt1) ei W2 b2 g2 bt2

end Cert.KernelIdeal.Stage

end
-- ==== Proof.KerRunKeep.lean ====
/- What each stretch of host operations of the kernel program leaves alone: the list of the buffers its operations
   write, and that a buffer outside the list holds after the stretch what it held before it. The edge columns and
   the per-edge weights are computed once and read again in both layers; the bias, scale and shift vectors are
   arguments read late; all of them pass through the other stretches by these lemmas. -/
import proofs.«139092_j81415400063394_1_alg».proof.Proof.Gen.KernelIdeal.Launch

set_option maxRecDepth 16384

noncomputable section

namespace Cert.KernelIdeal.KerRun

open Idealize.ShloMosaic Idealize.ShloMosaic.TcCoe
open Idealize.SL.Sem
open Cert.KernelIdeal.Gen (hostOps0 hostOps0_1 hostOps0_2 hostOps1 hostOps1_1 hostOps1_2 hostOps3 hostOps3_1 hostOps3_2)

variable {F : FTy → Type} [FloatOps F]

/-- The buffers the operations of `hostOps0` write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps0` does not write keeps its contents. -/
theorem keep_hostOps0 (V : Valuation τ sig (Elt F)) (r : Ref sig .tc) (h : r ∉ hostOps0_W) :
    StableHlo.after (hostOps0 (F := F)) V (Proc.devRef .tc r) = V (Proc.devRef .tc r) :=
  StableHlo.after_of_writes_sub hostOps0 V hostOps0_writes h

/-- The buffers the operations of `hostOps0_1` write. -/
abbrev hostOps0_1_W : List (Ref sig .tc) := [main_call0_v0, main_call0_v1, main_v14]
theorem hostOps0_1_writes : (hostOps0_1 : List (HloOp τ sig (Elt F))).Forall fun op => op.writes ⊆ (hostOps0_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps0_1` does not write keeps its contents. -/
theorem keep_hostOps0_1 (V : Valuation τ sig (Elt F)) (r : Ref sig .tc) (h : r ∉ hostOps0_1_W) :
    StableHlo.after (hostOps0_1 (F := F)) V (Proc.devRef .tc r) = V (Proc.devRef .tc r) :=
  StableHlo.after_of_writes_sub hostOps0_1 V hostOps0_1_writes h

/-- The buffers the operations of `hostOps0_2` write. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps0_2` does not write keeps its contents. -/
theorem keep_hostOps0_2 (V : Valuation τ sig (Elt F)) (r : Ref sig .tc) (h : r ∉ hostOps0_2_W) :
    StableHlo.after (hostOps0_2 (F := F)) V (Proc.devRef .tc r) = V (Proc.devRef .tc r) :=
  StableHlo.after_of_writes_sub hostOps0_2 V hostOps0_2_writes h

/-- The buffers the operations of `hostOps1` write. -/
abbrev hostOps1_W : List (Ref sig .tc) := [main_c_6, main_v31, main_v32, main_c_7, main_v33, main_v34, main_v35, main_v36, main_v37, main_v38, main_v39, main_v40, main_cst_8, main_v41, main_v42, main_v43, main_v44, main_v45, main_v46, main_cst_9, main_v47, main_cst_10, main_v48, main_v49, main_c_11]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps1` does not write keeps its contents. -/
theorem keep_hostOps1 (V : Valuation τ sig (Elt F)) (r : Ref sig .tc) (h : r ∉ hostOps1_W) :
    StableHlo.after (hostOps1 (F := F)) V (Proc.devRef .tc r) = V (Proc.devRef .tc r) :=
  StableHlo.after_of_writes_sub hostOps1 V hostOps1_writes h

/-- The buffers the operations of `hostOps1_1` write. -/
abbrev hostOps1_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v50]
theorem hostOps1_1_writes : (hostOps1_1 : List (HloOp τ sig (Elt F))).Forall fun op => op.writes ⊆ (hostOps1_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps1_1` does not write keeps its contents. -/
theorem keep_hostOps1_1 (V : Valuation τ sig (Elt F)) (r : Ref sig .tc) (h : r ∉ hostOps1_1_W) :
    StableHlo.after (hostOps1_1 (F := F)) V (Proc.devRef .tc r) = V (Proc.devRef .tc r) :=
  StableHlo.after_of_writes_sub hostOps1_1 V hostOps1_1_writes h

/-- The buffers the operations of `hostOps1_2` write. -/
abbrev hostOps1_2_W : List (Ref sig .tc) := [main_cst_12, main_v51, main_v52, main_v53, main_v54, main_v55, main_v56, main_v57, main_v58]
theorem hostOps1_2_writes : (hostOps1_2 : List (HloOp τ sig (Elt F))).Forall fun op => op.writes ⊆ (hostOps1_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps1_2` does not write keeps its contents. -/
theorem keep_hostOps1_2 (V : Valuation τ sig (Elt F)) (r : Ref sig .tc) (h : r ∉ hostOps1_2_W) :
    StableHlo.after (hostOps1_2 (F := F)) V (Proc.devRef .tc r) = V (Proc.devRef .tc r) :=
  StableHlo.after_of_writes_sub hostOps1_2 V hostOps1_2_writes h

/-- The buffers the operations of `hostOps3` write. -/
abbrev hostOps3_W : List (Ref sig .tc) := [main_c_13, main_v61, main_v62, main_c_14, main_v63, main_v64, main_v65, main_v66, main_v67, main_v68, main_v69, main_v70, main_cst_15, main_v71, main_v72, main_v73, main_v74, main_v75, main_v76, main_cst_16, main_v77, main_cst_17, main_v78, main_v79, main_c_18]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps3` does not write keeps its contents. -/
theorem keep_hostOps3 (V : Valuation τ sig (Elt F)) (r : Ref sig .tc) (h : r ∉ hostOps3_W) :
    StableHlo.after (hostOps3 (F := F)) V (Proc.devRef .tc r) = V (Proc.devRef .tc r) :=
  StableHlo.after_of_writes_sub hostOps3 V hostOps3_writes h

/-- The buffers the operations of `hostOps3_1` write. -/
abbrev hostOps3_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v80]
theorem hostOps3_1_writes : (hostOps3_1 : List (HloOp τ sig (Elt F))).Forall fun op => op.writes ⊆ (hostOps3_1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps3_1` does not write keeps its contents. -/
theorem keep_hostOps3_1 (V : Valuation τ sig (Elt F)) (r : Ref sig .tc) (h : r ∉ hostOps3_1_W) :
    StableHlo.after (hostOps3_1 (F := F)) V (Proc.devRef .tc r) = V (Proc.devRef .tc r) :=
  StableHlo.after_of_writes_sub hostOps3_1 V hostOps3_1_writes h

/-- The buffers the operations of `hostOps3_2` write. -/
abbrev hostOps3_2_W : List (Ref sig .tc) := [main_cst_19, main_v81, main_v82, main_v83, main_v84, main_v85, main_v86, main_v87, main_v88]
theorem hostOps3_2_writes : (hostOps3_2 : List (HloOp τ sig (Elt F))).Forall fun op => op.writes ⊆ (hostOps3_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer `hostOps3_2` does not write keeps its contents. -/
theorem keep_hostOps3_2 (V : Valuation τ sig (Elt F)) (r : Ref sig .tc) (h : r ∉ hostOps3_2_W) :
    StableHlo.after (hostOps3_2 (F := F)) V (Proc.devRef .tc r) = V (Proc.devRef .tc r) :=
  StableHlo.after_of_writes_sub hostOps3_2 V hostOps3_2_writes h

end Cert.KernelIdeal.KerRun

end
-- ==== Proof.KerRunHost.lean ====
/- The host stretches of the kernel program read as the stages of the graph convolution. Over any buffer contents V
   at a stretch's entry, what the stretch leaves in the buffers the later program reads: the edge columns (the two
   rows of the edge list, each followed by the self loops), the per-edge weight dinv(src) · dinv(dst), and per layer
   the aggregation plus bias, its column means and variances, and the scale and shift rows γ · (var + ε)^(-1/2)
   and β − mean · scale. Each is the operations' composed term, which is the stage function by unfolding. -/
import proofs.«139092_j81415400063394_1_alg».proof.Proof.Gen.KernelIdeal.Launch
import proofs.«139092_j81415400063394_1_alg».proof.Proof.KerStages
import proofs.«139092_j81415400063394_1_alg».proof.Proof.KerRunKeep

set_option maxRecDepth 16384

noncomputable section

namespace Cert.KernelIdeal.KerRun

open Idealize.ShloMosaic Idealize.ShloMosaic.TcCoe
open Idealize.SL.Sem
open Cert.KernelIdeal.Gen (hostOps0 hostOps0_1 hostOps0_2 hostOps1 hostOps1_1 hostOps1_2 hostOps3 hostOps3_1 hostOps3_2)

variable {F : FTy → Type} [FloatOps F]

variable [Facts]

/-! ## The edge columns and weights (computed once, before the first region) -/

theorem hostOps0_main_v5 (V : Valuation τ sig (Elt F)) :
    StableHlo.after (hostOps0 (F := F)) V (Proc.devRef .tc main_v5) = Stage.srcv (F := F) (V (Proc.devRef .tc main_arg1)) := by
  after_results_simp; rfl

theorem hostOps0_main_v6 (V : Valuation τ sig (Elt F)) :
    StableHlo.after (hostOps0 (F := F)) V (Proc.devRef .tc main_v6) = Stage.dstv (F := F) (V (Proc.devRef .tc main_arg1)) := by
  after_results_simp; rfl

/-- Where the in-degree is positive. -/
theorem hostOps0_main_v12 (V : Valuation τ sig (Elt F)) :
    StableHlo.after (hostOps0 (F := F)) V (Proc.devRef .tc main_v12)
      = cmpf .ogt (Stage.deg (F := F) (V (Proc.devRef .tc main_arg1))) (broadcastInDim S100000 ![] Gen.bcast_S_S100000 (constant S_ .f32 0x00000000#32)) := by
  after_results_simp; rfl

/-- The in-degree to the power −1/2. -/
theorem hostOps0_main_v13 (V : Valuation τ sig (Elt F)) :
    StableHlo.after (hostOps0 (F := F)) V (Proc.devRef .tc main_v13) = Host.rsqrt (Stage.deg (F := F) (V (Proc.devRef .tc main_arg1))) := by
  after_results_simp; rfl

theorem hostOps0_main_cst_2 (V : Valuation τ sig (Elt F)) :
    StableHlo.after (hostOps0 (F := F)) V (Proc.devRef .tc main_cst_2) = constant S_ .f32 0x00000000#32 := by
  after_results_simp

/-- dinv: the power where the degree is positive, 0 elsewhere. -/
theorem hostOps0_1_main_v14 (V : Valuation τ sig (Elt F)) :
    StableHlo.after (hostOps0_1 (F := F)) V (Proc.devRef .tc main_v14)
      = select (V (Proc.devRef .tc main_v12)) (V (Proc.devRef .tc main_v13)) (broadcastInDim S100000 ![] Gen.bcast_S_S100000 (id (V (Proc.devRef .tc main_cst_2)))) := by
  after_results_simp; rfl

/-- The per-edge weight: dinv at the source times dinv at the destination. -/
theorem hostOps0_2_main_v29 (V : Valuation τ sig (Elt F)) :
    StableHlo.after (hostOps0_2 (F := F)) V (Proc.devRef .tc main_v29)
      = mulf (Host.gather gather_S100000_S1100000x1_S1100000_n_0_n_n_0_1_1 (V (Proc.devRef .tc main_v14)) (Stage.wrap (F := F) (V (Proc.devRef .tc main_v5))))
             (Host.gather gather_S100000_S1100000x1_S1100000_n_0_n_n_0_1_1 (V (Proc.devRef .tc main_v14)) (Stage.wrap (F := F) (V (Proc.devRef .tc main_v6)))) := by
  after_results_simp; rfl

/-- After the three stretches before the first region the source column is that of the edge list. -/
theorem edges_main_v5 (V : Valuation τ sig (Elt F)) :
    StableHlo.after (hostOps0_2 (F := F)) (StableHlo.after (hostOps0_1 (F := F)) (StableHlo.after (hostOps0 (F := F)) V)) (Proc.devRef .tc main_v5) = Stage.srcv (F := F) (V (Proc.devRef .tc main_arg1)) :=
  (keep_hostOps0_2 _ main_v5 (by decide)).trans <| (keep_hostOps0_1 _ main_v5 (by decide)).trans <| hostOps0_main_v5 V

/-- After the three stretches before the first region the destination column is that of the edge list. -/
theorem edges_main_v6 (V : Valuation τ sig (Elt F)) :
    StableHlo.after (hostOps0_2 (F := F)) (StableHlo.after (hostOps0_1 (F := F)) (StableHlo.after (hostOps0 (F := F)) V)) (Proc.devRef .tc main_v6) = Stage.dstv (F := F) (V (Proc.devRef .tc main_arg1)) :=
  (keep_hostOps0_2 _ main_v6 (by decide)).trans <| (keep_hostOps0_1 _ main_v6 (by decide)).trans <| hostOps0_main_v6 V

/-- After the three stretches before the first region the per-edge weights are those of the edge list. -/
theorem edges_main_v29 (V : Valuation τ sig (Elt F)) :
    StableHlo.after (hostOps0_2 (F := F)) (StableHlo.after (hostOps0_1 (F := F)) (StableHlo.after (hostOps0 (F := F)) V)) (Proc.devRef .tc main_v29) = Stage.normv (F := F) (V (Proc.devRef .tc main_arg1)) := by
  rw [hostOps0_2_main_v29, hostOps0_1_main_v14, keep_hostOps0_1 _ main_v5 (by decide), keep_hostOps0_1 _ main_v6 (by decide),
    hostOps0_main_v5, hostOps0_main_v6, hostOps0_main_v12, hostOps0_main_v13, hostOps0_main_cst_2]
  rfl

/-! ## Layer 1: the aggregation, the batch statistics, the scale and shift rows -/

/-- The aggregation of `main_v30` along the edges plus the bias, when the edge columns and weights are those of `ei`. -/
theorem hostOps1_main_v46 (V : Valuation τ sig (Elt F)) (ei : (⟨S2x1000000, .i32⟩ : BufTy).Contents (Elt F)) (hs : V (Proc.devRef .tc main_v5) = Stage.srcv (F := F) ei) (hd : V (Proc.devRef .tc main_v6) = Stage.dstv (F := F) ei) (hn : V (Proc.devRef .tc main_v29) = Stage.normv (F := F) ei) :
    StableHlo.after (hostOps1 (F := F)) V (Proc.devRef .tc main_v46) = Stage.agg (F := F) (V (Proc.devRef .tc main_v30)) ei (V (Proc.devRef .tc main_arg3)) := by
  after_results_simp; rw [hs, hd, hn]; rfl

/-- The column means of that aggregation. -/
theorem hostOps1_main_v49 (V : Valuation τ sig (Elt F)) (ei : (⟨S2x1000000, .i32⟩ : BufTy).Contents (Elt F)) (hs : V (Proc.devRef .tc main_v5) = Stage.srcv (F := F) ei) (hd : V (Proc.devRef .tc main_v6) = Stage.dstv (F := F) ei) (hn : V (Proc.devRef .tc main_v29) = Stage.normv (F := F) ei) :
    StableHlo.after (hostOps1 (F := F)) V (Proc.devRef .tc main_v49) = Stage.meanv (F := F) (Stage.agg (F := F) (V (Proc.devRef .tc main_v30)) ei (V (Proc.devRef .tc main_arg3))) := by
  after_results_simp; rw [hs, hd, hn]; rfl

/-- The degrees of freedom taken off the variance's divisor: the integer 0. -/
theorem hostOps1_main_c_11 (V : Valuation τ sig (Elt F)) :
    StableHlo.after (hostOps1 (F := F)) V (Proc.devRef .tc main_c_11) = constantI S_ 32 0#32 := by
  after_results_simp

/-- The column variances of `main_v46`, the divisor's correction being 0. -/
theorem hostOps1_1_main_v50 (V : Valuation τ sig (Elt F)) (hc : V (Proc.devRef .tc main_c_11) = constantI S_ 32 0#32) :
    StableHlo.after (hostOps1_1 (F := F)) V (Proc.devRef .tc main_v50) = Stage.varv (F := F) (V (Proc.devRef .tc main_v46)) := by
  after_results_simp; rw [hc]; rfl

/-- The scale row: γ · (variance + ε)^(-1/2), as a one-row matrix. -/
theorem hostOps1_2_main_v57 (V : Valuation τ sig (Elt F)) :
    StableHlo.after (hostOps1_2 (F := F)) V (Proc.devRef .tc main_v57)
      = Stage.row (F := F) (mulf (V (Proc.devRef .tc main_arg4)) (Host.rsqrt (addf (V (Proc.devRef .tc main_v50)) (broadcastInDim S64 ![] Gen.bcast_S_S64 (constant S_ .f32 0x3727C5AC#32))))) := by
  after_results_simp; rfl

/-- The shift row: β − mean · scale, as a one-row matrix. -/
theorem hostOps1_2_main_v58 (V : Valuation τ sig (Elt F)) :
    StableHlo.after (hostOps1_2 (F := F)) V (Proc.devRef .tc main_v58)
      = Stage.row (F := F) (subf (V (Proc.devRef .tc main_arg5)) (mulf (V (Proc.devRef .tc main_v49)) (mulf (V (Proc.devRef .tc main_arg4)) (Host.rsqrt (addf (V (Proc.devRef .tc main_v50)) (broadcastInDim S64 ![] Gen.bcast_S_S64 (constant S_ .f32 0x3727C5AC#32))))))) := by
  after_results_simp; rfl

/-- Layer 1's three stretches together: the aggregation reaches the region as computed. -/
theorem layer1_main_v46 (V : Valuation τ sig (Elt F)) (ei : (⟨S2x1000000, .i32⟩ : BufTy).Contents (Elt F)) (hs : V (Proc.devRef .tc main_v5) = Stage.srcv (F := F) ei) (hd : V (Proc.devRef .tc main_v6) = Stage.dstv (F := F) ei) (hn : V (Proc.devRef .tc main_v29) = Stage.normv (F := F) ei) :
    StableHlo.after (hostOps1_2 (F := F)) (StableHlo.after (hostOps1_1 (F := F)) (StableHlo.after (hostOps1 (F := F)) V)) (Proc.devRef .tc main_v46) = Stage.agg (F := F) (V (Proc.devRef .tc main_v30)) ei (V (Proc.devRef .tc main_arg3)) :=
  (keep_hostOps1_2 _ main_v46 (by decide)).trans <| (keep_hostOps1_1 _ main_v46 (by decide)).trans <| hostOps1_main_v46 V ei hs hd hn

/-- Layer 1's three stretches together: the scale row is that of the aggregation's statistics. -/
theorem layer1_main_v57 (V : Valuation τ sig (Elt F)) (ei : (⟨S2x1000000, .i32⟩ : BufTy).Contents (Elt F)) (hs : V (Proc.devRef .tc main_v5) = Stage.srcv (F := F) ei) (hd : V (Proc.devRef .tc main_v6) = Stage.dstv (F := F) ei) (hn : V (Proc.devRef .tc main_v29) = Stage.normv (F := F) ei) :
    StableHlo.after (hostOps1_2 (F := F)) (StableHlo.after (hostOps1_1 (F := F)) (StableHlo.after (hostOps1 (F := F)) V)) (Proc.devRef .tc main_v57) = Stage.row (F := F) (Stage.scalev (F := F) (Stage.agg (F := F) (V (Proc.devRef .tc main_v30)) ei (V (Proc.devRef .tc main_arg3))) (V (Proc.devRef .tc main_arg4))) := by
  rw [hostOps1_2_main_v57, keep_hostOps1_1 _ main_arg4 (by decide), keep_hostOps1 _ main_arg4 (by decide),
    hostOps1_1_main_v50 _ (hostOps1_main_c_11 V), hostOps1_main_v46 V ei hs hd hn]
  rfl

/-- Layer 1's three stretches together: the shift row is that of the aggregation's statistics. -/
theorem layer1_main_v58 (V : Valuation τ sig (Elt F)) (ei : (⟨S2x1000000, .i32⟩ : BufTy).Contents (Elt F)) (hs : V (Proc.devRef .tc main_v5) = Stage.srcv (F := F) ei) (hd : V (Proc.devRef .tc main_v6) = Stage.dstv (F := F) ei) (hn : V (Proc.devRef .tc main_v29) = Stage.normv (F := F) ei) :
    StableHlo.after (hostOps1_2 (F := F)) (StableHlo.after (hostOps1_1 (F := F)) (StableHlo.after (hostOps1 (F := F)) V)) (Proc.devRef .tc main_v58) = Stage.row (F := F) (Stage.shiftv (F := F) (Stage.agg (F := F) (V (Proc.devRef .tc main_v30)) ei (V (Proc.devRef .tc main_arg3))) (V (Proc.devRef .tc main_arg4)) (V (Proc.devRef .tc main_arg5))) := by
  rw [hostOps1_2_main_v58, keep_hostOps1_1 _ main_arg4 (by decide), keep_hostOps1 _ main_arg4 (by decide),
    keep_hostOps1_1 _ main_arg5 (by decide), keep_hostOps1 _ main_arg5 (by decide),
    keep_hostOps1_1 _ main_v49 (by decide), hostOps1_main_v49 V ei hs hd hn,
    hostOps1_1_main_v50 _ (hostOps1_main_c_11 V), hostOps1_main_v46 V ei hs hd hn]
  rfl

/-! ## Layer 2: the aggregation, the batch statistics, the scale and shift rows -/

/-- The aggregation of `main_v60` along the edges plus the bias, when the edge columns and weights are those of `ei`. -/
theorem hostOps3_main_v76 (V : Valuation τ sig (Elt F)) (ei : (⟨S2x1000000, .i32⟩ : BufTy).Contents (Elt F)) (hs : V (Proc.devRef .tc main_v5) = Stage.srcv (F := F) ei) (hd : V (Proc.devRef .tc main_v6) = Stage.dstv (F := F) ei) (hn : V (Proc.devRef .tc main_v29) = Stage.normv (F := F) ei) :
    StableHlo.after (hostOps3 (F := F)) V (Proc.devRef .tc main_v76) = Stage.agg (F := F) (V (Proc.devRef .tc main_v60)) ei (V (Proc.devRef .tc main_arg7)) := by
  after_results_simp; rw [hs, hd, hn]; rfl

/-- The column means of that aggregation. -/
theorem hostOps3_main_v79 (V : Valuation τ sig (Elt F)) (ei : (⟨S2x1000000, .i32⟩ : BufTy).Contents (Elt F)) (hs : V (Proc.devRef .tc main_v5) = Stage.srcv (F := F) ei) (hd : V (Proc.devRef .tc main_v6) = Stage.dstv (F := F) ei) (hn : V (Proc.devRef .tc main_v29) = Stage.normv (F := F) ei) :
    StableHlo.after (hostOps3 (F := F)) V (Proc.devRef .tc main_v79) = Stage.meanv (F := F) (Stage.agg (F := F) (V (Proc.devRef .tc main_v60)) ei (V (Proc.devRef .tc main_arg7))) := by
  after_results_simp; rw [hs, hd, hn]; rfl

/-- The degrees of freedom taken off the variance's divisor: the integer 0. -/
theorem hostOps3_main_c_18 (V : Valuation τ sig (Elt F)) :
    StableHlo.after (hostOps3 (F := F)) V (Proc.devRef .tc main_c_18) = constantI S_ 32 0#32 := by
  after_results_simp

/-- The column variances of `main_v76`, the divisor's correction being 0. -/
theorem hostOps3_1_main_v80 (V : Valuation τ sig (Elt F)) (hc : V (Proc.devRef .tc main_c_18) = constantI S_ 32 0#32) :
    StableHlo.after (hostOps3_1 (F := F)) V (Proc.devRef .tc main_v80) = Stage.varv (F := F) (V (Proc.devRef .tc main_v76)) := by
  after_results_simp; rw [hc]; rfl

/-- The scale row: γ · (variance + ε)^(-1/2), as a one-row matrix. -/
theorem hostOps3_2_main_v87 (V : Valuation τ sig (Elt F)) :
    StableHlo.after (hostOps3_2 (F := F)) V (Proc.devRef .tc main_v87)
      = Stage.row (F := F) (mulf (V (Proc.devRef .tc main_arg8)) (Host.rsqrt (addf (V (Proc.devRef .tc main_v80)) (broadcastInDim S64 ![] Gen.bcast_S_S64 (constant S_ .f32 0x3727C5AC#32))))) := by
  after_results_simp; rfl

/-- The shift row: β − mean · scale, as a one-row matrix. -/
theorem hostOps3_2_main_v88 (V : Valuation τ sig (Elt F)) :
    StableHlo.after (hostOps3_2 (F := F)) V (Proc.devRef .tc main_v88)
      = Stage.row (F := F) (subf (V (Proc.devRef .tc main_arg9)) (mulf (V (Proc.devRef .tc main_v79)) (mulf (V (Proc.devRef .tc main_arg8)) (Host.rsqrt (addf (V (Proc.devRef .tc main_v80)) (broadcastInDim S64 ![] Gen.bcast_S_S64 (constant S_ .f32 0x3727C5AC#32))))))) := by
  after_results_simp; rfl

/-- Layer 2's three stretches together: the aggregation reaches the region as computed. -/
theorem layer2_main_v76 (V : Valuation τ sig (Elt F)) (ei : (⟨S2x1000000, .i32⟩ : BufTy).Contents (Elt F)) (hs : V (Proc.devRef .tc main_v5) = Stage.srcv (F := F) ei) (hd : V (Proc.devRef .tc main_v6) = Stage.dstv (F := F) ei) (hn : V (Proc.devRef .tc main_v29) = Stage.normv (F := F) ei) :
    StableHlo.after (hostOps3_2 (F := F)) (StableHlo.after (hostOps3_1 (F := F)) (StableHlo.after (hostOps3 (F := F)) V)) (Proc.devRef .tc main_v76) = Stage.agg (F := F) (V (Proc.devRef .tc main_v60)) ei (V (Proc.devRef .tc main_arg7)) :=
  (keep_hostOps3_2 _ main_v76 (by decide)).trans <| (keep_hostOps3_1 _ main_v76 (by decide)).trans <| hostOps3_main_v76 V ei hs hd hn

/-- Layer 2's three stretches together: the scale row is that of the aggregation's statistics. -/
theorem layer2_main_v87 (V : Valuation τ sig (Elt F)) (ei : (⟨S2x1000000, .i32⟩ : BufTy).Contents (Elt F)) (hs : V (Proc.devRef .tc main_v5) = Stage.srcv (F := F) ei) (hd : V (Proc.devRef .tc main_v6) = Stage.dstv (F := F) ei) (hn : V (Proc.devRef .tc main_v29) = Stage.normv (F := F) ei) :
    StableHlo.after (hostOps3_2 (F := F)) (StableHlo.after (hostOps3_1 (F := F)) (StableHlo.after (hostOps3 (F := F)) V)) (Proc.devRef .tc main_v87) = Stage.row (F := F) (Stage.scalev (F := F) (Stage.agg (F := F) (V (Proc.devRef .tc main_v60)) ei (V (Proc.devRef .tc main_arg7))) (V (Proc.devRef .tc main_arg8))) := by
  rw [hostOps3_2_main_v87, keep_hostOps3_1 _ main_arg8 (by decide), keep_hostOps3 _ main_arg8 (by decide),
    hostOps3_1_main_v80 _ (hostOps3_main_c_18 V), hostOps3_main_v76 V ei hs hd hn]
  rfl

/-- Layer 2's three stretches together: the shift row is that of the aggregation's statistics. -/
theorem layer2_main_v88 (V : Valuation τ sig (Elt F)) (ei : (⟨S2x1000000, .i32⟩ : BufTy).Contents (Elt F)) (hs : V (Proc.devRef .tc main_v5) = Stage.srcv (F := F) ei) (hd : V (Proc.devRef .tc main_v6) = Stage.dstv (F := F) ei) (hn : V (Proc.devRef .tc main_v29) = Stage.normv (F := F) ei) :
    StableHlo.after (hostOps3_2 (F := F)) (StableHlo.after (hostOps3_1 (F := F)) (StableHlo.after (hostOps3 (F := F)) V)) (Proc.devRef .tc main_v88) = Stage.row (F := F) (Stage.shiftv (F := F) (Stage.agg (F := F) (V (Proc.devRef .tc main_v60)) ei (V (Proc.devRef .tc main_arg7))) (V (Proc.devRef .tc main_arg8)) (V (Proc.devRef .tc main_arg9))) := by
  rw [hostOps3_2_main_v88, keep_hostOps3_1 _ main_arg8 (by decide), keep_hostOps3 _ main_arg8 (by decide),
    keep_hostOps3_1 _ main_arg9 (by decide), keep_hostOps3 _ main_arg9 (by decide),
    keep_hostOps3_1 _ main_v79 (by decide), hostOps3_main_v79 V ei hs hd hn,
    hostOps3_1_main_v80 _ (hostOps3_main_c_18 V), hostOps3_main_v76 V ei hs hd hn]
  rfl

end Cert.KernelIdeal.KerRun

end
-- ==== Proof.KerRunWalk.lean ====
/- The kernel program's result as the stages of the graph convolution. The contents of the buffers at the thirteen
   segment boundaries are walked from the launch memory to the return: the host stretches by their stage lemmas,
   the regions by their closed forms (the matrix product; scale, shift and rectify), everything a segment does not
   write carried across it. The result array ends at two layers of
   max((agg (a · W) + b) · scale + shift, 0), the scale and shift rows taken from the batch statistics. -/
import proofs.«139092_j81415400063394_1_alg».proof.Proof.Gen.KernelIdeal.Frame
import proofs.«139092_j81415400063394_1_alg».proof.Proof.KerStages
import proofs.«139092_j81415400063394_1_alg».proof.Proof.KerRunKeep
import proofs.«139092_j81415400063394_1_alg».proof.Proof.KerRunHost

set_option maxRecDepth 16384

noncomputable section

namespace Cert.KernelIdeal.KerRun

open Idealize.ShloMosaic Idealize.ShloMosaic.TcCoe
open Idealize.SL.Sem

variable (m : (ℓ : Loc nD τ sig) → Buf (Elt Ideal) ℓ) (ρ : Dev nD → PrngReg) (c : Dev nD)

/-- The first layer before normalisation: the features times the first weights, aggregated along the edges, plus
    the first bias. -/
def z1 : (⟨S100000x64, .f32⟩ : BufTy).Contents (Elt Ideal) :=
  Stage.agg (F := Ideal) (Stage.mm (K := 128) (m ((c.tc : Thread nD τ).loc main_arg0)) (m ((c.tc : Thread nD τ).loc main_arg2))) (m ((c.tc : Thread nD τ).loc main_arg1)) (m ((c.tc : Thread nD τ).loc main_arg3))

/-- The first layer: normalised over the rows, scaled, shifted and rectified. -/
def h1 : (⟨S100000x64, .f32⟩ : BufTy).Contents (Elt Ideal) :=
  Stage.bnr (z1 m c) (Stage.row (F := Ideal) (Stage.scalev (F := Ideal) (z1 m c) (m ((c.tc : Thread nD τ).loc main_arg4))))
    (Stage.row (F := Ideal) (Stage.shiftv (F := Ideal) (z1 m c) (m ((c.tc : Thread nD τ).loc main_arg4)) (m ((c.tc : Thread nD τ).loc main_arg5))))

/-- The second layer before normalisation. -/
def z2 : (⟨S100000x64, .f32⟩ : BufTy).Contents (Elt Ideal) :=
  Stage.agg (F := Ideal) (Stage.mm (K := 64) (h1 m c) (m ((c.tc : Thread nD τ).loc main_arg6))) (m ((c.tc : Thread nD τ).loc main_arg1)) (m ((c.tc : Thread nD τ).loc main_arg7))

/-- The two layers are the stage `out` of the argument arrays. -/
theorem out_eq :
    Stage.bnr (z2 m c) (Stage.row (F := Ideal) (Stage.scalev (F := Ideal) (z2 m c) (m ((c.tc : Thread nD τ).loc main_arg8))))
        (Stage.row (F := Ideal) (Stage.shiftv (F := Ideal) (z2 m c) (m ((c.tc : Thread nD τ).loc main_arg8)) (m ((c.tc : Thread nD τ).loc main_arg9))))
      = Stage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Stage.out Stage.layer z2 h1 z1; rfl

/-! ## Before the first region: the edge columns, the weights, the arguments -/

theorem W3_main_v5 : Gen.W3 m ρ c (Proc.devRef .tc main_v5) = Stage.srcv (F := Ideal) (m ((c.tc : Thread nD τ).loc main_arg1)) := edges_main_v5 (Gen.W0 m ρ c)
theorem W3_main_v6 : Gen.W3 m ρ c (Proc.devRef .tc main_v6) = Stage.dstv (F := Ideal) (m ((c.tc : Thread nD τ).loc main_arg1)) := edges_main_v6 (Gen.W0 m ρ c)
theorem W3_main_v29 : Gen.W3 m ρ c (Proc.devRef .tc main_v29) = Stage.normv (F := Ideal) (m ((c.tc : Thread nD τ).loc main_arg1)) := edges_main_v29 (Gen.W0 m ρ c)
theorem W3_main_arg0 : Gen.W3 m ρ c (Proc.devRef .tc main_arg0) = (m ((c.tc : Thread nD τ).loc main_arg0)) :=
  (keep_hostOps0_2 _ main_arg0 (by decide)).trans <|
    (keep_hostOps0_1 _ main_arg0 (by decide)).trans <|
    (keep_hostOps0 _ main_arg0 (by decide)).trans <|
    rfl
theorem W3_main_arg2 : Gen.W3 m ρ c (Proc.devRef .tc main_arg2) = (m ((c.tc : Thread nD τ).loc main_arg2)) :=
  (keep_hostOps0_2 _ main_arg2 (by decide)).trans <|
    (keep_hostOps0_1 _ main_arg2 (by decide)).trans <|
    (keep_hostOps0 _ main_arg2 (by decide)).trans <|
    rfl

/-! ## The first region: the features times the first weights -/

section
variable (r0 : ∀ (V : (c : Dev nD) → (b : Ref sig .tc) → Buf (Elt Ideal) ((c : Thread nD τ).loc b)) (c : Dev nD), (Gen.dat0 V c).arrAt 2 cfg0.N = Stage.mm (V c main_arg0) (V c main_arg2))
include r0

theorem W4_main_v30 : Gen.W4 m ρ c (Proc.devRef .tc main_v30) = Stage.mm (K := 128) (m ((c.tc : Thread nD τ).loc main_arg0)) (m ((c.tc : Thread nD τ).loc main_arg2)) := by
  have h := (Gen.W4_arr m ρ c 2).trans (r0 (Gen.V3 m ρ) c)
  rw [show Gen.V3 m ρ c main_arg0 = (m ((c.tc : Thread nD τ).loc main_arg0)) from W3_main_arg0 m ρ c,
    show Gen.V3 m ρ c main_arg2 = (m ((c.tc : Thread nD τ).loc main_arg2)) from W3_main_arg2 m ρ c] at h
  exact h
end

theorem W4_main_v5 : Gen.W4 m ρ c (Proc.devRef .tc main_v5) = Stage.srcv (F := Ideal) (m ((c.tc : Thread nD τ).loc main_arg1)) :=
  (Gen.W4_of_ne m ρ c main_v5 (by decide)).trans (W3_main_v5 m ρ c)
theorem W4_main_v6 : Gen.W4 m ρ c (Proc.devRef .tc main_v6) = Stage.dstv (F := Ideal) (m ((c.tc : Thread nD τ).loc main_arg1)) :=
  (Gen.W4_of_ne m ρ c main_v6 (by decide)).trans (W3_main_v6 m ρ c)
theorem W4_main_v29 : Gen.W4 m ρ c (Proc.devRef .tc main_v29) = Stage.normv (F := Ideal) (m ((c.tc : Thread nD τ).loc main_arg1)) :=
  (Gen.W4_of_ne m ρ c main_v29 (by decide)).trans (W3_main_v29 m ρ c)
theorem W4_main_arg3 : Gen.W4 m ρ c (Proc.devRef .tc main_arg3) = (m ((c.tc : Thread nD τ).loc main_arg3)) :=
  (Gen.W4_of_ne m ρ c main_arg3 (by decide)).trans <|
    (keep_hostOps0_2 _ main_arg3 (by decide)).trans <|
    (keep_hostOps0_1 _ main_arg3 (by decide)).trans <|
    (keep_hostOps0 _ main_arg3 (by decide)).trans <|
    rfl
theorem W4_main_arg4 : Gen.W4 m ρ c (Proc.devRef .tc main_arg4) = (m ((c.tc : Thread nD τ).loc main_arg4)) :=
  (Gen.W4_of_ne m ρ c main_arg4 (by decide)).trans <|
    (keep_hostOps0_2 _ main_arg4 (by decide)).trans <|
    (keep_hostOps0_1 _ main_arg4 (by decide)).trans <|
    (keep_hostOps0 _ main_arg4 (by decide)).trans <|
    rfl
theorem W4_main_arg5 : Gen.W4 m ρ c (Proc.devRef .tc main_arg5) = (m ((c.tc : Thread nD τ).loc main_arg5)) :=
  (Gen.W4_of_ne m ρ c main_arg5 (by decide)).trans <|
    (keep_hostOps0_2 _ main_arg5 (by decide)).trans <|
    (keep_hostOps0_1 _ main_arg5 (by decide)).trans <|
    (keep_hostOps0 _ main_arg5 (by decide)).trans <|
    rfl

/-! ## The first layer's host stretches and its normalisation region -/

section
variable (r0 : ∀ (V : (c : Dev nD) → (b : Ref sig .tc) → Buf (Elt Ideal) ((c : Thread nD τ).loc b)) (c : Dev nD), (Gen.dat0 V c).arrAt 2 cfg0.N = Stage.mm (V c main_arg0) (V c main_arg2))
include r0

theorem W7_main_v46 : Gen.W7 m ρ c (Proc.devRef .tc main_v46) = z1 m c := by
  have h := layer1_main_v46 (Gen.W4 m ρ c) (m ((c.tc : Thread nD τ).loc main_arg1)) (W4_main_v5 m ρ c) (W4_main_v6 m ρ c) (W4_main_v29 m ρ c)
  rw [W4_main_v30 m ρ c r0, W4_main_arg3 m ρ c] at h
  exact h
theorem W7_main_v57 : Gen.W7 m ρ c (Proc.devRef .tc main_v57) = Stage.row (F := Ideal) (Stage.scalev (F := Ideal) (z1 m c) (m ((c.tc : Thread nD τ).loc main_arg4))) := by
  have h := layer1_main_v57 (Gen.W4 m ρ c) (m ((c.tc : Thread nD τ).loc main_arg1)) (W4_main_v5 m ρ c) (W4_main_v6 m ρ c) (W4_main_v29 m ρ c)
  rw [W4_main_v30 m ρ c r0, W4_main_arg3 m ρ c, W4_main_arg4 m ρ c] at h
  exact h
theorem W7_main_v58 : Gen.W7 m ρ c (Proc.devRef .tc main_v58) = Stage.row (F := Ideal) (Stage.shiftv (F := Ideal) (z1 m c) (m ((c.tc : Thread nD τ).loc main_arg4)) (m ((c.tc : Thread nD τ).loc main_arg5))) := by
  have h := layer1_main_v58 (Gen.W4 m ρ c) (m ((c.tc : Thread nD τ).loc main_arg1)) (W4_main_v5 m ρ c) (W4_main_v6 m ρ c) (W4_main_v29 m ρ c)
  rw [W4_main_v30 m ρ c r0, W4_main_arg3 m ρ c, W4_main_arg4 m ρ c, W4_main_arg5 m ρ c] at h
  exact h

variable (r1 : ∀ (V : (c : Dev nD) → (b : Ref sig .tc) → Buf (Elt Ideal) ((c : Thread nD τ).loc b)) (c : Dev nD), (Gen.dat1 V c).arrAt 3 cfg1.N = Stage.bnr (V c main_v46) (V c main_v57) (V c main_v58))
include r1

theorem W8_main_v59 : Gen.W8 m ρ c (Proc.devRef .tc main_v59) = h1 m c := by
  have h := (Gen.W8_arr m ρ c 3).trans (r1 (Gen.V7 m ρ) c)
  rw [show Gen.V7 m ρ c main_v46 = z1 m c from W7_main_v46 m ρ c r0,
    show Gen.V7 m ρ c main_v57 = _ from W7_main_v57 m ρ c r0,
    show Gen.V7 m ρ c main_v58 = _ from W7_main_v58 m ρ c r0] at h
  exact h
end

theorem W8_main_arg6 : Gen.W8 m ρ c (Proc.devRef .tc main_arg6) = (m ((c.tc : Thread nD τ).loc main_arg6)) :=
  (Gen.W8_of_ne m ρ c main_arg6 (by decide)).trans <|
    (keep_hostOps1_2 _ main_arg6 (by decide)).trans <|
    (keep_hostOps1_1 _ main_arg6 (by decide)).trans <|
    (keep_hostOps1 _ main_arg6 (by decide)).trans <|
    (Gen.W4_of_ne m ρ c main_arg6 (by decide)).trans <|
    (keep_hostOps0_2 _ main_arg6 (by decide)).trans <|
    (keep_hostOps0_1 _ main_arg6 (by decide)).trans <|
    (keep_hostOps0 _ main_arg6 (by decide)).trans <|
    rfl

/-! ## The third region: the first layer times the second weights -/

section
variable (r0 : ∀ (V : (c : Dev nD) → (b : Ref sig .tc) → Buf (Elt Ideal) ((c : Thread nD τ).loc b)) (c : Dev nD), (Gen.dat0 V c).arrAt 2 cfg0.N = Stage.mm (V c main_arg0) (V c main_arg2)) (r1 : ∀ (V : (c : Dev nD) → (b : Ref sig .tc) → Buf (Elt Ideal) ((c : Thread nD τ).loc b)) (c : Dev nD), (Gen.dat1 V c).arrAt 3 cfg1.N = Stage.bnr (V c main_v46) (V c main_v57) (V c main_v58)) (r2 : ∀ (V : (c : Dev nD) → (b : Ref sig .tc) → Buf (Elt Ideal) ((c : Thread nD τ).loc b)) (c : Dev nD), (Gen.dat2 V c).arrAt 2 cfg2.N = Stage.mm (V c main_v59) (V c main_arg6))
include r0 r1 r2

theorem W9_main_v60 : Gen.W9 m ρ c (Proc.devRef .tc main_v60) = Stage.mm (K := 64) (h1 m c) (m ((c.tc : Thread nD τ).loc main_arg6)) := by
  have h := (Gen.W9_arr m ρ c 2).trans (r2 (Gen.V8 m ρ) c)
  rw [show Gen.V8 m ρ c main_v59 = h1 m c from W8_main_v59 m ρ c r0 r1,
    show Gen.V8 m ρ c main_arg6 = (m ((c.tc : Thread nD τ).loc main_arg6)) from W8_main_arg6 m ρ c] at h
  exact h
end

theorem W9_main_v5 : Gen.W9 m ρ c (Proc.devRef .tc main_v5) = Stage.srcv (F := Ideal) (m ((c.tc : Thread nD τ).loc main_arg1)) :=
  (Gen.W9_of_ne m ρ c main_v5 (by decide)).trans <|
    (Gen.W8_of_ne m ρ c main_v5 (by decide)).trans <|
    (keep_hostOps1_2 _ main_v5 (by decide)).trans <|
    (keep_hostOps1_1 _ main_v5 (by decide)).trans <|
    (keep_hostOps1 _ main_v5 (by decide)).trans <|
    W4_main_v5 m ρ c
theorem W9_main_v6 : Gen.W9 m ρ c (Proc.devRef .tc main_v6) = Stage.dstv (F := Ideal) (m ((c.tc : Thread nD τ).loc main_arg1)) :=
  (Gen.W9_of_ne m ρ c main_v6 (by decide)).trans <|
    (Gen.W8_of_ne m ρ c main_v6 (by decide)).trans <|
    (keep_hostOps1_2 _ main_v6 (by decide)).trans <|
    (keep_hostOps1_1 _ main_v6 (by decide)).trans <|
    (keep_hostOps1 _ main_v6 (by decide)).trans <|
    W4_main_v6 m ρ c
theorem W9_main_v29 : Gen.W9 m ρ c (Proc.devRef .tc main_v29) = Stage.normv (F := Ideal) (m ((c.tc : Thread nD τ).loc main_arg1)) :=
  (Gen.W9_of_ne m ρ c main_v29 (by decide)).trans <|
    (Gen.W8_of_ne m ρ c main_v29 (by decide)).trans <|
    (keep_hostOps1_2 _ main_v29 (by decide)).trans <|
    (keep_hostOps1_1 _ main_v29 (by decide)).trans <|
    (keep_hostOps1 _ main_v29 (by decide)).trans <|
    W4_main_v29 m ρ c
theorem W9_main_arg7 : Gen.W9 m ρ c (Proc.devRef .tc main_arg7) = (m ((c.tc : Thread nD τ).loc main_arg7)) :=
  (Gen.W9_of_ne m ρ c main_arg7 (by decide)).trans <|
    (Gen.W8_of_ne m ρ c main_arg7 (by decide)).trans <|
    (keep_hostOps1_2 _ main_arg7 (by decide)).trans <|
    (keep_hostOps1_1 _ main_arg7 (by decide)).trans <|
    (keep_hostOps1 _ main_arg7 (by decide)).trans <|
    (Gen.W4_of_ne m ρ c main_arg7 (by decide)).trans <|
    (keep_hostOps0_2 _ main_arg7 (by decide)).trans <|
    (keep_hostOps0_1 _ main_arg7 (by decide)).trans <|
    (keep_hostOps0 _ main_arg7 (by decide)).trans <|
    rfl
theorem W9_main_arg8 : Gen.W9 m ρ c (Proc.devRef .tc main_arg8) = (m ((c.tc : Thread nD τ).loc main_arg8)) :=
  (Gen.W9_of_ne m ρ c main_arg8 (by decide)).trans <|
    (Gen.W8_of_ne m ρ c main_arg8 (by decide)).trans <|
    (keep_hostOps1_2 _ main_arg8 (by decide)).trans <|
    (keep_hostOps1_1 _ main_arg8 (by decide)).trans <|
    (keep_hostOps1 _ main_arg8 (by decide)).trans <|
    (Gen.W4_of_ne m ρ c main_arg8 (by decide)).trans <|
    (keep_hostOps0_2 _ main_arg8 (by decide)).trans <|
    (keep_hostOps0_1 _ main_arg8 (by decide)).trans <|
    (keep_hostOps0 _ main_arg8 (by decide)).trans <|
    rfl
theorem W9_main_arg9 : Gen.W9 m ρ c (Proc.devRef .tc main_arg9) = (m ((c.tc : Thread nD τ).loc main_arg9)) :=
  (Gen.W9_of_ne m ρ c main_arg9 (by decide)).trans <|
    (Gen.W8_of_ne m ρ c main_arg9 (by decide)).trans <|
    (keep_hostOps1_2 _ main_arg9 (by decide)).trans <|
    (keep_hostOps1_1 _ main_arg9 (by decide)).trans <|
    (keep_hostOps1 _ main_arg9 (by decide)).trans <|
    (Gen.W4_of_ne m ρ c main_arg9 (by decide)).trans <|
    (keep_hostOps0_2 _ main_arg9 (by decide)).trans <|
    (keep_hostOps0_1 _ main_arg9 (by decide)).trans <|
    (keep_hostOps0 _ main_arg9 (by decide)).trans <|
    rfl

/-! ## The second layer's host stretches and the last region -/

section
variable (r0 : ∀ (V : (c : Dev nD) → (b : Ref sig .tc) → Buf (Elt Ideal) ((c : Thread nD τ).loc b)) (c : Dev nD), (Gen.dat0 V c).arrAt 2 cfg0.N = Stage.mm (V c main_arg0) (V c main_arg2)) (r1 : ∀ (V : (c : Dev nD) → (b : Ref sig .tc) → Buf (Elt Ideal) ((c : Thread nD τ).loc b)) (c : Dev nD), (Gen.dat1 V c).arrAt 3 cfg1.N = Stage.bnr (V c main_v46) (V c main_v57) (V c main_v58)) (r2 : ∀ (V : (c : Dev nD) → (b : Ref sig .tc) → Buf (Elt Ideal) ((c : Thread nD τ).loc b)) (c : Dev nD), (Gen.dat2 V c).arrAt 2 cfg2.N = Stage.mm (V c main_v59) (V c main_arg6))
include r0 r1 r2

theorem W12_main_v76 : Gen.W12 m ρ c (Proc.devRef .tc main_v76) = z2 m c := by
  have h := layer2_main_v76 (Gen.W9 m ρ c) (m ((c.tc : Thread nD τ).loc main_arg1)) (W9_main_v5 m ρ c) (W9_main_v6 m ρ c) (W9_main_v29 m ρ c)
  rw [W9_main_v60 m ρ c r0 r1 r2, W9_main_arg7 m ρ c] at h
  exact h
theorem W12_main_v87 : Gen.W12 m ρ c (Proc.devRef .tc main_v87) = Stage.row (F := Ideal) (Stage.scalev (F := Ideal) (z2 m c) (m ((c.tc : Thread nD τ).loc main_arg8))) := by
  have h := layer2_main_v87 (Gen.W9 m ρ c) (m ((c.tc : Thread nD τ).loc main_arg1)) (W9_main_v5 m ρ c) (W9_main_v6 m ρ c) (W9_main_v29 m ρ c)
  rw [W9_main_v60 m ρ c r0 r1 r2, W9_main_arg7 m ρ c, W9_main_arg8 m ρ c] at h
  exact h
theorem W12_main_v88 : Gen.W12 m ρ c (Proc.devRef .tc main_v88) = Stage.row (F := Ideal) (Stage.shiftv (F := Ideal) (z2 m c) (m ((c.tc : Thread nD τ).loc main_arg8)) (m ((c.tc : Thread nD τ).loc main_arg9))) := by
  have h := layer2_main_v88 (Gen.W9 m ρ c) (m ((c.tc : Thread nD τ).loc main_arg1)) (W9_main_v5 m ρ c) (W9_main_v6 m ρ c) (W9_main_v29 m ρ c)
  rw [W9_main_v60 m ρ c r0 r1 r2, W9_main_arg7 m ρ c, W9_main_arg8 m ρ c, W9_main_arg9 m ρ c] at h
  exact h

variable (r3 : ∀ (V : (c : Dev nD) → (b : Ref sig .tc) → Buf (Elt Ideal) ((c : Thread nD τ).loc b)) (c : Dev nD), (Gen.dat3 V c).arrAt 3 cfg3.N = Stage.bnr (V c main_v76) (V c main_v87) (V c main_v88))
include r3

/-- The result array at the last boundary: the two layers of the argument arrays. -/
theorem W13_main_v89 : Gen.W13 m ρ c (Proc.devRef .tc main_v89) = Stage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h := (Gen.W13_arr m ρ c 3).trans (r3 (Gen.V12 m ρ) c)
  rw [show Gen.V12 m ρ c main_v76 = z2 m c from W12_main_v76 m ρ c r0 r1 r2,
    show Gen.V12 m ρ c main_v87 = _ from W12_main_v87 m ρ c r0 r1 r2,
    show Gen.V12 m ρ c main_v88 = _ from W12_main_v88 m ρ c r0 r1 r2, out_eq m c] at h
  exact h
end

end Cert.KernelIdeal.KerRun

end
-- ==== Proof.KerRegionRows.lean ====
/-
  Row blocks of a matrix product and of an entrywise scale–shift–rectify.

  The four pipelines of the network cut their 100000-row result into 20 blocks of 5000 rows and compute one block per
  grid point.  Two facts make a block of the result a function of the matching block of the input alone:
  row p of a product l · r needs only row p of l (and all of r), and an entry of max(z · s + t, 0) needs only the
  same entry of z (and the one-row s and t).  Both are stated here over plain functions of indices, away from any
  program, for a block that starts at row 5000 n.
-/
import proofs.«139092_j81415400063394_1_alg».proof.Proof.KerStages
import Idealize.ShloMosaic.Lib.ValueIdx

noncomputable section

namespace Cert.KernelIdeal.KerRegions

open Cert.KernelIdeal Idealize.ShloMosaic Idealize.ShloMosaic.ValueIdx

/-- The zero offsets of a whole block, spelt both ways. -/
theorem zero_offsets : (![0, 0] : Fin 2 → Nat) = fun _ => 0 := funext fun a => by fin_cases a <;> rfl

/-- Rows 5000 n, …, 5000 n + 4999 of a product l · r are the product of those rows of l with the whole of r:
    entry (p, q) of either is Σ_k l(5000 n + p, k) · r(k, q).  Here bl is that row block of l, br is r, and e places
    the block's entries in the product. -/
theorem matProd_rows {K : ℕ} (n : ℕ) (l : (⟨2, ![100000, K]⟩ : Shape).Idx → EReal) (r : (⟨2, ![K, 64]⟩ : Shape).Idx → EReal)
    (bl : (⟨2, ![5000, K]⟩ : Shape).Idx → EReal) (br : (⟨2, ![K, 64]⟩ : Shape).Idx → EReal)
    (e : (⟨2, ![5000, 64]⟩ : Shape).Idx → (⟨2, ![100000, 64]⟩ : Shape).Idx)
    (hl : ∀ (p : Fin 5000) (k : Fin K) (i : Fin 100000), i.val = 5000 * n + p.val → bl (ix2 p k) = l (ix2 i k))
    (hr : ∀ y, br y = r y)
    (he0 : ∀ j, (e j 0).val = 5000 * n + (j 0).val) (he1 : ∀ j, (e j 1).val = (j 1).val) :
    Cert.MatProd.matProd bl br = fun j => Cert.MatProd.matProd l r (e j) := by
  funext j
  show ∑ k : Fin K, bl (ix2 (j 0) k) * br (ix2 k (j 1)) = ∑ k : Fin K, l (ix2 (e j 0) k) * r (ix2 k (e j 1))
  refine Finset.sum_congr rfl fun k _ => ?_
  rw [hl (j 0) k (e j 0) (he0 j), hr]
  exact congrArg (fun q : Fin 64 => l (ix2 (e j 0) k) * r (ix2 k q)) (Fin.ext (he1 j).symm)

/-- Scale, shift and rectify on a row block: entry j of rows 5000 n, …, 5000 n + 4999, computed from that row block
    of z and the whole scale and shift rows, is the entry of the whole array at the place i where j sits. -/
theorem bnr_rows (n : ℕ) (z : S100000x64.Idx → EReal) (s t : S1x64.Idx → EReal)
    (bz : S5000x64.Idx → EReal) (bs bt : S1x64.Idx → EReal)
    (hz : ∀ (j : S5000x64.Idx) (i : S100000x64.Idx), (i 0).val = 5000 * n + (j 0).val → (i 1).val = (j 1).val → bz j = z i)
    (hs : ∀ y, bs y = s y) (ht : ∀ y, bt y = t y)
    (j : S5000x64.Idx) (i : S100000x64.Idx) (h0 : (i 0).val = 5000 * n + (j 0).val) (h1 : (i 1).val = (j 1).val) :
    max (bz j * bs (ix2 (0 : Fin 1) (j 1)) + bt (ix2 (0 : Fin 1) (j 1))) 0 = Stage.bnr z s t i := by
  have hq : (i 1 : Fin 64) = (j 1 : Fin 64) := Fin.ext h1
  show _ = max (z i * s (ix2 (0 : Fin 1) (i 1 : Fin 64)) + t (ix2 (0 : Fin 1) (i 1 : Fin 64))) 0
  rw [hz j i h0 h1, hs, ht, hq]

end Cert.KernelIdeal.KerRegions

end
-- ==== Proof.KerRegionMm.lean ====
/-
  The two matrix-product pipelines as whole arrays.

  Each runs over 20 grid points.  At point t the body loads rows 5000 t, …, 5000 t + 4999 of the left matrix and the
  whole right matrix, multiplies them (the operands' rounding to bf16 is the identity on the extended reals, and the
  accumulator starts at zero), and stores the 5000 × 64 result, which is written back as rows 5000 t, … of the
  result array.  Those rows of the product of the two whole matrices are exactly that block product, and the 20
  blocks cover all 100000 rows; so after the pipeline the result array is the product of the two matrices as the
  pipeline found them.  The first layer's product has inner dimension 128, the second layer's 64.
-/
import proofs.«139092_j81415400063394_1_alg».proof.Proof.Gen.KernelIdeal.Frame
import proofs.«139092_j81415400063394_1_alg».proof.Proof.KerStages
import proofs.«139092_j81415400063394_1_alg».proof.Proof.KerRegionRows
import Idealize.ShloMosaic.Lib.Pipeline.Value
import Idealize.ShloMosaic.Lib.ValueIdx

noncomputable section

namespace Cert.KernelIdeal.KerRegions

open Cert.KernelIdeal Cert.KernelIdeal.Gen Idealize.ShloMosaic Idealize.ShloMosaic.TcCoe Idealize.SL.Sem
open Idealize.ShloMosaic.ValueIdx
open Idealize.ShloMosaic.Pipeline (Dat)

-- the buffer contents a region finds when it is entered
variable (V : (c : Dev nD) → (b : Ref sig .tc) → Buf (Elt Ideal) ((c : Thread nD τ).loc b))

/-! ## The product of the first layer: region 0 -/

/-- The block the body stores is the product of the two blocks it loads: rounding an operand to bf16 changes
    nothing on the extended reals, and the accumulator starts from zero. -/
theorem product_of_blocks0 (x0 : Vec Ideal S5000x128 .f32) (x1 : Vec Ideal S128x64 .f32) :
    k0_pay1 x0 x1 = Cert.MatProd.matProd (m := 5000) (K := 128) (n := 64) x0 x1 := by
  unfold k0_pay1
  exact Cert.MatProd.matmul_zero_eq (m := 5000) (K := 128) (n := 64) (φ₁ := .bf16) (φ₂ := .bf16)
    dot_S5000x128_S128x64_S5000x64_1_0_0_1_n_n.wf none _ _

/-- Where the windows sit at grid point t: the left matrix's and the result's windows at row block t, the right
    matrix's window at its one block. -/
theorem block_positions0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the 20 row blocks of the result is some grid point's. -/
theorem every_row_block0 : ∀ q : Fin 20, ∃ t : Fin cfg0.N,
    win0_2.index t (0 : Fin 2) = q.val ∧ win0_2.index t (1 : Fin 2) = 0 :=
  (by decide +kernel : ∀ q : Fin 20, ∃ t : Fin grid0.N, _)

/-- Row block t of the left matrix, entry by entry: its row p is row 5000 t + p of the matrix. -/
theorem left_block_apply0 (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → EReal) i := by
  obtain ⟨e0, e1, -, -, -, -⟩ := block_positions0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The right matrix's one block is the matrix. -/
theorem right_block_apply0 (c : Dev nD) (t : Fin cfg0.N) (y : S128x64.Idx) :
    (iblk0 V c 1 t : Vec Ideal S128x64 .f32) y = (V c main_arg2 : S128x64.Idx → EReal) y := by
  obtain ⟨-, -, e2, e3, -, -⟩ := block_positions0 t
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 64 + 1 * (y 1).val = (y 1).val; rw [e3]; omega

/-- What grid point t writes back is row block t of the product of the two whole matrices. -/
theorem product_rows_written0 (c : Dev nD) (t : Fin cfg0.N) :
    (dat0 V c).flushed 2 t
      = ((cfg0.win 2).blk t).view.read (Elt Ideal) (Stage.mm (m := 100000) (K := 128) (n := 64) (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  rw [product_of_blocks0]
  obtain ⟨-, -, -, -, e4, e5⟩ := block_positions0 t
  funext j
  show Cert.MatProd.matProd (m := 5000) (K := 128) (n := 64) (iblk0 V c 0 t) (iblk0 V c 1 t) j
    = Cert.MatProd.matProd (m := 100000) (K := 128) (n := 64) (V c main_arg0) (V c main_arg2) (((cfg0.win 2).blk t).view.emb j)
  refine congrFun (matProd_rows (K := 128) t.val (V c main_arg0) (V c main_arg2) (iblk0 V c 0 t) (iblk0 V c 1 t)
    ((cfg0.win 2).blk t).view.emb ?_ ?_ ?_ ?_) j
  · intro p k i hi
    exact left_block_apply0 V c t (ix2 p k) (ix2 i k) hi rfl
  · intro y
    exact right_block_apply0 V c t y
  · intro j
    show win0_2.index t (0 : Fin 2) * 5000 + 1 * (j 0).val = 5000 * t.val + (j 0).val
    rw [e4]; omega
  · intro j
    show win0_2.index t (1 : Fin 2) * 64 + 1 * (j 1).val = (j 1).val
    rw [e5]; omega

/-- An entry of the result lies in grid point t's block when each coordinate lies in the block's range. -/
theorem mem_row_block0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v30).slice (win0_2.rect t)).set ↔ _
  rw [View.set_slice_whole, Rect.mem_set_unit]
  exact Iff.rfl

/-- Row r of the result is written by grid point r / 5000. -/
theorem rows_covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, q0, q1⟩ := every_row_block0 ⟨(i 0).val / 5000, by omega⟩
  have q0' : win0_2.index t (0 : Fin 2) = (i 0).val / 5000 := q0
  refine ⟨t, flush0_2 t, ?_⟩
  rw [mem_row_block0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- After the region the result array is the product of the two matrices the region found. -/
theorem region0 (c : Dev nD) :
    (Gen.dat0 V c).arrAt 2 cfg0.N = Stage.mm (V c main_arg0) (V c main_arg2) :=
  (dat0 V c).arrAt_eq_of_cover 2 (Stage.mm (m := 100000) (K := 128) (n := 64) (V c main_arg0) (V c main_arg2))
    (fun t _ => product_rows_written0 V c t) rows_covered0

/-! ## The product of the second layer: region 2 -/

/-- The block the body stores is the product of the two blocks it loads: rounding an operand to bf16 changes
    nothing on the extended reals, and the accumulator starts from zero. -/
theorem product_of_blocks2 (x0 : Vec Ideal S5000x64 .f32) (x1 : Vec Ideal S64x64 .f32) :
    k2_pay1 x0 x1 = Cert.MatProd.matProd (m := 5000) (K := 64) (n := 64) x0 x1 := by
  unfold k2_pay1
  simp only [shapeCast_self]
  exact Cert.MatProd.matmul_zero_eq (m := 5000) (K := 64) (n := 64) (φ₁ := .bf16) (φ₂ := .bf16)
    dot_S5000x64_S64x64_S5000x64_1_0_0_1_n_n.wf none _ _

/-- Where the windows sit at grid point t: the left matrix's and the result's windows at row block t, the right
    matrix's window at its one block. -/
theorem block_positions2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every one of the 20 row blocks of the result is some grid point's. -/
theorem every_row_block2 : ∀ q : Fin 20, ∃ t : Fin cfg2.N,
    win2_2.index t (0 : Fin 2) = q.val ∧ win2_2.index t (1 : Fin 2) = 0 :=
  (by decide +kernel : ∀ q : Fin 20, ∃ t : Fin grid2.N, _)

/-- Row block t of the left matrix, entry by entry: its row p is row 5000 t + p of the matrix. -/
theorem left_block_apply2 (c : Dev nD) (t : Fin cfg2.N) (y : S5000x64.Idx) (i : S100000x64.Idx)
    (h0 : (i 0).val = 5000 * t.val + (y 0).val) (h1 : (i 1).val = (y 1).val) :
    (iblk2 V c 0 t : Vec Ideal S5000x64 .f32) y = (V c main_v59 : S100000x64.Idx → EReal) i := by
  obtain ⟨e0, e1, -, -, -, -⟩ := block_positions2 t
  unfold iblk2
  rw [View.read_apply]
  show V c main_v59 _ = V c main_v59 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 64 + 1 * (y 1).val = (i 1).val; rw [e1, h1]; omega

/-- The right matrix's one block is the matrix. -/
theorem right_block_apply2 (c : Dev nD) (t : Fin cfg2.N) (y : S64x64.Idx) :
    (iblk2 V c 1 t : Vec Ideal S64x64 .f32) y = (V c main_arg6 : S64x64.Idx → EReal) y := by
  obtain ⟨-, -, e2, e3, -, -⟩ := block_positions2 t
  unfold iblk2
  rw [View.read_apply]
  show V c main_arg6 _ = V c main_arg6 _
  congr 1
  funext a
  apply Fin.ext
  match a with
  | ⟨0, _⟩ => show win2_1.index t (0 : Fin 2) * 64 + 1 * (y 0).val = (y 0).val; rw [e2]; omega
  | ⟨1, _⟩ => show win2_1.index t (1 : Fin 2) * 64 + 1 * (y 1).val = (y 1).val; rw [e3]; omega

/-- What grid point t writes back is row block t of the product of the two whole matrices. -/
theorem product_rows_written2 (c : Dev nD) (t : Fin cfg2.N) :
    (dat2 V c).flushed 2 t
      = ((cfg2.win 2).blk t).view.read (Elt Ideal) (Stage.mm (m := 100000) (K := 64) (n := 64) (V c main_v59) (V c main_arg6)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x64) zero_offsets]
  rw [product_of_blocks2]
  obtain ⟨-, -, -, -, e4, e5⟩ := block_positions2 t
  funext j
  show Cert.MatProd.matProd (m := 5000) (K := 64) (n := 64) (iblk2 V c 0 t) (iblk2 V c 1 t) j
    = Cert.MatProd.matProd (m := 100000) (K := 64) (n := 64) (V c main_v59) (V c main_arg6) (((cfg2.win 2).blk t).view.emb j)
  refine congrFun (matProd_rows (K := 64) t.val (V c main_v59) (V c main_arg6) (iblk2 V c 0 t) (iblk2 V c 1 t)
    ((cfg2.win 2).blk t).view.emb ?_ ?_ ?_ ?_) j
  · intro p k i hi
    exact left_block_apply2 V c t (ix2 p k) (ix2 i k) hi rfl
  · intro y
    exact right_block_apply2 V c t y
  · intro j
    show win2_2.index t (0 : Fin 2) * 5000 + 1 * (j 0).val = 5000 * t.val + (j 0).val
    rw [e4]; omega
  · intro j
    show win2_2.index t (1 : Fin 2) * 64 + 1 * (j 1).val = (j 1).val
    rw [e5]; omega

/-- An entry of the result lies in grid point t's block when each coordinate lies in the block's range. -/
theorem mem_row_block2 (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v60).slice (win2_2.rect t)).set ↔ _
  rw [View.set_slice_whole, Rect.mem_set_unit]
  exact Iff.rfl

/-- Row r of the result is written by grid point r / 5000. -/
theorem rows_covered2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, q0, q1⟩ := every_row_block2 ⟨(i 0).val / 5000, by omega⟩
  have q0' : win2_2.index t (0 : Fin 2) = (i 0).val / 5000 := q0
  refine ⟨t, flush2_2 t, ?_⟩
  rw [mem_row_block2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- After the region the result array is the product of the two matrices the region found. -/
theorem region2 (c : Dev nD) :
    (Gen.dat2 V c).arrAt 2 cfg2.N = Stage.mm (V c main_v59) (V c main_arg6) :=
  (dat2 V c).arrAt_eq_of_cover 2 (Stage.mm (m := 100000) (K := 64) (n := 64) (V c main_v59) (V c main_arg6))
    (fun t _ => product_rows_written2 V c t) rows_covered2

end Cert.KernelIdeal.KerRegions

end
-- ==== Proof.KerRegionBn.lean ====
/-
  The two scale–shift–rectify pipelines as whole arrays.

  Each runs over 20 grid points.  At point t the body loads rows 5000 t, …, 5000 t + 4999 of z and the one-row scale
  and shift, computes max(z · scale + shift, 0) entry by entry (the rows broadcast down the block), and stores the
  block, which is written back as rows 5000 t, … of the result array.  An entry of the whole-array form depends on
  the same entry of z only, and the 20 blocks cover all 100000 rows; so after the pipeline the result array is
  max(z(p, q) · scale(0, q) + shift(0, q), 0) at every (p, q).
-/
import proofs.«139092_j81415400063394_1_alg».proof.Proof.Gen.KernelIdeal.Frame
import proofs.«139092_j81415400063394_1_alg».proof.Proof.KerStages
import proofs.«139092_j81415400063394_1_alg».proof.Proof.KerRegionRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerRegions

open Cert.KernelIdeal Cert.KernelIdeal.Gen Idealize.ShloMosaic Idealize.ShloMosaic.TcCoe Idealize.SL.Sem
open Idealize.ShloMosaic.ValueIdx
open Idealize.ShloMosaic.Pipeline (Dat)

-- the buffer contents a region finds when it is entered
variable (V : (c : Dev nD) → (b : Ref sig .tc) → Buf (Elt Ideal) ((c : Thread nD τ).loc b))

/-! ## Scale, shift and rectify: region 1 -/

/-- The block the body stores, entry by entry: the loaded block of z times the scale row plus the shift row,
    rectified at zero. -/
theorem rectified_block_apply1 (x0 : Vec Ideal S5000x64 .f32) (x1 x2 : Vec Ideal S1x64 .f32) (j : S5000x64.Idx) :
    k1_pay1 x0 x1 x2 j = max (x0 j * x1 (ix2 (0 : Fin 1) (j 1)) + x2 (ix2 (0 : Fin 1) (j 1))) 0 := by
  obtain ⟨p, q, rfl⟩ : ∃ (p : Fin 5000) (q : Fin 64), j = ix2 p q := ⟨j 0, j 1, eq_ix2 j⟩
  unfold k1_pay1
  simp only [shapeCast_self]
  rw [maximumf_apply, addf_apply, mulf_apply, broadcast_apply, broadcastTo_1b_ab_apply, broadcastTo_1b_ab_apply]
  show max _ (Ideal.ofBits .f32 0x00000000#32) = _
  rw [Ideal.ofBits_zero_f32]

/-- Where the windows sit at grid point t: z's and the result's windows at row block t, the scale and shift rows'
    windows at their one block. -/
theorem block_positions1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every one of the 20 row blocks of the result is some grid point's. -/
theorem every_row_block1 : ∀ q : Fin 20, ∃ t : Fin cfg1.N,
    win1_3.index t (0 : Fin 2) = q.val ∧ win1_3.index t (1 : Fin 2) = 0 :=
  (by decide +kernel : ∀ q : Fin 20, ∃ t : Fin grid1.N, _)

/-- Row block t of z, entry by entry: its row p is row 5000 t + p of z. -/
theorem z_block_apply1 (c : Dev nD) (t : Fin cfg1.N) (y : S5000x64.Idx) (i : S100000x64.Idx)
    (h0 : (i 0).val = 5000 * t.val + (y 0).val) (h1 : (i 1).val = (y 1).val) :
    (iblk1 V c 0 t : Vec Ideal S5000x64 .f32) y = (V c main_v46 : S100000x64.Idx → EReal) i := by
  obtain ⟨e0, e1, -, -, -, -, -, -⟩ := block_positions1 t
  unfold iblk1
  rw [View.read_apply]
  show V c main_v46 _ = V c main_v46 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- The scale row's one block is the row. -/
theorem scale_block_apply1 (c : Dev nD) (t : Fin cfg1.N) (y : S1x64.Idx) :
    (iblk1 V c 1 t : Vec Ideal S1x64 .f32) y = (V c main_v57 : S1x64.Idx → EReal) y := by
  obtain ⟨-, -, e2, e3, -, -, -, -⟩ := block_positions1 t
  unfold iblk1
  rw [View.read_apply]
  show V c main_v57 _ = V c main_v57 _
  congr 1
  funext a
  apply Fin.ext
  match a with
  | ⟨0, _⟩ => show win1_1.index t (0 : Fin 2) * 1 + 1 * (y 0).val = (y 0).val; rw [e2]; omega
  | ⟨1, _⟩ => show win1_1.index t (1 : Fin 2) * 64 + 1 * (y 1).val = (y 1).val; rw [e3]; omega

/-- The shift row's one block is the row. -/
theorem shift_block_apply1 (c : Dev nD) (t : Fin cfg1.N) (y : S1x64.Idx) :
    (iblk1 V c 2 t : Vec Ideal S1x64 .f32) y = (V c main_v58 : S1x64.Idx → EReal) y := by
  obtain ⟨-, -, -, -, e4, e5, -, -⟩ := block_positions1 t
  unfold iblk1
  rw [View.read_apply]
  show V c main_v58 _ = V c main_v58 _
  congr 1
  funext a
  apply Fin.ext
  match a with
  | ⟨0, _⟩ => show win1_2.index t (0 : Fin 2) * 1 + 1 * (y 0).val = (y 0).val; rw [e4]; omega
  | ⟨1, _⟩ => show win1_2.index t (1 : Fin 2) * 64 + 1 * (y 1).val = (y 1).val; rw [e5]; omega

/-- What grid point t writes back is row block t of the whole array scaled, shifted and rectified. -/
theorem rectified_rows_written1 (c : Dev nD) (t : Fin cfg1.N) :
    (dat1 V c).flushed 3 t
      = ((cfg1.win 3).blk t).view.read (Elt Ideal) (Stage.bnr (V c main_v46) (V c main_v57) (V c main_v58)) := by
  show (cfg1.win 3).cut (grid1.coords t) ((dat1 V c).after 3 t) = _
  rw [after1_3]
  unfold out1_3
  rw [View.canon_unit_zero zero_offsets]
  simp only [View.ld_unit_zero (S := S5000x64) zero_offsets, View.ld_unit_zero (S := S1x64) zero_offsets]
  obtain ⟨-, -, -, -, -, -, e6, e7⟩ := block_positions1 t
  funext j
  show k1_pay1 (iblk1 V c 0 t) (iblk1 V c 1 t) (iblk1 V c 2 t) j
    = Stage.bnr (V c main_v46) (V c main_v57) (V c main_v58) (((cfg1.win 3).blk t).view.emb j)
  refine (rectified_block_apply1 (iblk1 V c 0 t) (iblk1 V c 1 t) (iblk1 V c 2 t) j).trans ?_
  refine bnr_rows t.val (V c main_v46) (V c main_v57) (V c main_v58) (iblk1 V c 0 t) (iblk1 V c 1 t) (iblk1 V c 2 t)
    (fun y i h0 h1 => z_block_apply1 V c t y i h0 h1) (fun y => scale_block_apply1 V c t y)
    (fun y => shift_block_apply1 V c t y) j (((cfg1.win 3).blk t).view.emb j) ?_ ?_
  · show win1_3.index t (0 : Fin 2) * 5000 + 1 * (j 0).val = 5000 * t.val + (j 0).val
    rw [e6]; omega
  · show win1_3.index t (1 : Fin 2) * 64 + 1 * (j 1).val = (j 1).val
    rw [e7]; omega

/-- An entry of the result lies in grid point t's block when each coordinate lies in the block's range. -/
theorem mem_row_block1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v59).slice (win1_3.rect t)).set ↔ _
  rw [View.set_slice_whole, Rect.mem_set_unit]
  exact Iff.rfl

/-- Row r of the result is written by grid point r / 5000. -/
theorem rows_covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, q0, q1⟩ := every_row_block1 ⟨(i 0).val / 5000, by omega⟩
  have q0' : win1_3.index t (0 : Fin 2) = (i 0).val / 5000 := q0
  refine ⟨t, flush1_3 t, ?_⟩
  rw [mem_row_block1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- After the region the result array is the array the region found, scaled by the scale row, shifted by the shift
    row and rectified, entry by entry. -/
theorem region1 (c : Dev nD) :
    (Gen.dat1 V c).arrAt 3 cfg1.N = Stage.bnr (V c main_v46) (V c main_v57) (V c main_v58) :=
  (dat1 V c).arrAt_eq_of_cover 3 (Stage.bnr (V c main_v46) (V c main_v57) (V c main_v58))
    (fun t _ => rectified_rows_written1 V c t) rows_covered1

/-! ## Scale, shift and rectify: region 3 -/

/-- The block the body stores, entry by entry: the loaded block of z times the scale row plus the shift row,
    rectified at zero. -/
theorem rectified_block_apply3 (x0 : Vec Ideal S5000x64 .f32) (x1 x2 : Vec Ideal S1x64 .f32) (j : S5000x64.Idx) :
    k3_pay1 x0 x1 x2 j = max (x0 j * x1 (ix2 (0 : Fin 1) (j 1)) + x2 (ix2 (0 : Fin 1) (j 1))) 0 := by
  obtain ⟨p, q, rfl⟩ : ∃ (p : Fin 5000) (q : Fin 64), j = ix2 p q := ⟨j 0, j 1, eq_ix2 j⟩
  unfold k3_pay1
  simp only [shapeCast_self]
  rw [maximumf_apply, addf_apply, mulf_apply, broadcast_apply, broadcastTo_1b_ab_apply, broadcastTo_1b_ab_apply]
  show max _ (Ideal.ofBits .f32 0x00000000#32) = _
  rw [Ideal.ofBits_zero_f32]

/-- Where the windows sit at grid point t: z's and the result's windows at row block t, the scale and shift rows'
    windows at their one block. -/
theorem block_positions3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every one of the 20 row blocks of the result is some grid point's. -/
theorem every_row_block3 : ∀ q : Fin 20, ∃ t : Fin cfg3.N,
    win3_3.index t (0 : Fin 2) = q.val ∧ win3_3.index t (1 : Fin 2) = 0 :=
  (by decide +kernel : ∀ q : Fin 20, ∃ t : Fin grid3.N, _)

/-- Row block t of z, entry by entry: its row p is row 5000 t + p of z. -/
theorem z_block_apply3 (c : Dev nD) (t : Fin cfg3.N) (y : S5000x64.Idx) (i : S100000x64.Idx)
    (h0 : (i 0).val = 5000 * t.val + (y 0).val) (h1 : (i 1).val = (y 1).val) :
    (iblk3 V c 0 t : Vec Ideal S5000x64 .f32) y = (V c main_v76 : S100000x64.Idx → EReal) i := by
  obtain ⟨e0, e1, -, -, -, -, -, -⟩ := block_positions3 t
  unfold iblk3
  rw [View.read_apply]
  show V c main_v76 _ = V c main_v76 _
  congr 1
  funext a
  apply Fin.ext
  match a with
  | ⟨0, _⟩ => show win3_0.index t (0 : Fin 2) * 5000 + 1 * (y 0).val = (i 0).val; rw [e0, h0]; omega
  | ⟨1, _⟩ => show win3_0.index t (1 : Fin 2) * 64 + 1 * (y 1).val = (i 1).val; rw [e1, h1]; omega

/-- The scale row's one block is the row. -/
theorem scale_block_apply3 (c : Dev nD) (t : Fin cfg3.N) (y : S1x64.Idx) :
    (iblk3 V c 1 t : Vec Ideal S1x64 .f32) y = (V c main_v87 : S1x64.Idx → EReal) y := by
  obtain ⟨-, -, e2, e3, -, -, -, -⟩ := block_positions3 t
  unfold iblk3
  rw [View.read_apply]
  show V c main_v87 _ = V c main_v87 _
  congr 1
  funext a
  apply Fin.ext
  match a with
  | ⟨0, _⟩ => show win3_1.index t (0 : Fin 2) * 1 + 1 * (y 0).val = (y 0).val; rw [e2]; omega
  | ⟨1, _⟩ => show win3_1.index t (1 : Fin 2) * 64 + 1 * (y 1).val = (y 1).val; rw [e3]; omega

/-- The shift row's one block is the row. -/
theorem shift_block_apply3 (c : Dev nD) (t : Fin cfg3.N) (y : S1x64.Idx) :
    (iblk3 V c 2 t : Vec Ideal S1x64 .f32) y = (V c main_v88 : S1x64.Idx → EReal) y := by
  obtain ⟨-, -, -, -, e4, e5, -, -⟩ := block_positions3 t
  unfold iblk3
  rw [View.read_apply]
  show V c main_v88 _ = V c main_v88 _
  congr 1
  funext a
  apply Fin.ext
  match a with
  | ⟨0, _⟩ => show win3_2.index t (0 : Fin 2) * 1 + 1 * (y 0).val = (y 0).val; rw [e4]; omega
  | ⟨1, _⟩ => show win3_2.index t (1 : Fin 2) * 64 + 1 * (y 1).val = (y 1).val; rw [e5]; omega

/-- What grid point t writes back is row block t of the whole array scaled, shifted and rectified. -/
theorem rectified_rows_written3 (c : Dev nD) (t : Fin cfg3.N) :
    (dat3 V c).flushed 3 t
      = ((cfg3.win 3).blk t).view.read (Elt Ideal) (Stage.bnr (V c main_v76) (V c main_v87) (V c main_v88)) := by
  show (cfg3.win 3).cut (grid3.coords t) ((dat3 V c).after 3 t) = _
  rw [after3_3]
  unfold out3_3
  rw [View.canon_unit_zero zero_offsets]
  simp only [View.ld_unit_zero (S := S5000x64) zero_offsets, View.ld_unit_zero (S := S1x64) zero_offsets]
  obtain ⟨-, -, -, -, -, -, e6, e7⟩ := block_positions3 t
  funext j
  show k3_pay1 (iblk3 V c 0 t) (iblk3 V c 1 t) (iblk3 V c 2 t) j
    = Stage.bnr (V c main_v76) (V c main_v87) (V c main_v88) (((cfg3.win 3).blk t).view.emb j)
  refine (rectified_block_apply3 (iblk3 V c 0 t) (iblk3 V c 1 t) (iblk3 V c 2 t) j).trans ?_
  refine bnr_rows t.val (V c main_v76) (V c main_v87) (V c main_v88) (iblk3 V c 0 t) (iblk3 V c 1 t) (iblk3 V c 2 t)
    (fun y i h0 h1 => z_block_apply3 V c t y i h0 h1) (fun y => scale_block_apply3 V c t y)
    (fun y => shift_block_apply3 V c t y) j (((cfg3.win 3).blk t).view.emb j) ?_ ?_
  · show win3_3.index t (0 : Fin 2) * 5000 + 1 * (j 0).val = 5000 * t.val + (j 0).val
    rw [e6]; omega
  · show win3_3.index t (1 : Fin 2) * 64 + 1 * (j 1).val = (j 1).val
    rw [e7]; omega

/-- An entry of the result lies in grid point t's block when each coordinate lies in the block's range. -/
theorem mem_row_block3 (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v89).slice (win3_3.rect t)).set ↔ _
  rw [View.set_slice_whole, Rect.mem_set_unit]
  exact Iff.rfl

/-- Row r of the result is written by grid point r / 5000. -/
theorem rows_covered3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, q0, q1⟩ := every_row_block3 ⟨(i 0).val / 5000, by omega⟩
  have q0' : win3_3.index t (0 : Fin 2) = (i 0).val / 5000 := q0
  refine ⟨t, flush3_3 t, ?_⟩
  rw [mem_row_block3]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 64 ≤ (i 1).val ∧ (i 1).val < win3_3.index t (1 : Fin 2) * 64 + 64
    omega

/-- After the region the result array is the array the region found, scaled by the scale row, shifted by the shift
    row and rectified, entry by entry. -/
theorem region3 (c : Dev nD) :
    (Gen.dat3 V c).arrAt 3 cfg3.N = Stage.bnr (V c main_v76) (V c main_v87) (V c main_v88) :=
  (dat3 V c).arrAt_eq_of_cover 3 (Stage.bnr (V c main_v76) (V c main_v87) (V c main_v88))
    (fun t _ => rectified_rows_written3 V c t) rows_covered3

end Cert.KernelIdeal.KerRegions

end
-- ==== Proof.KerRegions.lean ====
/-
  The four pipelines of the two-layer network, each as one whole-array function of the arrays it found:
  the first layer's product (region0), its scale–shift–rectify (region1), the second layer's product (region2) and
  its scale–shift–rectify (region3).
-/
import proofs.«139092_j81415400063394_1_alg».proof.Proof.KerRegionMm
import proofs.«139092_j81415400063394_1_alg».proof.Proof.KerRegionBn
-- ==== Proof.KerRun.lean ====
/- The kernel program's run with its result's value: every weakly fair execution of @main from a memory with zero
   counters terminates without a fault, the argument arrays end as launched, and the result array ends at the two
   layers of the graph convolution of the argument arrays (the stage `out`): the run with the result read at the
   last segment boundary, and that boundary's contents walked back to the launch memory. -/
import proofs.«139092_j81415400063394_1_alg».proof.Proof.KerRunW
import proofs.«139092_j81415400063394_1_alg».proof.Proof.KerRunWalk
import proofs.«139092_j81415400063394_1_alg».proof.Proof.KerRegions

set_option maxRecDepth 16384

noncomputable section

namespace Cert.KernelIdeal.KerRun

open Idealize.ShloMosaic Idealize.ShloMosaic.TcCoe
open Idealize.SL.Sem

/-- The kernel program runs, ends with the result array at the stage `out` of the argument arrays, and leaves the
    argument arrays as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v89) = Stage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun r h c => ⟨(h c).1.trans (W13_main_v89 m ρ c KerRegions.region0 KerRegions.region1 KerRegions.region2 KerRegions.region3),
      (h c).2⟩)
    (run_boundary m ρ)

end Cert.KernelIdeal.KerRun

end
-- ==== Proof.RefRunOps.lean ====
/-
  The reference program as a straight line of array operations.

  The reference computes two graph-convolution layers, each followed by batch normalisation and the rectifier.
  Its text is a sequence of array operations, some of them inside small functions it calls (the choice
  "where c then a else b", the variance of the columns, the rectifier); a call runs the callee's operations on the
  caller's arrays, so the whole text is one list of operations, each writing one array of its own. The text comes in
  three consecutive parts, and so does the list. Running the list from the argument arrays leaves every array at the
  value obtained by applying the operations in order; this module states that, and the later modules read the
  result array off the list one stretch of operations at a time.
-/
import proofs.«139092_j81415400063394_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- A vector of 1000000 node numbers followed by one of 100000: the edge ends followed by the self loops. -/
def cat2 (a : (⟨S1000000, .i32⟩ : BufTy).Contents (Elt F)) (b : (⟨S100000, .i32⟩ : BufTy).Contents (Elt F)) :
    (⟨S1100000, .i32⟩ : BufTy).Contents (Elt F) :=
  concatenate S1100000 0 [⟨S1000000, a⟩, ⟨S100000, b⟩] concatenates_S1000000_S100000_S1100000_d0

/-- The first part: the edge list split into sources and destinations with the self loops appended, the first
    matrix product, the degrees and their inverse square roots, the edge weights, the first aggregation with its
    bias, and the column sums of the result (62 operations). -/
abbrev ops0 : List (HloOp τ sig (Elt F)) :=
  [ StableHlo.unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v0 main_v1 rfl shapeCasts_S1x1000000_S1000000,
    StableHlo.unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v2 main_v3 rfl shapeCasts_S1x1000000_S1000000,
    StableHlo.binary main_arg0 main_arg2 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_v5 (iotaInDim S100000 32 0),
    StableHlo.binary main_v1 main_v5 main_v6 (cat2 : (⟨S1000000, .i32⟩ : BufTy).Contents (Elt F) → (⟨S100000, .i32⟩ : BufTy).Contents (Elt F) → (⟨S1100000, .i32⟩ : BufTy).Contents (Elt F)),
    StableHlo.binary main_v3 main_v5 main_v7 (cat2 : (⟨S1000000, .i32⟩ : BufTy).Contents (Elt F) → (⟨S100000, .i32⟩ : BufTy).Contents (Elt F) → (⟨S1100000, .i32⟩ : BufTy).Contents (Elt F)),
    StableHlo.nullary main_cst (constant S_ .f32 0x3F800000#32),
    StableHlo.unary main_cst main_v8 (broadcastInDim S1100000 ![] bcast_S_S1100000 : (⟨S_, .f32⟩ : BufTy).Contents (Elt F) → (⟨S1100000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S1100000x1 ![0] bcast_S1100000_S1100000x1_0 : (⟨S1100000, .i32⟩ : BufTy).Contents (Elt F) → (⟨S1100000x1, .i32⟩ : BufTy).Contents (Elt F)),
    StableHlo.ternary main_v9 main_v10 main_v8 main_v11 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : TRef sig ⟨S_, .f32⟩) main_call0.v0 id,
    StableHlo.TRef.unary main_call0.v0 main_call0.v1 (broadcastInDim S100000 ![] bcast_S_S100000),
    StableHlo.TRef.ternary (.of main_v13 : TRef sig ⟨S100000, .i1⟩) (.of main_v14 : TRef sig ⟨S100000, .f32⟩) main_call0.v1 main_call0.v2 select,
    StableHlo.nullary main_c (constantI S_ 32 0#32),
    StableHlo.unary main_c main_v16 (broadcastInDim S1100000 ![] bcast_S_S1100000 : (⟨S_, .i32⟩ : BufTy).Contents (Elt F) → (⟨S1100000, .i32⟩ : BufTy).Contents (Elt F)),
    StableHlo.binary main_v6 main_v16 main_v17 (cmpi .slt : (⟨S1100000, .i32⟩ : BufTy).Contents (Elt F) → (⟨S1100000, .i32⟩ : BufTy).Contents (Elt F) → (⟨S1100000, .i1⟩ : BufTy).Contents (Elt F)),
    StableHlo.nullary main_c_3 (constantI S_ 32 100000#32),
    StableHlo.unary main_c_3 main_v18 (broadcastInDim S1100000 ![] bcast_S_S1100000 : (⟨S_, .i32⟩ : BufTy).Contents (Elt F) → (⟨S1100000, .i32⟩ : BufTy).Contents (Elt F)),
    StableHlo.binary main_v6 main_v18 main_v19 (addi : (⟨S1100000, .i32⟩ : BufTy).Contents (Elt F) → (⟨S1100000, .i32⟩ : BufTy).Contents (Elt F) → (⟨S1100000, .i32⟩ : BufTy).Contents (Elt F)),
    StableHlo.ternary main_v17 main_v19 main_v6 main_v20 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v20 main_v21 (broadcastInDim S1100000x1 ![0] bcast_S1100000_S1100000x1_0 : (⟨S1100000, .i32⟩ : BufTy).Contents (Elt F) → (⟨S1100000x1, .i32⟩ : BufTy).Contents (Elt F)),
    StableHlo.binary main_v15 main_v21 main_v22 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    StableHlo.nullary main_c_4 (constantI S_ 32 0#32),
    StableHlo.unary main_c_4 main_v23 (broadcastInDim S1100000 ![] bcast_S_S1100000 : (⟨S_, .i32⟩ : BufTy).Contents (Elt F) → (⟨S1100000, .i32⟩ : BufTy).Contents (Elt F)),
    StableHlo.binary main_v7 main_v23 main_v24 (cmpi .slt : (⟨S1100000, .i32⟩ : BufTy).Contents (Elt F) → (⟨S1100000, .i32⟩ : BufTy).Contents (Elt F) → (⟨S1100000, .i1⟩ : BufTy).Contents (Elt F)),
    StableHlo.nullary main_c_5 (constantI S_ 32 100000#32),
    StableHlo.unary main_c_5 main_v25 (broadcastInDim S1100000 ![] bcast_S_S1100000 : (⟨S_, .i32⟩ : BufTy).Contents (Elt F) → (⟨S1100000, .i32⟩ : BufTy).Contents (Elt F)),
    StableHlo.binary main_v7 main_v25 main_v26 (addi : (⟨S1100000, .i32⟩ : BufTy).Contents (Elt F) → (⟨S1100000, .i32⟩ : BufTy).Contents (Elt F) → (⟨S1100000, .i32⟩ : BufTy).Contents (Elt F)),
    StableHlo.ternary main_v24 main_v26 main_v7 main_v27 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v27 main_v28 (broadcastInDim S1100000x1 ![0] bcast_S1100000_S1100000x1_0 : (⟨S1100000, .i32⟩ : BufTy).Contents (Elt F) → (⟨S1100000x1, .i32⟩ : BufTy).Contents (Elt F)),
    StableHlo.binary main_v15 main_v28 main_v29 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    StableHlo.binary main_v22 main_v29 main_v30 (mulf : (⟨S1100000, .f32⟩ : BufTy).Contents (Elt F) → (⟨S1100000, .f32⟩ : BufTy).Contents (Elt F) → (⟨S1100000, .f32⟩ : BufTy).Contents (Elt F)),
    StableHlo.nullary main_c_6 (constantI S_ 32 0#32),
    StableHlo.unary main_c_6 main_v31 (broadcastInDim S1100000 ![] bcast_S_S1100000 : (⟨S_, .i32⟩ : BufTy).Contents (Elt F) → (⟨S1100000, .i32⟩ : BufTy).Contents (Elt F)),
    StableHlo.binary main_v6 main_v31 main_v32 (cmpi .slt : (⟨S1100000, .i32⟩ : BufTy).Contents (Elt F) → (⟨S1100000, .i32⟩ : BufTy).Contents (Elt F) → (⟨S1100000, .i1⟩ : BufTy).Contents (Elt F)),
    StableHlo.nullary main_c_7 (constantI S_ 32 100000#32),
    StableHlo.unary main_c_7 main_v33 (broadcastInDim S1100000 ![] bcast_S_S1100000 : (⟨S_, .i32⟩ : BufTy).Contents (Elt F) → (⟨S1100000, .i32⟩ : BufTy).Contents (Elt F)),
    StableHlo.binary main_v6 main_v33 main_v34 (addi : (⟨S1100000, .i32⟩ : BufTy).Contents (Elt F) → (⟨S1100000, .i32⟩ : BufTy).Contents (Elt F) → (⟨S1100000, .i32⟩ : BufTy).Contents (Elt F)),
    StableHlo.ternary main_v32 main_v34 main_v6 main_v35 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v35 main_v36 (broadcastInDim S1100000x1 ![0] bcast_S1100000_S1100000x1_0 : (⟨S1100000, .i32⟩ : BufTy).Contents (Elt F) → (⟨S1100000x1, .i32⟩ : BufTy).Contents (Elt F)),
    StableHlo.binary main_v4 main_v36 main_v37 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    StableHlo.unary main_v30 main_v38 (broadcastInDim S1100000x1 ![0] bcast_S1100000_S1100000x1_0 : (⟨S1100000, .f32⟩ : BufTy).Contents (Elt F) → (⟨S1100000x1, .f32⟩ : BufTy).Contents (Elt F)),
    StableHlo.unary main_v38 main_v39 (broadcastInDim S1100000x64 ![0, 1] bcast_S1100000x1_S1100000x64_0_1 : (⟨S1100000x1, .f32⟩ : BufTy).Contents (Elt F) → (⟨S1100000x64, .f32⟩ : BufTy).Contents (Elt F)),
    StableHlo.binary main_v37 main_v39 main_v40 (mulf : (⟨S1100000x64, .f32⟩ : BufTy).Contents (Elt F) → (⟨S1100000x64, .f32⟩ : BufTy).Contents (Elt F) → (⟨S1100000x64, .f32⟩ : BufTy).Contents (Elt F)),
    StableHlo.nullary main_cst_8 (constant S_ .f32 0x00000000#32),
    StableHlo.unary main_cst_8 main_v41 (broadcastInDim S100000x64 ![] bcast_S_S100000x64 : (⟨S_, .f32⟩ : BufTy).Contents (Elt F) → (⟨S100000x64, .f32⟩ : BufTy).Contents (Elt F)),
    StableHlo.unary main_v7 main_v42 (broadcastInDim S1100000x1 ![0] bcast_S1100000_S1100000x1_0 : (⟨S1100000, .i32⟩ : BufTy).Contents (Elt F) → (⟨S1100000x1, .i32⟩ : BufTy).Contents (Elt F)),
    StableHlo.ternary main_v41 main_v42 main_v40 main_v43 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)),
    StableHlo.unary main_arg3 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S100000x64 ![0, 1] bcast_S1x64_S100000x64_0_1 : (⟨S1x64, .f32⟩ : BufTy).Contents (Elt F) → (⟨S100000x64, .f32⟩ : BufTy).Contents (Elt F)),
    StableHlo.binary main_v43 main_v45 main_v46 (addf : (⟨S100000x64, .f32⟩ : BufTy).Contents (Elt F) → (⟨S100000x64, .f32⟩ : BufTy).Contents (Elt F) → (⟨S100000x64, .f32⟩ : BufTy).Contents (Elt F)),
    StableHlo.nullary main_cst_9 (constant S_ .f32 0x00000000#32),
    StableHlo.binary main_v46 main_cst_9 main_v47 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ]

/-- The second part: the column means and variances, the first normalisation and rectifier, the second matrix
    product, and the degrees, their inverse square roots and the edge weights once more (85 operations). -/
abbrev ops1 : List (HloOp τ sig (Elt F)) :=
  [ StableHlo.nullary main_cst_10 (constant S_ .f32 0x47C35000#32),
    StableHlo.unary main_cst_10 main_v48 (broadcastInDim S64 ![] bcast_S_S64 : (⟨S_, .f32⟩ : BufTy).Contents (Elt F) → (⟨S64, .f32⟩ : BufTy).Contents (Elt F)),
    StableHlo.binary main_v47 main_v48 main_v49 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary main_call1.cst (constant S_ .f32 0x00000000#32),
    StableHlo.TRef.binary (.of main_v46 : TRef sig ⟨S100000x64, .f32⟩) main_call1.cst main_call1.v0 (fun x v => Host.reduceAdd x v reducesTo_S100000x64_S64_d0 h_S_),
    StableHlo.TRef.unary main_call1.v0 main_call1.v1 (broadcastInDim S1x64 ![1] bcast_S64_S1x64_1),
    StableHlo.TRef.nullary main_call1.cst_0 (constant S_ .f32 0x47C35000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S100000x64 ![0, 1] bcast_S1x64_S100000x64_0_1),
    StableHlo.TRef.binary (.of main_v46 : TRef sig ⟨S100000x64, .f32⟩) main_call1.v4 main_call1.v5 subf,
    StableHlo.TRef.binary main_call1.v5 main_call1.v5 main_call1.v6 mulf,
    StableHlo.TRef.unary (.of main_c_11 : TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v49 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S100000x64 ![0, 1] bcast_S1x64_S100000x64_0_1 : (⟨S1x64, .f32⟩ : BufTy).Contents (Elt F) → (⟨S100000x64, .f32⟩ : BufTy).Contents (Elt F)),
    StableHlo.binary main_v46 main_v52 main_v53 (subf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v54 (broadcastInDim S64 ![] bcast_S_S64 : (⟨S_, .f32⟩ : BufTy).Contents (Elt F) → (⟨S64, .f32⟩ : BufTy).Contents (Elt F)),
    StableHlo.binary main_v50 main_v54 main_v55 (addf : (⟨S64, .f32⟩ : BufTy).Contents (Elt F) → (⟨S64, .f32⟩ : BufTy).Contents (Elt F) → (⟨S64, .f32⟩ : BufTy).Contents (Elt F)),
    StableHlo.unary main_v55 main_v56 (Host.rsqrt : (⟨S64, .f32⟩ : BufTy).Contents (Elt F) → (⟨S64, .f32⟩ : BufTy).Contents (Elt F)),
    StableHlo.unary main_v56 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S100000x64 ![0, 1] bcast_S1x64_S100000x64_0_1 : (⟨S1x64, .f32⟩ : BufTy).Contents (Elt F) → (⟨S100000x64, .f32⟩ : BufTy).Contents (Elt F)),
    StableHlo.binary main_v53 main_v58 main_v59 (mulf : (⟨S100000x64, .f32⟩ : BufTy).Contents (Elt F) → (⟨S100000x64, .f32⟩ : BufTy).Contents (Elt F) → (⟨S100000x64, .f32⟩ : BufTy).Contents (Elt F)),
    StableHlo.unary main_arg4 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S100000x64 ![0, 1] bcast_S1x64_S100000x64_0_1 : (⟨S1x64, .f32⟩ : BufTy).Contents (Elt F) → (⟨S100000x64, .f32⟩ : BufTy).Contents (Elt F)),
    StableHlo.binary main_v59 main_v61 main_v62 (mulf : (⟨S100000x64, .f32⟩ : BufTy).Contents (Elt F) → (⟨S100000x64, .f32⟩ : BufTy).Contents (Elt F) → (⟨S100000x64, .f32⟩ : BufTy).Contents (Elt F)),
    StableHlo.unary main_arg5 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v64 main_v65 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v65 : TRef sig ⟨S100000x64, .f32⟩) main_call2.v0 main_call2.v1 maximumf,
    StableHlo.binary main_v66 main_arg6 main_v67 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_v68 (iotaInDim S100000 32 0),
    StableHlo.binary main_v1 main_v68 main_v69 (cat2 : (⟨S1000000, .i32⟩ : BufTy).Contents (Elt F) → (⟨S100000, .i32⟩ : BufTy).Contents (Elt F) → (⟨S1100000, .i32⟩ : BufTy).Contents (Elt F)),
    StableHlo.binary main_v3 main_v68 main_v70 (cat2 : (⟨S1000000, .i32⟩ : BufTy).Contents (Elt F) → (⟨S100000, .i32⟩ : BufTy).Contents (Elt F) → (⟨S1100000, .i32⟩ : BufTy).Contents (Elt F)),
    StableHlo.nullary main_cst_13 (constant S_ .f32 0x3F800000#32),
    StableHlo.unary main_cst_13 main_v71 (broadcastInDim S1100000 ![] bcast_S_S1100000 : (⟨S_, .f32⟩ : BufTy).Contents (Elt F) → (⟨S1100000, .f32⟩ : BufTy).Contents (Elt F)),
    StableHlo.nullary main_cst_14 (constant S_ .f32 0x00000000#32),
    StableHlo.unary main_cst_14 main_v72 (broadcastInDim S100000 ![] bcast_S_S100000 : (⟨S_, .f32⟩ : BufTy).Contents (Elt F) → (⟨S100000, .f32⟩ : BufTy).Contents (Elt F)),
    StableHlo.unary main_v70 main_v73 (broadcastInDim S1100000x1 ![0] bcast_S1100000_S1100000x1_0 : (⟨S1100000, .i32⟩ : BufTy).Contents (Elt F) → (⟨S1100000x1, .i32⟩ : BufTy).Contents (Elt F)),
    StableHlo.ternary main_v72 main_v73 main_v71 main_v74 ((fun x i u => Host.scatterAdd scatter_S100000_S1100000x1_S1100000_n_0_0_1 x i u) : (⟨S100000, .f32⟩ : BufTy).Contents (Elt F) → (⟨S1100000x1, .i32⟩ : BufTy).Contents (Elt F) → (⟨S1100000, .f32⟩ : BufTy).Contents (Elt F) → (⟨S100000, .f32⟩ : BufTy).Contents (Elt F)),
    StableHlo.nullary main_cst_15 (constant S_ .f32 0x00000000#32),
    StableHlo.unary main_cst_15 main_v75 (broadcastInDim S100000 ![] bcast_S_S100000 : (⟨S_, .f32⟩ : BufTy).Contents (Elt F) → (⟨S100000, .f32⟩ : BufTy).Contents (Elt F)),
    StableHlo.binary main_v74 main_v75 main_v76 (cmpf .ogt : (⟨S100000, .f32⟩ : BufTy).Contents (Elt F) → (⟨S100000, .f32⟩ : BufTy).Contents (Elt F) → (⟨S100000, .i1⟩ : BufTy).Contents (Elt F)),
    StableHlo.unary main_v74 main_v77 (Host.rsqrt : (⟨S100000, .f32⟩ : BufTy).Contents (Elt F) → (⟨S100000, .f32⟩ : BufTy).Contents (Elt F)),
    StableHlo.nullary main_cst_16 (constant S_ .f32 0x00000000#32),
    StableHlo.TRef.unary (.of main_cst_16 : TRef sig ⟨S_, .f32⟩) main_call3.v0 id,
    StableHlo.TRef.unary main_call3.v0 main_call3.v1 (broadcastInDim S100000 ![] bcast_S_S100000),
    StableHlo.TRef.ternary (.of main_v76 : TRef sig ⟨S100000, .i1⟩) (.of main_v77 : TRef sig ⟨S100000, .f32⟩) main_call3.v1 main_call3.v2 select,
    StableHlo.nullary main_c_17 (constantI S_ 32 0#32),
    StableHlo.unary main_c_17 main_v79 (broadcastInDim S1100000 ![] bcast_S_S1100000 : (⟨S_, .i32⟩ : BufTy).Contents (Elt F) → (⟨S1100000, .i32⟩ : BufTy).Contents (Elt F)),
    StableHlo.binary main_v69 main_v79 main_v80 (cmpi .slt : (⟨S1100000, .i32⟩ : BufTy).Contents (Elt F) → (⟨S1100000, .i32⟩ : BufTy).Contents (Elt F) → (⟨S1100000, .i1⟩ : BufTy).Contents (Elt F)),
    StableHlo.nullary main_c_18 (constantI S_ 32 100000#32),
    StableHlo.unary main_c_18 main_v81 (broadcastInDim S1100000 ![] bcast_S_S1100000 : (⟨S_, .i32⟩ : BufTy).Contents (Elt F) → (⟨S1100000, .i32⟩ : BufTy).Contents (Elt F)),
    StableHlo.binary main_v69 main_v81 main_v82 (addi : (⟨S1100000, .i32⟩ : BufTy).Contents (Elt F) → (⟨S1100000, .i32⟩ : BufTy).Contents (Elt F) → (⟨S1100000, .i32⟩ : BufTy).Contents (Elt F)),
    StableHlo.ternary main_v80 main_v82 main_v69 main_v83 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v83 main_v84 (broadcastInDim S1100000x1 ![0] bcast_S1100000_S1100000x1_0 : (⟨S1100000, .i32⟩ : BufTy).Contents (Elt F) → (⟨S1100000x1, .i32⟩ : BufTy).Contents (Elt F)),
    StableHlo.binary main_v78 main_v84 main_v85 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    StableHlo.nullary main_c_19 (constantI S_ 32 0#32),
    StableHlo.unary main_c_19 main_v86 (broadcastInDim S1100000 ![] bcast_S_S1100000 : (⟨S_, .i32⟩ : BufTy).Contents (Elt F) → (⟨S1100000, .i32⟩ : BufTy).Contents (Elt F)),
    StableHlo.binary main_v70 main_v86 main_v87 (cmpi .slt : (⟨S1100000, .i32⟩ : BufTy).Contents (Elt F) → (⟨S1100000, .i32⟩ : BufTy).Contents (Elt F) → (⟨S1100000, .i1⟩ : BufTy).Contents (Elt F)),
    StableHlo.nullary main_c_20 (constantI S_ 32 100000#32),
    StableHlo.unary main_c_20 main_v88 (broadcastInDim S1100000 ![] bcast_S_S1100000 : (⟨S_, .i32⟩ : BufTy).Contents (Elt F) → (⟨S1100000, .i32⟩ : BufTy).Contents (Elt F)),
    StableHlo.binary main_v70 main_v88 main_v89 (addi : (⟨S1100000, .i32⟩ : BufTy).Contents (Elt F) → (⟨S1100000, .i32⟩ : BufTy).Contents (Elt F) → (⟨S1100000, .i32⟩ : BufTy).Contents (Elt F)),
    StableHlo.ternary main_v87 main_v89 main_v70 main_v90 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v90 main_v91 (broadcastInDim S1100000x1 ![0] bcast_S1100000_S1100000x1_0 : (⟨S1100000, .i32⟩ : BufTy).Contents (Elt F) → (⟨S1100000x1, .i32⟩ : BufTy).Contents (Elt F)),
    StableHlo.binary main_v78 main_v91 main_v92 ((fun x i => Host.gather gather_S100000_S1100000x1_S1100000_n_0_n_n_0_1_1 x i) : (⟨S100000, .f32⟩ : BufTy).Contents (Elt F) → (⟨S1100000x1, .i32⟩ : BufTy).Contents (Elt F) → (⟨S1100000, .f32⟩ : BufTy).Contents (Elt F)),
    StableHlo.binary main_v85 main_v92 main_v93 (mulf : (⟨S1100000, .f32⟩ : BufTy).Contents (Elt F) → (⟨S1100000, .f32⟩ : BufTy).Contents (Elt F) → (⟨S1100000, .f32⟩ : BufTy).Contents (Elt F)),
    StableHlo.nullary main_c_21 (constantI S_ 32 0#32),
    StableHlo.unary main_c_21 main_v94 (broadcastInDim S1100000 ![] bcast_S_S1100000 : (⟨S_, .i32⟩ : BufTy).Contents (Elt F) → (⟨S1100000, .i32⟩ : BufTy).Contents (Elt F)),
    StableHlo.binary main_v69 main_v94 main_v95 (cmpi .slt : (⟨S1100000, .i32⟩ : BufTy).Contents (Elt F) → (⟨S1100000, .i32⟩ : BufTy).Contents (Elt F) → (⟨S1100000, .i1⟩ : BufTy).Contents (Elt F)) ]

/-- The third part: the second aggregation with its bias, its column means and variances, and the second
    normalisation and rectifier (63 operations). -/
abbrev ops2 : List (HloOp τ sig (Elt F)) :=
  [ StableHlo.nullary main_c_22 (constantI S_ 32 100000#32),
    StableHlo.unary main_c_22 main_v96 (broadcastInDim S1100000 ![] bcast_S_S1100000 : (⟨S_, .i32⟩ : BufTy).Contents (Elt F) → (⟨S1100000, .i32⟩ : BufTy).Contents (Elt F)),
    StableHlo.binary main_v69 main_v96 main_v97 (addi : (⟨S1100000, .i32⟩ : BufTy).Contents (Elt F) → (⟨S1100000, .i32⟩ : BufTy).Contents (Elt F) → (⟨S1100000, .i32⟩ : BufTy).Contents (Elt F)),
    StableHlo.ternary main_v95 main_v97 main_v69 main_v98 (select : (⟨S1100000, .i1⟩ : BufTy).Contents (Elt F) → (⟨S1100000, .i32⟩ : BufTy).Contents (Elt F) → (⟨S1100000, .i32⟩ : BufTy).Contents (Elt F) → (⟨S1100000, .i32⟩ : BufTy).Contents (Elt F)),
    StableHlo.unary main_v98 main_v99 (broadcastInDim S1100000x1 ![0] bcast_S1100000_S1100000x1_0 : (⟨S1100000, .i32⟩ : BufTy).Contents (Elt F) → (⟨S1100000x1, .i32⟩ : BufTy).Contents (Elt F)),
    StableHlo.binary main_v67 main_v99 main_v100 ((fun x i => Host.gather gather_S100000x64_S1100000x1_S1100000x64_1_0_n_n_0_1_164 x i) : (⟨S100000x64, .f32⟩ : BufTy).Contents (Elt F) → (⟨S1100000x1, .i32⟩ : BufTy).Contents (Elt F) → (⟨S1100000x64, .f32⟩ : BufTy).Contents (Elt F)),
    StableHlo.unary main_v93 main_v101 (broadcastInDim S1100000x1 ![0] bcast_S1100000_S1100000x1_0 : (⟨S1100000, .f32⟩ : BufTy).Contents (Elt F) → (⟨S1100000x1, .f32⟩ : BufTy).Contents (Elt F)),
    StableHlo.unary main_v101 main_v102 (broadcastInDim S1100000x64 ![0, 1] bcast_S1100000x1_S1100000x64_0_1 : (⟨S1100000x1, .f32⟩ : BufTy).Contents (Elt F) → (⟨S1100000x64, .f32⟩ : BufTy).Contents (Elt F)),
    StableHlo.binary main_v100 main_v102 main_v103 (mulf : (⟨S1100000x64, .f32⟩ : BufTy).Contents (Elt F) → (⟨S1100000x64, .f32⟩ : BufTy).Contents (Elt F) → (⟨S1100000x64, .f32⟩ : BufTy).Contents (Elt F)),
    StableHlo.nullary main_cst_23 (constant S_ .f32 0x00000000#32),
    StableHlo.unary main_cst_23 main_v104 (broadcastInDim S100000x64 ![] bcast_S_S100000x64 : (⟨S_, .f32⟩ : BufTy).Contents (Elt F) → (⟨S100000x64, .f32⟩ : BufTy).Contents (Elt F)),
    StableHlo.unary main_v70 main_v105 (broadcastInDim S1100000x1 ![0] bcast_S1100000_S1100000x1_0 : (⟨S1100000, .i32⟩ : BufTy).Contents (Elt F) → (⟨S1100000x1, .i32⟩ : BufTy).Contents (Elt F)),
    StableHlo.ternary main_v104 main_v105 main_v103 main_v106 ((fun x i u => Host.scatterAdd scatter_S100000x64_S1100000x1_S1100000x64_1_0_0_1 x i u) : (⟨S100000x64, .f32⟩ : BufTy).Contents (Elt F) → (⟨S1100000x1, .i32⟩ : BufTy).Contents (Elt F) → (⟨S1100000x64, .f32⟩ : BufTy).Contents (Elt F) → (⟨S100000x64, .f32⟩ : BufTy).Contents (Elt F)),
    StableHlo.unary main_arg7 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S100000x64 ![0, 1] bcast_S1x64_S100000x64_0_1 : (⟨S1x64, .f32⟩ : BufTy).Contents (Elt F) → (⟨S100000x64, .f32⟩ : BufTy).Contents (Elt F)),
    StableHlo.binary main_v106 main_v108 main_v109 (addf : (⟨S100000x64, .f32⟩ : BufTy).Contents (Elt F) → (⟨S100000x64, .f32⟩ : BufTy).Contents (Elt F) → (⟨S100000x64, .f32⟩ : BufTy).Contents (Elt F)),
    StableHlo.nullary main_cst_24 (constant S_ .f32 0x00000000#32),
    StableHlo.binary main_v109 main_cst_24 main_v110 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_25 (constant S_ .f32 0x47C35000#32),
    StableHlo.unary main_cst_25 main_v111 (broadcastInDim S64 ![] bcast_S_S64 : (⟨S_, .f32⟩ : BufTy).Contents (Elt F) → (⟨S64, .f32⟩ : BufTy).Contents (Elt F)),
    StableHlo.binary main_v110 main_v111 main_v112 (Host.divf : (⟨S64, .f32⟩ : BufTy).Contents (Elt F) → (⟨S64, .f32⟩ : BufTy).Contents (Elt F) → (⟨S64, .f32⟩ : BufTy).Contents (Elt F)),
    StableHlo.nullary main_c_26 (constantI S_ 32 0#32),
    StableHlo.TRef.nullary main_call4.cst (constant S_ .f32 0x00000000#32),
    StableHlo.TRef.binary (.of main_v109 : TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v109 : TRef sig ⟨S100000x64, .f32⟩) main_call4.v4 main_call4.v5 subf,
    StableHlo.TRef.binary main_call4.v5 main_call4.v5 main_call4.v6 mulf,
    StableHlo.TRef.unary (.of main_c_26 : TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v112 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S100000x64 ![0, 1] bcast_S1x64_S100000x64_0_1 : (⟨S1x64, .f32⟩ : BufTy).Contents (Elt F) → (⟨S100000x64, .f32⟩ : BufTy).Contents (Elt F)),
    StableHlo.binary main_v109 main_v115 main_v116 (subf : (⟨S100000x64, .f32⟩ : BufTy).Contents (Elt F) → (⟨S100000x64, .f32⟩ : BufTy).Contents (Elt F) → (⟨S100000x64, .f32⟩ : BufTy).Contents (Elt F)),
    StableHlo.nullary main_cst_27 (constant S_ .f32 0x3727C5AC#32),
    StableHlo.unary main_cst_27 main_v117 (broadcastInDim S64 ![] bcast_S_S64 : (⟨S_, .f32⟩ : BufTy).Contents (Elt F) → (⟨S64, .f32⟩ : BufTy).Contents (Elt F)),
    StableHlo.binary main_v113 main_v117 main_v118 (addf : (⟨S64, .f32⟩ : BufTy).Contents (Elt F) → (⟨S64, .f32⟩ : BufTy).Contents (Elt F) → (⟨S64, .f32⟩ : BufTy).Contents (Elt F)),
    StableHlo.unary main_v118 main_v119 (Host.rsqrt : (⟨S64, .f32⟩ : BufTy).Contents (Elt F) → (⟨S64, .f32⟩ : BufTy).Contents (Elt F)),
    StableHlo.unary main_v119 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S100000x64 ![0, 1] bcast_S1x64_S100000x64_0_1 : (⟨S1x64, .f32⟩ : BufTy).Contents (Elt F) → (⟨S100000x64, .f32⟩ : BufTy).Contents (Elt F)),
    StableHlo.binary main_v116 main_v121 main_v122 (mulf : (⟨S100000x64, .f32⟩ : BufTy).Contents (Elt F) → (⟨S100000x64, .f32⟩ : BufTy).Contents (Elt F) → (⟨S100000x64, .f32⟩ : BufTy).Contents (Elt F)),
    StableHlo.unary main_arg8 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S100000x64 ![0, 1] bcast_S1x64_S100000x64_0_1 : (⟨S1x64, .f32⟩ : BufTy).Contents (Elt F) → (⟨S100000x64, .f32⟩ : BufTy).Contents (Elt F)),
    StableHlo.binary main_v122 main_v124 main_v125 (mulf : (⟨S100000x64, .f32⟩ : BufTy).Contents (Elt F) → (⟨S100000x64, .f32⟩ : BufTy).Contents (Elt F) → (⟨S100000x64, .f32⟩ : BufTy).Contents (Elt F)),
    StableHlo.unary main_arg9 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S100000x64 ![0, 1] bcast_S1x64_S100000x64_0_1 : (⟨S1x64, .f32⟩ : BufTy).Contents (Elt F) → (⟨S100000x64, .f32⟩ : BufTy).Contents (Elt F)),
    StableHlo.binary main_v125 main_v127 main_v128 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v128 : TRef sig ⟨S100000x64, .f32⟩) main_call5.v0 main_call5.v1 maximumf ]

/-- Each part of the text is its list run in order: the called functions' bodies stand at their calls, and
    sequencing is associative. -/
theorem part0_eq (c : Dev nD) : main_part0 (F := F) c = seq ops0 := by
  simp only [main_part0, fn_where.body, seq, bind_assoc, pure_bind]
  rfl

theorem part1_eq (c : Dev nD) : main_part1 (F := F) c = seq ops1 := by
  simp only [main_part1, fn_where.body, fn_where_0.body, fn_var.body, fn_relu.body, seq, bind_assoc, pure_bind]
  rfl

theorem part2_eq (c : Dev nD) : main_part2 (F := F) c = seq ops2 := by
  simp only [main_part2, fn_where_0.body, fn_var.body, fn_relu.body, seq, bind_assoc, pure_bind]

/-- The whole text is the three lists run one after the other. -/
theorem main_eq (c : Dev nD) : main (F := F) c = seq (ops0 ++ (ops1 ++ ops2)) := by
  rw [seq_append, seq_append, ← part0_eq c, ← part1_eq c, ← part2_eq c]
  rfl

/-- What the arrays hold after two lists run in order: the second list's values from the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub ..,
    binary_bufs_sub .., binary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., unary_bufs_sub .., binary_bufs_sub ..,
    nullary_bufs_sub .., binary_bufs_sub ..⟩

theorem ops1_sub : (ops1 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., nullary_bufs_sub .., binary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub ..⟩

theorem ops2_sub : (ops2 : List (HloOp τ sig (Elt F))).Forall fun op => op.bufs ⊆ tcRefs τ sig :=
  ⟨nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., unary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl⟩

/-- A property of every operation of three lists holds of every operation of their concatenation. -/
theorem forall_app3 {α : Type} {p : α → Prop} {a b c : List α} (ha : a.Forall p) (hb : b.Forall p) (hc : c.Forall p) :
    (a ++ (b ++ c)).Forall p := by
  rw [List.forall_iff_forall_mem] at ha hb hc ⊢
  intro x hx
  rcases List.mem_append.1 hx with h | h
  · exact ha x h
  · rcases List.mem_append.1 h with h | h
    · exact hb x h
    · exact hc x h

/-- On every device, for any float values, from any memory with zero counters: every execution of the reference
    terminates, and every array ends at the value the three lists give it in order, from the contents at the start. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after ops2 (after ops1 (after ops0 (launchContents m c))) (b : DevRef τ sig) :=
  (θ_run defs _ _).mono (fun _ h c b => by rw [h c b, after_app, after_app])
    (run_seq scopedRefs_eq scopedSems_eq defs main (fun _ => ops0 ++ (ops1 ++ ops2)) main_eq
      (fun _ => forall_app3 ops0_sub ops1_sub ops2_sub) m ρ
      (fun _ => List.forall_iff_forall_mem.1 (forall_app3 ops0_fresh ops1_fresh ops2_fresh)))

end Cert.ReferenceIdeal.RefRun

end
-- ==== Proof.RefRunKeep.lean ====
/-
  Which arrays the reference writes, and that it leaves every other array alone.

  Every operation of the reference writes exactly one array, its own result. Listing the result arrays of each of
  the three parts once, an array that is not in a part's list holds after the part what it held before it; in
  particular the ten argument arrays, which no operation writes, are unchanged at the end.
-/
import proofs.«139092_j81415400063394_1_alg».proof.Proof.RefRunOps

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- An operation that writes the one array `y` writes inside any list of arrays that has `y`. -/
theorem single_sub {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.2 (List.mem_toFinset.2 (List.mem_map.2 ⟨y, h, rfl⟩))

/-- The arrays the first part writes, in order. -/
abbrev W0 : List (Ref sig .tc) :=
  [ main_v0, main_v1, main_v2, main_v3, main_v4, main_v5, main_v6, main_v7,
    main_cst, main_v8, main_cst_0, main_v9, main_v10, main_v11, main_cst_1, main_v12,
    main_v13, main_v14, main_cst_2, main_call0.v0.ref, main_call0.v1.ref, main_call0.v2.ref, main_c, main_v16,
    main_v17, main_c_3, main_v18, main_v19, main_v20, main_v21, main_v22, main_c_4,
    main_v23, main_v24, main_c_5, main_v25, main_v26, main_v27, main_v28, main_v29,
    main_v30, main_c_6, main_v31, main_v32, main_c_7, main_v33, main_v34, main_v35,
    main_v36, main_v37, main_v38, main_v39, main_v40, main_cst_8, main_v41, main_v42,
    main_v43, main_v44, main_v45, main_v46, main_cst_9, main_v47 ]

/-- The arrays the second part writes, in order. -/
abbrev W1 : List (Ref sig .tc) :=
  [ main_cst_10, main_v48, main_v49, main_c_11, main_call1.cst.ref, main_call1.v0.ref, main_call1.v1.ref, main_call1.cst_0.ref,
    main_call1.v2.ref, main_call1.v3.ref, main_call1.v4.ref, main_call1.v5.ref, main_call1.v6.ref, main_call1.v7.ref, main_call1.cst_1.ref, main_call1.v8.ref,
    main_call1.cst_2.ref, main_call1.v9.ref, main_call1.v10.ref, main_call1.v11.ref, main_call1.cst_3.ref, main_call1.v12.ref, main_call1.cst_4.ref, main_call1.call0.v0.ref,
    main_call1.call0.v1.ref, main_call1.call0.v2.ref, main_v51, main_v52, main_v53, main_cst_12, main_v54, main_v55,
    main_v56, main_v57, main_v58, main_v59, main_v60, main_v61, main_v62, main_v63,
    main_v64, main_v65, main_call2.cst.ref, main_call2.v0.ref, main_call2.v1.ref, main_v67, main_v68, main_v69,
    main_v70, main_cst_13, main_v71, main_cst_14, main_v72, main_v73, main_v74, main_cst_15,
    main_v75, main_v76, main_v77, main_cst_16, main_call3.v0.ref, main_call3.v1.ref, main_call3.v2.ref, main_c_17,
    main_v79, main_v80, main_c_18, main_v81, main_v82, main_v83, main_v84, main_v85,
    main_c_19, main_v86, main_v87, main_c_20, main_v88, main_v89, main_v90, main_v91,
    main_v92, main_v93, main_c_21, main_v94, main_v95 ]

/-- The arrays the third part writes, in order. -/
abbrev W2 : List (Ref sig .tc) :=
  [ main_c_22, main_v96, main_v97, main_v98, main_v99, main_v100, main_v101, main_v102,
    main_v103, main_cst_23, main_v104, main_v105, main_v106, main_v107, main_v108, main_v109,
    main_cst_24, main_v110, main_cst_25, main_v111, main_v112, main_c_26, main_call4.cst.ref, main_call4.v0.ref,
    main_call4.v1.ref, main_call4.cst_0.ref, main_call4.v2.ref, main_call4.v3.ref, main_call4.v4.ref, main_call4.v5.ref, main_call4.v6.ref, main_call4.v7.ref,
    main_call4.cst_1.ref, main_call4.v8.ref, main_call4.cst_2.ref, main_call4.v9.ref, main_call4.v10.ref, main_call4.v11.ref, main_call4.cst_3.ref, main_call4.v12.ref,
    main_call4.cst_4.ref, main_call4.call0.v0.ref, main_call4.call0.v1.ref, main_call4.call0.v2.ref, main_v114, main_v115, main_v116, main_cst_27,
    main_v117, main_v118, main_v119, main_v120, main_v121, main_v122, main_v123, main_v124,
    main_v125, main_v126, main_v127, main_v128, main_call5.cst.ref, main_call5.v0.ref, main_call5.v1.ref ]

theorem writes0 : (ops0 : List (HloOp τ sig (Elt F))).Forall fun op => op.writes ⊆ (W0.map (Proc.devRef (τ := τ) .tc)).toFinset :=
  ⟨single_sub main_v0 (by decide), single_sub main_v1 (by decide), single_sub main_v2 (by decide), single_sub main_v3 (by decide),
    single_sub main_v4 (by decide), single_sub main_v5 (by decide), single_sub main_v6 (by decide), single_sub main_v7 (by decide),
    single_sub main_cst (by decide), single_sub main_v8 (by decide), single_sub main_cst_0 (by decide), single_sub main_v9 (by decide),
    single_sub main_v10 (by decide), single_sub main_v11 (by decide), single_sub main_cst_1 (by decide), single_sub main_v12 (by decide),
    single_sub main_v13 (by decide), single_sub main_v14 (by decide), single_sub main_cst_2 (by decide), single_sub (main_call0.v0.ref) (by decide),
    single_sub (main_call0.v1.ref) (by decide), single_sub (main_call0.v2.ref) (by decide), single_sub main_c (by decide), single_sub main_v16 (by decide),
    single_sub main_v17 (by decide), single_sub main_c_3 (by decide), single_sub main_v18 (by decide), single_sub main_v19 (by decide),
    single_sub main_v20 (by decide), single_sub main_v21 (by decide), single_sub main_v22 (by decide), single_sub main_c_4 (by decide),
    single_sub main_v23 (by decide), single_sub main_v24 (by decide), single_sub main_c_5 (by decide), single_sub main_v25 (by decide),
    single_sub main_v26 (by decide), single_sub main_v27 (by decide), single_sub main_v28 (by decide), single_sub main_v29 (by decide),
    single_sub main_v30 (by decide), single_sub main_c_6 (by decide), single_sub main_v31 (by decide), single_sub main_v32 (by decide),
    single_sub main_c_7 (by decide), single_sub main_v33 (by decide), single_sub main_v34 (by decide), single_sub main_v35 (by decide),
    single_sub main_v36 (by decide), single_sub main_v37 (by decide), single_sub main_v38 (by decide), single_sub main_v39 (by decide),
    single_sub main_v40 (by decide), single_sub main_cst_8 (by decide), single_sub main_v41 (by decide), single_sub main_v42 (by decide),
    single_sub main_v43 (by decide), single_sub main_v44 (by decide), single_sub main_v45 (by decide), single_sub main_v46 (by decide),
    single_sub main_cst_9 (by decide), single_sub main_v47 (by decide)⟩

theorem writes1 : (ops1 : List (HloOp τ sig (Elt F))).Forall fun op => op.writes ⊆ (W1.map (Proc.devRef (τ := τ) .tc)).toFinset :=
  ⟨single_sub main_cst_10 (by decide), single_sub main_v48 (by decide), single_sub main_v49 (by decide), single_sub main_c_11 (by decide),
    single_sub (main_call1.cst.ref) (by decide), single_sub (main_call1.v0.ref) (by decide), single_sub (main_call1.v1.ref) (by decide), single_sub (main_call1.cst_0.ref) (by decide),
    single_sub (main_call1.v2.ref) (by decide), single_sub (main_call1.v3.ref) (by decide), single_sub (main_call1.v4.ref) (by decide), single_sub (main_call1.v5.ref) (by decide),
    single_sub (main_call1.v6.ref) (by decide), single_sub (main_call1.v7.ref) (by decide), single_sub (main_call1.cst_1.ref) (by decide), single_sub (main_call1.v8.ref) (by decide),
    single_sub (main_call1.cst_2.ref) (by decide), single_sub (main_call1.v9.ref) (by decide), single_sub (main_call1.v10.ref) (by decide), single_sub (main_call1.v11.ref) (by decide),
    single_sub (main_call1.cst_3.ref) (by decide), single_sub (main_call1.v12.ref) (by decide), single_sub (main_call1.cst_4.ref) (by decide), single_sub (main_call1.call0.v0.ref) (by decide),
    single_sub (main_call1.call0.v1.ref) (by decide), single_sub (main_call1.call0.v2.ref) (by decide), single_sub main_v51 (by decide), single_sub main_v52 (by decide),
    single_sub main_v53 (by decide), single_sub main_cst_12 (by decide), single_sub main_v54 (by decide), single_sub main_v55 (by decide),
    single_sub main_v56 (by decide), single_sub main_v57 (by decide), single_sub main_v58 (by decide), single_sub main_v59 (by decide),
    single_sub main_v60 (by decide), single_sub main_v61 (by decide), single_sub main_v62 (by decide), single_sub main_v63 (by decide),
    single_sub main_v64 (by decide), single_sub main_v65 (by decide), single_sub (main_call2.cst.ref) (by decide), single_sub (main_call2.v0.ref) (by decide),
    single_sub (main_call2.v1.ref) (by decide), single_sub main_v67 (by decide), single_sub main_v68 (by decide), single_sub main_v69 (by decide),
    single_sub main_v70 (by decide), single_sub main_cst_13 (by decide), single_sub main_v71 (by decide), single_sub main_cst_14 (by decide),
    single_sub main_v72 (by decide), single_sub main_v73 (by decide), single_sub main_v74 (by decide), single_sub main_cst_15 (by decide),
    single_sub main_v75 (by decide), single_sub main_v76 (by decide), single_sub main_v77 (by decide), single_sub main_cst_16 (by decide),
    single_sub (main_call3.v0.ref) (by decide), single_sub (main_call3.v1.ref) (by decide), single_sub (main_call3.v2.ref) (by decide), single_sub main_c_17 (by decide),
    single_sub main_v79 (by decide), single_sub main_v80 (by decide), single_sub main_c_18 (by decide), single_sub main_v81 (by decide),
    single_sub main_v82 (by decide), single_sub main_v83 (by decide), single_sub main_v84 (by decide), single_sub main_v85 (by decide),
    single_sub main_c_19 (by decide), single_sub main_v86 (by decide), single_sub main_v87 (by decide), single_sub main_c_20 (by decide),
    single_sub main_v88 (by decide), single_sub main_v89 (by decide), single_sub main_v90 (by decide), single_sub main_v91 (by decide),
    single_sub main_v92 (by decide), single_sub main_v93 (by decide), single_sub main_c_21 (by decide), single_sub main_v94 (by decide),
    single_sub main_v95 (by decide)⟩

theorem writes2 : (ops2 : List (HloOp τ sig (Elt F))).Forall fun op => op.writes ⊆ (W2.map (Proc.devRef (τ := τ) .tc)).toFinset :=
  ⟨single_sub main_c_22 (by decide), single_sub main_v96 (by decide), single_sub main_v97 (by decide), single_sub main_v98 (by decide),
    single_sub main_v99 (by decide), single_sub main_v100 (by decide), single_sub main_v101 (by decide), single_sub main_v102 (by decide),
    single_sub main_v103 (by decide), single_sub main_cst_23 (by decide), single_sub main_v104 (by decide), single_sub main_v105 (by decide),
    single_sub main_v106 (by decide), single_sub main_v107 (by decide), single_sub main_v108 (by decide), single_sub main_v109 (by decide),
    single_sub main_cst_24 (by decide), single_sub main_v110 (by decide), single_sub main_cst_25 (by decide), single_sub main_v111 (by decide),
    single_sub main_v112 (by decide), single_sub main_c_26 (by decide), single_sub (main_call4.cst.ref) (by decide), single_sub (main_call4.v0.ref) (by decide),
    single_sub (main_call4.v1.ref) (by decide), single_sub (main_call4.cst_0.ref) (by decide), single_sub (main_call4.v2.ref) (by decide), single_sub (main_call4.v3.ref) (by decide),
    single_sub (main_call4.v4.ref) (by decide), single_sub (main_call4.v5.ref) (by decide), single_sub (main_call4.v6.ref) (by decide), single_sub (main_call4.v7.ref) (by decide),
    single_sub (main_call4.cst_1.ref) (by decide), single_sub (main_call4.v8.ref) (by decide), single_sub (main_call4.cst_2.ref) (by decide), single_sub (main_call4.v9.ref) (by decide),
    single_sub (main_call4.v10.ref) (by decide), single_sub (main_call4.v11.ref) (by decide), single_sub (main_call4.cst_3.ref) (by decide), single_sub (main_call4.v12.ref) (by decide),
    single_sub (main_call4.cst_4.ref) (by decide), single_sub (main_call4.call0.v0.ref) (by decide), single_sub (main_call4.call0.v1.ref) (by decide), single_sub (main_call4.call0.v2.ref) (by decide),
    single_sub main_v114 (by decide), single_sub main_v115 (by decide), single_sub main_v116 (by decide), single_sub main_cst_27 (by decide),
    single_sub main_v117 (by decide), single_sub main_v118 (by decide), single_sub main_v119 (by decide), single_sub main_v120 (by decide),
    single_sub main_v121 (by decide), single_sub main_v122 (by decide), single_sub main_v123 (by decide), single_sub main_v124 (by decide),
    single_sub main_v125 (by decide), single_sub main_v126 (by decide), single_sub main_v127 (by decide), single_sub main_v128 (by decide),
    single_sub (main_call5.cst.ref) (by decide), single_sub (main_call5.v0.ref) (by decide), single_sub (main_call5.v1.ref) (by decide)⟩

/-- An array the first part does not write holds after it what it held before. -/
theorem keep0 (V : Valuation τ sig (Elt F)) {r : Ref sig .tc} (hr : r ∉ W0) :
    after ops0 V (r : DevRef τ sig) = V (r : DevRef τ sig) := after_of_writes_sub ops0 V writes0 hr

/-- The same for the second part. -/
theorem keep1 (V : Valuation τ sig (Elt F)) {r : Ref sig .tc} (hr : r ∉ W1) :
    after ops1 V (r : DevRef τ sig) = V (r : DevRef τ sig) := after_of_writes_sub ops1 V writes1 hr

/-- The same for the third part. -/
theorem keep2 (V : Valuation τ sig (Elt F)) {r : Ref sig .tc} (hr : r ∉ W2) :
    after ops2 V (r : DevRef τ sig) = V (r : DevRef τ sig) := after_of_writes_sub ops2 V writes2 hr

/-- An array no part writes holds at the end what it held at the start. -/
theorem kept (V : Valuation τ sig (Elt F)) {r : Ref sig .tc} (h0 : r ∉ W0) (h1 : r ∉ W1) (h2 : r ∉ W2) :
    after ops2 (after ops1 (after ops0 V)) (r : DevRef τ sig) = V (r : DevRef τ sig) := by
  rw [keep2 _ h2, keep1 _ h1, keep0 _ h0]

end Cert.ReferenceIdeal.RefRun

end
-- ==== Proof.RefStages.lean ====
/-
  The stages of a two-layer graph convolution with batch normalisation, as plain functions of array values.

  A layer reads the edge list (two rows of node numbers), appends a self loop for every node, counts each node's
  incoming edges (deg), takes dinv = deg^(-1/2) where deg > 0 and 0 elsewhere, weighs edge e by
  dinv(src e) · dinv(dst e), and sends, for every edge, the weighted source row of the transformed features to the
  destination row, where the contributions are added; the bias is added to every row. Batch normalisation then
  uses, per feature column, the mean and the (biased) variance over the 100000 rows. Each function below is spelt
  with the array operations in the order the program applies them, so that a run of the program ends, by
  unfolding, at these functions of its argument arrays.
-/
import proofs.«139092_j81415400063394_1_alg».proof.ReferenceIdeal

noncomputable section

namespace Cert.ReferenceIdeal.Stage

open Idealize.ShloMosaic Cert.ReferenceIdeal

variable {F : FTy → Type} [FloatOps F] [Facts]
open Facts₀ Facts

/-- The first row of the edge list (the sources) followed by 0, …, N − 1 (the self loops). -/
def srcv (ei : (⟨S2x1000000, .i32⟩ : BufTy).Contents (Elt F)) : (⟨S1100000, .i32⟩ : BufTy).Contents (Elt F) :=
  concatenate S1100000 0
    [⟨S1000000, shapeCast S1000000 (extractStridedSlice S1x1000000 ![0, 0] ei slices_S2x1000000_S1x1000000_0_0) shapeCasts_S1x1000000_S1000000⟩,
     ⟨S100000, iotaInDim S100000 32 0⟩] concatenates_S1000000_S100000_S1100000_d0

/-- The second row of the edge list (the destinations) followed by 0, …, N − 1. -/
def dstv (ei : (⟨S2x1000000, .i32⟩ : BufTy).Contents (Elt F)) : (⟨S1100000, .i32⟩ : BufTy).Contents (Elt F) :=
  concatenate S1100000 0
    [⟨S1000000, shapeCast S1000000 (extractStridedSlice S1x1000000 ![1, 0] ei slices_S2x1000000_S1x1000000_1_0) shapeCasts_S1x1000000_S1000000⟩,
     ⟨S100000, iotaInDim S100000 32 0⟩] concatenates_S1000000_S100000_S1100000_d0

/-- A vector of node numbers as a one-column matrix of indices. -/
def col (v : (⟨S1100000, .i32⟩ : BufTy).Contents (Elt F)) : (⟨S1100000x1, .i32⟩ : BufTy).Contents (Elt F) :=
  broadcastInDim S1100000x1 ![0] bcast_S1100000_S1100000x1_0 v

/-- The same with a negative number n read as n + N (an index counted from the end). -/
def wrap (v : (⟨S1100000, .i32⟩ : BufTy).Contents (Elt F)) : (⟨S1100000x1, .i32⟩ : BufTy).Contents (Elt F) :=
  col (F := F) (select (cmpi .slt v (broadcastInDim S1100000 ![] bcast_S_S1100000 (constantI S_ 32 0#32)))
    (addi v (broadcastInDim S1100000 ![] bcast_S_S1100000 (constantI S_ 32 100000#32))) v)

/-- deg: the number of edges (self loop included) that arrive at each node, as a sum of ones. -/
def deg (ei : (⟨S2x1000000, .i32⟩ : BufTy).Contents (Elt F)) : (⟨S100000, .f32⟩ : BufTy).Contents (Elt F) :=
  Host.scatterAdd scatter_S100000_S1100000x1_S1100000_n_0_0_1
    (broadcastInDim S100000 ![] bcast_S_S100000 (constant S_ .f32 0x00000000#32))
    (col (F := F) (dstv (F := F) ei))
    (broadcastInDim S1100000 ![] bcast_S_S1100000 (constant S_ .f32 0x3F800000#32))

/-- dinv = deg^(-1/2) where deg > 0, and 0 elsewhere. -/
def dinv (ei : (⟨S2x1000000, .i32⟩ : BufTy).Contents (Elt F)) : (⟨S100000, .f32⟩ : BufTy).Contents (Elt F) :=
  select (cmpf .ogt (deg (F := F) ei) (broadcastInDim S100000 ![] bcast_S_S100000 (constant S_ .f32 0x00000000#32)))
    (Host.rsqrt (deg (F := F) ei))
    (broadcastInDim S100000 ![] bcast_S_S100000 (id (constant S_ .f32 0x00000000#32)))

/-- The weight of every edge: dinv at its source times dinv at its destination. -/
def normv (ei : (⟨S2x1000000, .i32⟩ : BufTy).Contents (Elt F)) : (⟨S1100000, .f32⟩ : BufTy).Contents (Elt F) :=
  mulf (Host.gather gather_S100000_S1100000x1_S1100000_n_0_n_n_0_1_1 (dinv (F := F) ei) (wrap (F := F) (srcv (F := F) ei)))
       (Host.gather gather_S100000_S1100000x1_S1100000_n_0_n_n_0_1_1 (dinv (F := F) ei) (wrap (F := F) (dstv (F := F) ei)))

/-- A vector of 64 entries laid along the 100000 rows. -/
def alongRows (v : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 v)

/-- One layer's aggregation: for every edge the source row of h times the edge's weight, added into the destination
    row (from zeros), plus the bias along the rows. -/
def agg (h : (⟨S100000x64, .f32⟩ : BufTy).Contents (Elt F)) (ei : (⟨S2x1000000, .i32⟩ : BufTy).Contents (Elt F))
    (b : (⟨S64, .f32⟩ : BufTy).Contents (Elt F)) : (⟨S100000x64, .f32⟩ : BufTy).Contents (Elt F) :=
  addf (Host.scatterAdd scatter_S100000x64_S1100000x1_S1100000x64_1_0_0_1
          (broadcastInDim S100000x64 ![] bcast_S_S100000x64 (constant S_ .f32 0x00000000#32))
          (col (F := F) (dstv (F := F) ei))
          (mulf (Host.gather gather_S100000x64_S1100000x1_S1100000x64_1_0_n_n_0_1_164 h (wrap (F := F) (srcv (F := F) ei)))
            (broadcastInDim S1100000x64 ![0, 1] bcast_S1100000x1_S1100000x64_0_1
              (broadcastInDim S1100000x1 ![0] bcast_S1100000_S1100000x1_0 (normv (F := F) ei)))))
       (alongRows (F := F) b)

/-- The sum of every feature column over the 100000 rows. -/
def colSum (z : (⟨S100000x64, .f32⟩ : BufTy).Contents (Elt F)) : (⟨S64, .f32⟩ : BufTy).Contents (Elt F) :=
  Host.reduceAdd z (constant S_ .f32 0x00000000#32) reducesTo_S100000x64_S64_d0 h_S_

/-- The mean of every feature column: its sum divided by 100000. -/
def meanv (z : (⟨S100000x64, .f32⟩ : BufTy).Contents (Elt F)) : (⟨S64, .f32⟩ : BufTy).Contents (Elt F) :=
  Host.divf (colSum (F := F) z) (broadcastInDim S64 ![] bcast_S_S64 (constant S_ .f32 0x47C35000#32))

/-- The number of rows less the degrees of freedom taken off (none): 100000 − 0. -/
def rowsLessDdof : (⟨S_, .f32⟩ : BufTy).Contents (Elt F) :=
  subf (constant S_ .f32 0x47C35000#32) (sitofp .f32 (constantI S_ 32 0#32))

/-- Every entry less its column's mean (the mean as the variance routine computes it, through a one-row matrix). -/
def centred (z : (⟨S100000x64, .f32⟩ : BufTy).Contents (Elt F)) : (⟨S100000x64, .f32⟩ : BufTy).Contents (Elt F) :=
  subf z (broadcastInDim S100000x64 ![0, 1] bcast_S1x64_S100000x64_0_1
    (Host.divf (broadcastInDim S1x64 ![1] bcast_S64_S1x64_1 (colSum (F := F) z))
      (broadcastInDim S1x64 ![] bcast_S_S1x64 (constant S_ .f32 0x47C35000#32))))

/-- The variance of every feature column: the sum of the squared centred entries over (100000 − 0) where that
    count is positive (it is), and not-a-number otherwise. -/
def varv (z : (⟨S100000x64, .f32⟩ : BufTy).Contents (Elt F)) : (⟨S64, .f32⟩ : BufTy).Contents (Elt F) :=
  select (broadcastInDim S64 ![] bcast_S_S64 (cmpf .ogt (rowsLessDdof (F := F)) (constant S_ .f32 0x00000000#32)))
    (Host.divf (colSum (F := F) (mulf (centred (F := F) z) (centred (F := F) z)))
      (broadcastInDim S64 ![] bcast_S_S64 (rowsLessDdof (F := F))))
    (broadcastInDim S64 ![] bcast_S_S64 (id (constant S_ .f32 0x7FC00000#32)))

/-- (variance + 10⁻⁵)^(-1/2), per feature column. -/
def invStd (z : (⟨S100000x64, .f32⟩ : BufTy).Contents (Elt F)) : (⟨S64, .f32⟩ : BufTy).Contents (Elt F) :=
  Host.rsqrt (addf (varv (F := F) z) (broadcastInDim S64 ![] bcast_S_S64 (constant S_ .f32 0x3727C5AC#32)))

/-- Batch normalisation followed by the rectifier, as the reference spells it:
    max(((z − mean) · invStd) · γ + β, 0). -/
def bn (z : (⟨S100000x64, .f32⟩ : BufTy).Contents (Elt F)) (g bt : (⟨S64, .f32⟩ : BufTy).Contents (Elt F)) :
    (⟨S100000x64, .f32⟩ : BufTy).Contents (Elt F) :=
  maximumf (addf (mulf (mulf (subf z (alongRows (F := F) (meanv (F := F) z))) (alongRows (F := F) (invStd (F := F) z)))
      (alongRows (F := F) g)) (alongRows (F := F) bt))
    (broadcastInDim S100000x64 ![] bcast_S_S100000x64 (constant S_ .f32 0x00000000#32))

/-- The reference's result: two layers, each a matrix product, the aggregation and the normalisation. -/
def out (x : (⟨S100000x128, .f32⟩ : BufTy).Contents (Elt F)) (ei : (⟨S2x1000000, .i32⟩ : BufTy).Contents (Elt F))
    (W1 : (⟨S128x64, .f32⟩ : BufTy).Contents (Elt F)) (b1 g1 bt1 : (⟨S64, .f32⟩ : BufTy).Contents (Elt F))
    (W2 : (⟨S64x64, .f32⟩ : BufTy).Contents (Elt F)) (b2 g2 bt2 : (⟨S64, .f32⟩ : BufTy).Contents (Elt F)) :
    (⟨S100000x64, .f32⟩ : BufTy).Contents (Elt F) :=
  bn (F := F) (agg (F := F) (Host.dotGeneral dot_S100000x64_S64x64_S100000x64_1_0_0_1_n_n none
      (bn (F := F) (agg (F := F) (Host.dotGeneral dot_S100000x128_S128x64_S100000x64_1_0_0_1_n_n none x W1) ei b1) g1 bt1) W2) ei b2) g2 bt2

end Cert.ReferenceIdeal.Stage

end
-- ==== Proof.RefRunA.lean ====
/-
  The first part of the reference, read at the arrays the later parts use.

  From the argument arrays x, the edge list, W1 and b1 the first part leaves: the two rows of the edge list as
  vectors; the first layer's aggregation of x · W1 over the graph, plus the bias; and the column sums of that
  array. Each value is obtained by applying the part's operations in order, and is then the corresponding stage
  function of the arguments by unfolding.
-/
import proofs.«139092_j81415400063394_1_alg».proof.Proof.RefRunOps
import proofs.«139092_j81415400063394_1_alg».proof.Proof.RefStages

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- The sources of the edges: the first row of the edge list as a vector. -/
theorem p0_v1 (V : Valuation τ sig (Elt F)) :
    after ops0 V (main_v1 : DevRef τ sig) = shapeCast S1000000 (extractStridedSlice S1x1000000 ![0, 0] (V (main_arg1 : DevRef τ sig)) slices_S2x1000000_S1x1000000_0_0) shapeCasts_S1x1000000_S1000000 := by
  after_results_simp
  rfl

/-- The destinations of the edges: the second row of the edge list as a vector. -/
theorem p0_v3 (V : Valuation τ sig (Elt F)) :
    after ops0 V (main_v3 : DevRef τ sig) = shapeCast S1000000 (extractStridedSlice S1x1000000 ![1, 0] (V (main_arg1 : DevRef τ sig)) slices_S2x1000000_S1x1000000_1_0) shapeCasts_S1x1000000_S1000000 := by
  after_results_simp
  rfl

set_option maxHeartbeats 1000000 in
/-- The first layer before normalisation: the aggregation of x · W1 over the graph, plus the bias b1. -/
theorem p0_v46 (V : Valuation τ sig (Elt F)) :
    after ops0 V (main_v46 : DevRef τ sig) = Stage.agg (F := F) (Host.dotGeneral dot_S100000x128_S128x64_S100000x64_1_0_0_1_n_n none (V (main_arg0 : DevRef τ sig)) (V (main_arg2 : DevRef τ sig))) (V (main_arg1 : DevRef τ sig)) (V (main_arg3 : DevRef τ sig)) := by
  after_results_simp
  simp only [cast_eq]
  rfl

set_option maxHeartbeats 1000000 in
/-- Its column sums. -/
theorem p0_v47 (V : Valuation τ sig (Elt F)) :
    after ops0 V (main_v47 : DevRef τ sig) = Stage.colSum (F := F) (Stage.agg (F := F) (Host.dotGeneral dot_S100000x128_S128x64_S100000x64_1_0_0_1_n_n none (V (main_arg0 : DevRef τ sig)) (V (main_arg2 : DevRef τ sig))) (V (main_arg1 : DevRef τ sig)) (V (main_arg3 : DevRef τ sig))) := by
  after_results_simp
  simp only [cast_eq]
  rfl

end Cert.ReferenceIdeal.RefRun

end
-- ==== Proof.RefRunB.lean ====
/-
  The second part of the reference, first half: the first normalisation and the second matrix product, and the
  edge ends with the self loops appended once more.

  The part starts from the arrays the first part left. Given the first layer's array z before normalisation and
  its column sums, it normalises z per column with the weights g and bt, applies the rectifier and multiplies by
  W2; and it rebuilds the vectors of sources and destinations with the self loops appended from the two rows of
  the edge list.
-/
import proofs.«139092_j81415400063394_1_alg».proof.Proof.RefRunOps
import proofs.«139092_j81415400063394_1_alg».proof.Proof.RefStages

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

set_option maxHeartbeats 1000000 in
/-- The second layer's input: the normalised and rectified first layer, times W2. -/
theorem p1_v67 (W : Valuation τ sig (Elt F)) {z : (⟨S100000x64, .f32⟩ : BufTy).Contents (Elt F)} {g bt : (⟨S64, .f32⟩ : BufTy).Contents (Elt F)} {w : (⟨S64x64, .f32⟩ : BufTy).Contents (Elt F)}
    (h46 : W (main_v46 : DevRef τ sig) = z) (h47 : W (main_v47 : DevRef τ sig) = Stage.colSum (F := F) z)
    (h4 : W (main_arg4 : DevRef τ sig) = g) (h5 : W (main_arg5 : DevRef τ sig) = bt) (h6 : W (main_arg6 : DevRef τ sig) = w) :
    after ops1 W (main_v67 : DevRef τ sig) = Host.dotGeneral dot_S100000x64_S64x64_S100000x64_1_0_0_1_n_n none (Stage.bn (F := F) z g bt) w := by
  after_results_simp
  simp only [cast_eq]
  subst h46 h4 h5 h6
  rw [h47]
  rfl

/-- The sources with the self loops appended. -/
theorem p1_v69 (W : Valuation τ sig (Elt F)) {ei : (⟨S2x1000000, .i32⟩ : BufTy).Contents (Elt F)}
    (h1 : W (main_v1 : DevRef τ sig) = shapeCast S1000000 (extractStridedSlice S1x1000000 ![0, 0] ei slices_S2x1000000_S1x1000000_0_0) shapeCasts_S1x1000000_S1000000) :
    after ops1 W (main_v69 : DevRef τ sig) = Stage.srcv (F := F) ei := by
  after_results_simp
  rw [h1]
  rfl

/-- The destinations with the self loops appended. -/
theorem p1_v70 (W : Valuation τ sig (Elt F)) {ei : (⟨S2x1000000, .i32⟩ : BufTy).Contents (Elt F)}
    (h3 : W (main_v3 : DevRef τ sig) = shapeCast S1000000 (extractStridedSlice S1x1000000 ![1, 0] ei slices_S2x1000000_S1x1000000_1_0) shapeCasts_S1x1000000_S1000000) :
    after ops1 W (main_v70 : DevRef τ sig) = Stage.dstv (F := F) ei := by
  after_results_simp
  rw [h3]
  rfl

end Cert.ReferenceIdeal.RefRun

end
-- ==== Proof.RefRunC.lean ====
/-
  The second part of the reference, second half: the edge weights once more, and the sign test of the sources.

  From the two rows of the edge list the part recomputes the degrees, their inverse square roots and the weight
  of every edge, and it compares every source with zero (the test that the next part uses to read a negative
  node number from the end).
-/
import proofs.«139092_j81415400063394_1_alg».proof.Proof.RefRunOps
import proofs.«139092_j81415400063394_1_alg».proof.Proof.RefStages

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

set_option maxHeartbeats 1000000 in
/-- The weight of every edge. -/
theorem p1_v93 (W : Valuation τ sig (Elt F)) {ei : (⟨S2x1000000, .i32⟩ : BufTy).Contents (Elt F)}
    (h1 : W (main_v1 : DevRef τ sig) = shapeCast S1000000 (extractStridedSlice S1x1000000 ![0, 0] ei slices_S2x1000000_S1x1000000_0_0) shapeCasts_S1x1000000_S1000000)
    (h3 : W (main_v3 : DevRef τ sig) = shapeCast S1000000 (extractStridedSlice S1x1000000 ![1, 0] ei slices_S2x1000000_S1x1000000_1_0) shapeCasts_S1x1000000_S1000000) :
    after ops1 W (main_v93 : DevRef τ sig) = Stage.normv (F := F) ei := by
  after_results_simp
  simp only [cast_eq]
  rw [h1, h3]
  rfl

/-- Which sources are negative. -/
theorem p1_v95 (W : Valuation τ sig (Elt F)) {ei : (⟨S2x1000000, .i32⟩ : BufTy).Contents (Elt F)}
    (h1 : W (main_v1 : DevRef τ sig) = shapeCast S1000000 (extractStridedSlice S1x1000000 ![0, 0] ei slices_S2x1000000_S1x1000000_0_0) shapeCasts_S1x1000000_S1000000) :
    after ops1 W (main_v95 : DevRef τ sig)
      = cmpi .slt (Stage.srcv (F := F) ei) (broadcastInDim S1100000 ![] bcast_S_S1100000 (constantI S_ 32 0#32)) := by
  after_results_simp
  rw [h1]
  rfl

end Cert.ReferenceIdeal.RefRun

end
-- ==== Proof.RefRunD.lean ====
/-
  The third part of the reference: the second aggregation, its normalisation and the rectifier.

  Given the second layer's input h, the sources and destinations with the self loops, the edge weights and the
  sign test of the sources as the second part left them, the third part aggregates h over the graph, adds the
  bias b, normalises per column with the weights g and bt and applies the rectifier: the reference's result.
-/
import proofs.«139092_j81415400063394_1_alg».proof.Proof.RefRunOps
import proofs.«139092_j81415400063394_1_alg».proof.Proof.RefStages

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

set_option maxHeartbeats 2000000 in
/-- The result array. -/
theorem p2_v129 (W : Valuation τ sig (Elt F)) {h : (⟨S100000x64, .f32⟩ : BufTy).Contents (Elt F)} {ei : (⟨S2x1000000, .i32⟩ : BufTy).Contents (Elt F)}
    {b g bt : (⟨S64, .f32⟩ : BufTy).Contents (Elt F)}
    (h67 : W (main_v67 : DevRef τ sig) = h) (h69 : W (main_v69 : DevRef τ sig) = Stage.srcv (F := F) ei)
    (h70 : W (main_v70 : DevRef τ sig) = Stage.dstv (F := F) ei) (h93 : W (main_v93 : DevRef τ sig) = Stage.normv (F := F) ei)
    (h95 : W (main_v95 : DevRef τ sig)
      = cmpi .slt (Stage.srcv (F := F) ei) (broadcastInDim S1100000 ![] bcast_S_S1100000 (constantI S_ 32 0#32)))
    (h7 : W (main_arg7 : DevRef τ sig) = b) (h8 : W (main_arg8 : DevRef τ sig) = g) (h9 : W (main_arg9 : DevRef τ sig) = bt) :
    after ops2 W (main_v129 : DevRef τ sig) = Stage.bn (F := F) (Stage.agg (F := F) h ei b) g bt := by
  after_results_simp
  simp only [cast_eq]
  subst h67 h7 h8 h9
  rw [h69, h70, h93, h95]
  rfl

end Cert.ReferenceIdeal.RefRun

end
-- ==== Proof.RefRun.lean ====
/-
  The reference's run, read back: it ends with its result array at the two-layer stage function of its arguments.

  The three parts run in order. The first leaves the rows of the edge list, the first aggregation and its column
  sums; the second turns these into the second layer's input, the edge ends with the self loops, the edge
  weights and the sign test of the sources; the third turns those into the result. Composing the three readings
  gives the result as the two-layer function of the ten argument arrays, which no operation writes and which are
  therefore unchanged at the end.
-/
import proofs.«139092_j81415400063394_1_alg».proof.Proof.RefRunKeep
import proofs.«139092_j81415400063394_1_alg».proof.Proof.RefRunA
import proofs.«139092_j81415400063394_1_alg».proof.Proof.RefRunB
import proofs.«139092_j81415400063394_1_alg».proof.Proof.RefRunC
import proofs.«139092_j81415400063394_1_alg».proof.Proof.RefRunD
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- The result array after the three parts, from any contents at the start: the two-layer function of the ten
    argument arrays. -/
theorem out_eq (V : Valuation τ sig (Elt F)) :
    after ops2 (after ops1 (after ops0 V)) (main_v129 : DevRef τ sig)
      = Stage.out (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) :=
  p2_v129 (after ops1 (after ops0 V))
    (p1_v67 (after ops0 V) (p0_v46 V) (p0_v47 V) (keep0 V (by decide)) (keep0 V (by decide)) (keep0 V (by decide)))
    (p1_v69 (after ops0 V) (p0_v1 V)) (p1_v70 (after ops0 V) (p0_v3 V))
    (p1_v93 (after ops0 V) (p0_v1 V) (p0_v3 V)) (p1_v95 (after ops0 V) (p0_v1 V))
    ((keep1 _ (by decide)).trans (keep0 V (by decide))) ((keep1 _ (by decide)).trans (keep0 V (by decide)))
    ((keep1 _ (by decide)).trans (keep0 V (by decide)))

/-- On every device, for any float values, from any memory with zero counters: every execution of the reference
    terminates with its result array at the two-layer function of its arguments, and the arguments unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v129)
        = Stage.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v129).trans (out_eq (launchContents m c)),
      (h c main_arg0).trans (kept _ (by decide) (by decide) (by decide)),
      (h c main_arg1).trans (kept _ (by decide) (by decide) (by decide)),
      (h c main_arg2).trans (kept _ (by decide) (by decide) (by decide)),
      (h c main_arg3).trans (kept _ (by decide) (by decide) (by decide)),
      (h c main_arg4).trans (kept _ (by decide) (by decide) (by decide)),
      (h c main_arg5).trans (kept _ (by decide) (by decide) (by decide)),
      (h c main_arg6).trans (kept _ (by decide) (by decide) (by decide)),
      (h c main_arg7).trans (kept _ (by decide) (by decide) (by decide)),
      (h c main_arg8).trans (kept _ (by decide) (by decide) (by decide)),
      (h c main_arg9).trans (kept _ (by decide) (by decide) (by decide))⟩)
    (run_all m ρ)

/-- The same with the floats read as extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v129)
        = Stage.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  run_gen (F := Ideal) m ρ

end Cert.ReferenceIdeal.RefRun

end
-- ==== Proof.LibRowGatherScatter.lean ====
/-
  Row gather and row scatter-add read at coordinates.

  What `x[idx]` on the rows of a matrix `x : [N, C]` at an integer column `idx : [E, 1]` lowers to is a
  `stablehlo.gather` with offset_dims `[1]`, collapsed_slice_dims `[0]`, start_index_map `[0]`, index_vector_dim 1 and
  slice_sizes `[1, C]`: result row `e` is the operand's row at the start index `idx[e, 0]` read as a signed integer
  and CLAMPED into `[0, N − 1]` (`pickRow`, `gather_rows_apply`; for a flat operand `x : [N]`, `gather_vec_apply`).
  What a segment sum of the rows of `upd : [E, C]` into `x : [N, C]` lowers to is a `stablehlo.scatter` with an `add`
  body, update_window_dims `[1]`, inserted_window_dims `[0]`, scatter_dims_to_operand_dims `[0]` and
  index_vector_dim 1: the start index is read signed and NOT clamped, so update row `e` lands on operand row `v`
  exactly when `idx[e, 0]` IS `v` as an integer (`lands`), and is dropped when it names no row. At the ideal instance
  element `(v, c)` of the result is the operand's plus the sum of `upd[e, c]` over the rows `e` that land on `v`
  (`scatterAdd_rows_apply`). A row that lands on `v` is a row the gather reads at `v` (`pickRow_of_lands`).
  All statements are generic in the sizes; the dimension numbers are literal records over any proof of their
  conditions, so a program's printed record is an instance by unfolding its name.
-/
import Idealize.ShloMosaic.Lib.ValueIdx

noncomputable section

open scoped BigOperators

namespace Idealize.ShloMosaic.RowOps

open Idealize.ShloMosaic Idealize.ShloMosaic.ValueIdx

/-! ## The row a start index names -/

/-- The operand row a gather reads for result row `e`: the start index `idx[e, 0]` read as a signed integer and
    clamped into `[0, N − 1]` (a negative index reads row 0, one past the end row `N − 1`). -/
def pickRow {N E w : Nat} (hN : 0 < N) (idx : IVec ⟨2, ![E, 1]⟩ w) (e : Fin E) : Fin N :=
  ⟨min (idx (ix2 e (0 : Fin 1))).toInt.toNat (N - 1), by omega⟩

/-- Update row `e` lands on operand row `v`: the start index `idx[e, 0]`, read as a signed integer and not
    clamped, is `v`. -/
def lands {N E w : Nat} (idx : IVec ⟨2, ![E, 1]⟩ w) (e : Fin E) (v : Fin N) : Prop :=
  (idx (ix2 e (0 : Fin 1))).toInt = (v.val : Int)

instance {N E w : Nat} (idx : IVec ⟨2, ![E, 1]⟩ w) (e : Fin E) (v : Fin N) : Decidable (lands idx e v) :=
  inferInstanceAs (Decidable ((idx (ix2 e (0 : Fin 1))).toInt = (v.val : Int)))

/-- A row that lands on `v` is read at `v`: an index that is a row needs no clamping. -/
theorem pickRow_of_lands {N E w : Nat} (hN : 0 < N) (idx : IVec ⟨2, ![E, 1]⟩ w) (e : Fin E) (v : Fin N)
    (h : lands idx e v) : pickRow hN idx e = v := by
  refine Fin.ext ?_
  unfold lands at h
  show min (idx (ix2 e (0 : Fin 1))).toInt.toNat (N - 1) = v.val
  have hv := v.isLt
  rw [h]
  simp only [Int.toNat_natCast]
  omega

/-- The same for a second index array that agrees with the first at row `e`. -/
theorem pickRow_of_lands_of_eq {N E w : Nat} (hN : 0 < N) (idx idx' : IVec ⟨2, ![E, 1]⟩ w) (e : Fin E) (v : Fin N)
    (h : lands idx e v) (h' : idx' (ix2 e (0 : Fin 1)) = idx (ix2 e (0 : Fin 1))) : pickRow hN idx' e = v := by
  have : lands idx' e v := by unfold lands; rw [h']; exact h
  exact pickRow_of_lands hN idx' e v this

/-! ## `stablehlo.gather` of the rows of a rank-2 operand at a column of start indices, read at an index -/

section Gather
variable {α : Type}

/-- The dimension numbers of `x[idx]` on rows, for an operand `[N, C]`, start indices `[E, 1]` and result
    `[E, C]`; their conditions `wf` are decided on a program's literal shapes. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `pickRow idx e`, column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N E C wf) x idx (ix2 e c) = x (ix2 (pickRow hN idx e) c) := by
  unfold Host.gather
  congr 1
  funext a
  refine Fin.ext ?_
  match a with
  | ⟨0, _⟩ =>
    show (gatherRowsDims N E C wf).start (ix2 e c) idx 0 + (gatherRowsDims N E C wf).batchCoord (ix2 e c) 0
      + (gatherRowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e c) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e c) idx 1 + (gatherRowsDims N E C wf).batchCoord (ix2 e c) 1
      + (gatherRowsDims N E C wf).offCoord (ix2 e c) 1 = _
    rw [GatherDims.batchCoord_eq_zero _ _ _ List.not_mem_nil]
    have hst : (gatherRowsDims N E C wf).start (ix2 e c) idx 1 = 0 := by
      unfold GatherDims.start
      rw [dif_neg (fun h => absurd (List.mem_singleton.mp h) (show ¬((1 : Fin 2) = 0) by decide))]
    rw [hst]
    simp only [Nat.add_zero, Nat.zero_add]
    rfl

/-- The dimension numbers of `x[idx]` on a flat operand `[N]` at a column of start indices `[E, 1]`, result `[E]`;
    their conditions `wf` are decided on a program's literal shapes. -/
abbrev gatherVecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at `pickRow idx e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (pickRow hN idx e)) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## `stablehlo.scatter` with an `add` body of the rows of the updates into a rank-2 operand, read at an index -/

section Scatter

/-- The dimension numbers of a row segment sum, for an operand `[N, C]`, scatter indices `[E, 1]` and updates
    `[E, C]`; their conditions `wf` are decided on a program's literal shapes. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c')` starts at `idx[e, 0]`, read signed … -/
theorem scatterRows_start_row (idx : IVec ⟨2, ![E, 1]⟩ w) (e : Fin E) (c' : Fin C) :
    (scatterRowsDims N E C wf).start (ix2 e c') idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e c') ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at 0. -/
theorem scatterRows_start_col (idx : IVec ⟨2, ![E, 1]⟩ w) (e : Fin E) (c' : Fin C) :
    (scatterRowsDims N E C wf).start (ix2 e c') idx 1 = 0 := by
  unfold ScatterDims.start
  rw [dif_neg (fun h => absurd (List.mem_singleton.mp h) (show ¬((1 : Fin 2) = 0) by decide))]

/-- The row axis is inserted: the window coordinate on it is 0 … -/
theorem scatterRows_window_row (e : Fin E) (c' : Fin C) : (scatterRowsDims N E C wf).window (ix2 e c') 0 = 0 := by
  unfold ScatterDims.window
  rw [dif_neg (by simp [ScatterDims.sKept, Shape.kept])]

/-- … and on the column axis it is the update's column. -/
theorem scatterRows_window_col (e : Fin E) (c' : Fin C) : (scatterRowsDims N E C wf).window (ix2 e c') 1 = c'.val := by
  rfl

/-- WHERE AN UPDATE LANDS: update `(e, c')` lands on operand element `(v, c)` exactly when row `e` lands on row
    `v` and the columns agree. An update whose start index names no row has no result index. -/
theorem resultIdx?_rows (idx : IVec ⟨2, ![E, 1]⟩ w) (e : Fin E) (c' : Fin C) (v : Fin N) (c : Fin C) :
    (scatterRowsDims N E C wf).resultIdx? (ix2 e c') idx = some (ix2 v c) ↔ lands idx e v ∧ c' = c := by
  have h0 := scatterRows_start_row wf idx e c'
  have h1 := scatterRows_start_col wf idx e c'
  have w0 := scatterRows_window_row wf e c'
  have w1 := scatterRows_window_col wf e c'
  have hv := v.isLt
  have hc' := c'.isLt
  unfold lands
  unfold ScatterDims.resultIdx?
  split
  · rename_i h
    rw [Option.some.injEq]
    constructor
    · intro hf
      have e0 := congrArg (fun f => (f 0).val) hf
      have e1 := congrArg (fun f => (f 1).val) hf
      simp only [h0, h1, w0, w1] at e0 e1
      have p0 := (h 0).1
      rw [h0, w0] at p0
      refine ⟨?_, Fin.ext ?_⟩
      · change ((idx (ix2 e (0 : Fin 1))).toInt + ((0 : Nat) : Int)).toNat = v.val at e0
        omega
      · change ((0 : Int) + (c'.val : Int)).toNat = c.val at e1
        omega
    · rintro ⟨hl, rfl⟩
      funext a; refine Fin.ext ?_
      match a with
      | ⟨0, _⟩ =>
        show ((scatterRowsDims N E C wf).start (ix2 e c') idx 0 + ((scatterRowsDims N E C wf).window (ix2 e c') 0 : Nat)).toNat = v.val
        rw [h0, w0, hl]; simp
      | ⟨1, _⟩ =>
        show ((scatterRowsDims N E C wf).start (ix2 e c') idx 1 + ((scatterRowsDims N E C wf).window (ix2 e c') 1 : Nat)).toNat = c'.val
        rw [h1, w1]; simp
  · rename_i h
    constructor
    · intro hf; exact absurd hf (by simp)
    · rintro ⟨hl, rfl⟩
      exfalso; apply h
      intro a
      match a with
      | ⟨0, _⟩ =>
        show 0 ≤ (scatterRowsDims N E C wf).start (ix2 e c') idx 0 + ((scatterRowsDims N E C wf).window (ix2 e c') 0 : Nat) ∧
          (scatterRowsDims N E C wf).start (ix2 e c') idx 0 + ((scatterRowsDims N E C wf).window (ix2 e c') 0 : Nat) < (N : Int)
        rw [h0, w0, hl]; constructor <;> omega
      | ⟨1, _⟩ =>
        show 0 ≤ (scatterRowsDims N E C wf).start (ix2 e c') idx 1 + ((scatterRowsDims N E C wf).window (ix2 e c') 1 : Nat) ∧
          (scatterRowsDims N E C wf).start (ix2 e c') idx 1 + ((scatterRowsDims N E C wf).window (ix2 e c') 1 : Nat) < (C : Int)
        rw [h1, w1]; constructor <;> omega

/-- THE ROW SCATTER-ADD READ AT `(v, c)`, at the ideal instance: the operand's element plus the sum of column `c` of
    the update rows that land on row `v`. Rows whose start index names no operand row contribute nothing. -/
theorem scatterAdd_rows_apply {φ : FTy} (x : FVec Ideal ⟨2, ![N, C]⟩ φ) (idx : IVec ⟨2, ![E, 1]⟩ w)
    (upd : FVec Ideal ⟨2, ![E, C]⟩ φ) (v : Fin N) (c : Fin C) :
    Host.scatterAdd (F := Ideal) (scatterRowsDims N E C wf) x idx upd (ix2 v c) =
      x (ix2 v c) + ∑ e ∈ Finset.univ.filter (fun e : Fin E => lands idx e v), upd (ix2 e c) := by
  show Ideal.hostScatterAdd (scatterRowsDims N E C wf) x idx upd (ix2 v c) = _
  unfold Ideal.hostScatterAdd
  congr 1
  symm
  refine Finset.sum_nbij' (fun e : Fin E => (ix2 e c : (⟨2, ![E, C]⟩ : Shape).Idx))
    (fun j : (⟨2, ![E, C]⟩ : Shape).Idx => (j 0 : Fin E)) ?_ ?_ ?_ ?_ ?_
  · intro e he
    have he' := (Finset.mem_filter.mp he).2
    exact Finset.mem_filter.mpr ⟨Finset.mem_univ _, (resultIdx?_rows wf idx e c v c).mpr ⟨he', rfl⟩⟩
  · intro j hj
    obtain ⟨a, b, rfl⟩ : ∃ a b, j = ix2 a b := ⟨j 0, j 1, eq_ix2 j⟩
    have hj' := (Finset.mem_filter.mp hj).2
    exact Finset.mem_filter.mpr ⟨Finset.mem_univ _, ((resultIdx?_rows wf idx a b v c).mp hj').1⟩
  · intro e _; rfl
  · intro j hj
    obtain ⟨a, b, rfl⟩ : ∃ a b, j = ix2 a b := ⟨j 0, j 1, eq_ix2 j⟩
    have hj' := (Finset.mem_filter.mp hj).2
    obtain rfl : b = c := ((resultIdx?_rows wf idx a b v c).mp hj').2
    rfl
  · intro e _; rfl

end Scatter

/-! ## The same scatter into a flat operand: one update element per scatter index -/

section ScatterVec

/-- The dimension numbers of a segment sum of a flat `upd : [E]` into `x : [N]` at scatter indices `[E, 1]`: no
    window axes; their conditions `wf` are decided on a program's literal shapes. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update `e` starts at `idx[e, 0]`, read signed … -/
theorem scatterVec_start (idx : IVec ⟨2, ![E, 1]⟩ w) (e : Fin E) :
    (scatterVecDims N E wf).start (ix1 e) idx 0 = (idx (ix2 e (0 : Fin 1))).toInt := by
  unfold ScatterDims.start
  rw [dif_pos (show (0 : Fin 1) ∈ (scatterVecDims N E wf).scatterDimsToOperandDims from List.mem_singleton.mpr rfl)]
  have hsi : (scatterVecDims N E wf).siIdx (ix1 e) ⟨List.idxOf (0 : Fin 1) (scatterVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and its one axis is inserted: the window coordinate is 0. -/
theorem scatterVec_window (e : Fin E) : (scatterVecDims N E wf).window (ix1 e) 0 = 0 := by
  unfold ScatterDims.window
  rw [dif_neg (by simp [ScatterDims.sKept, Shape.kept])]

/-- WHERE AN UPDATE LANDS: update `e` lands on operand element `v` exactly when `lands idx e v`. -/
theorem resultIdx?_vec (idx : IVec ⟨2, ![E, 1]⟩ w) (e : Fin E) (v : Fin N) :
    (scatterVecDims N E wf).resultIdx? (ix1 e) idx = some (ix1 v) ↔ lands idx e v := by
  have h0 := scatterVec_start wf idx e
  have w0 := scatterVec_window wf e
  have hv := v.isLt
  unfold lands
  unfold ScatterDims.resultIdx?
  split
  · rename_i h
    rw [Option.some.injEq]
    constructor
    · intro hf
      have e0 := congrArg (fun f => (f 0).val) hf
      simp only [h0, w0] at e0
      have p0 := (h 0).1
      rw [h0, w0] at p0
      change ((idx (ix2 e (0 : Fin 1))).toInt + ((0 : Nat) : Int)).toNat = v.val at e0
      omega
    · intro hl
      funext a
      obtain rfl : a = 0 := Subsingleton.elim _ _
      refine Fin.ext ?_
      show ((scatterVecDims N E wf).start (ix1 e) idx 0 + ((scatterVecDims N E wf).window (ix1 e) 0 : Nat)).toNat = v.val
      rw [h0, w0, hl]; simp
  · rename_i h
    constructor
    · intro hf; exact absurd hf (by simp)
    · intro hl
      exfalso; apply h
      intro a
      obtain rfl : a = 0 := Subsingleton.elim _ _
      show 0 ≤ (scatterVecDims N E wf).start (ix1 e) idx 0 + ((scatterVecDims N E wf).window (ix1 e) 0 : Nat) ∧
        (scatterVecDims N E wf).start (ix1 e) idx 0 + ((scatterVecDims N E wf).window (ix1 e) 0 : Nat) < (N : Int)
      rw [h0, w0, hl]; constructor <;> omega

/-- THE FLAT SCATTER-ADD READ AT `v`, at the ideal instance: the operand's element plus the sum of the updates that
    land on `v`. -/
theorem scatterAdd_vec_apply {φ : FTy} (x : FVec Ideal ⟨1, ![N]⟩ φ) (idx : IVec ⟨2, ![E, 1]⟩ w)
    (upd : FVec Ideal ⟨1, ![E]⟩ φ) (v : Fin N) :
    Host.scatterAdd (F := Ideal) (scatterVecDims N E wf) x idx upd (ix1 v) =
      x (ix1 v) + ∑ e ∈ Finset.univ.filter (fun e : Fin E => lands idx e v), upd (ix1 e) := by
  show Ideal.hostScatterAdd (scatterVecDims N E wf) x idx upd (ix1 v) = _
  unfold Ideal.hostScatterAdd
  congr 1
  symm
  refine Finset.sum_nbij' (fun e : Fin E => (ix1 e : (⟨1, ![E]⟩ : Shape).Idx))
    (fun j : (⟨1, ![E]⟩ : Shape).Idx => (j 0 : Fin E)) ?_ ?_ ?_ ?_ ?_
  · intro e he
    have he' := (Finset.mem_filter.mp he).2
    exact Finset.mem_filter.mpr ⟨Finset.mem_univ _, (resultIdx?_vec wf idx e v).mpr he'⟩
  · intro j hj
    obtain ⟨a, rfl⟩ : ∃ a, j = ix1 a := ⟨j 0, eq_ix1 j⟩
    have hj' := (Finset.mem_filter.mp hj).2
    exact Finset.mem_filter.mpr ⟨Finset.mem_univ _, (resultIdx?_vec wf idx a v).mp hj'⟩
  · intro e _; rfl
  · intro j _
    obtain ⟨a, rfl⟩ : ∃ a, j = ix1 a := ⟨j 0, eq_ix1 j⟩
    rfl
  · intro e _; rfl

end ScatterVec

end Idealize.ShloMosaic.RowOps

end
-- ==== Proof.LibGcnSpec.lean ====
/-
  One normalised graph-convolution layer, entry by entry on the extended reals, in the two arrangements that are
  to be compared.

  With `xw = x · W` the transformed features, `dinv` the nodes' normalisers and an edge list given as a column of
  source rows and a column of destination rows, the layer's output at node `v`, feature `c` is

      Σ over the edges e that land on v of  xw (row read by e, c) · (dinv (source of e) · dinv (destination of e))  +  b c.

  One arrangement scales every edge's contribution by both normalisers before summing (`layerRef`). The other scales
  the ROWS of `xw` by `dinv` once (`scaledProduct`), sums the gathered rows unscaled (`aggregate`), and scales the
  row of sums by the destination's normaliser afterwards (`scaleBias`, or `scaleBiasRelu` when a rectifier follows).
  The definitions are generic in the sizes; the indices are built from coordinates by `ix1` / `ix2`.
-/
import Idealize.ShloMosaic.PureOps.Ideal
import Idealize.ShloMosaic.Lib.ValueIdx
import proofs.«139092_j81415400063394_1_alg».proof.Proof.LibRowGatherScatter

noncomputable section

open scoped BigOperators

namespace Cert.Gcn

open Idealize.ShloMosaic Idealize.ShloMosaic.ValueIdx Idealize.ShloMosaic.RowOps

/-- An `[n, c]` matrix, a vector of `n` entries, of extended reals; a column of `e` 32-bit row indices. -/
abbrev Mat (n c : Nat) : Type := FVec Ideal ⟨2, ![n, c]⟩ .f32
abbrev Vect (n : Nat) : Type := FVec Ideal ⟨1, ![n]⟩ .f32
abbrev Col (e : Nat) : Type := IVec ⟨2, ![e, 1]⟩ 32

/-- The matrix product: entry `(r, c)` is `Σ_k x (r, k) · w (k, c)`. -/
def product {n K C : Nat} (x : Mat n K) (w : Mat K C) : Mat n C :=
  fun i => ∑ k : Fin K, x (ix2 (i 0) k) * w (ix2 k (i 1))

/-- The product with every row `r` scaled by the column entry `s (r, 0)`. -/
def scaledProduct {n K C : Nat} (x : Mat n K) (w : Mat K C) (s : Mat n 1) : Mat n C :=
  fun i => product x w i * s (ix2 (i 0) (0 : Fin 1))

/-- Row `r` of `a` scaled by `s (r, 0)`, plus the bias row `b (0, ·)`. -/
def scaleBias {n C : Nat} (a : Mat n C) (s : Mat n 1) (b : Mat 1 C) : Mat n C :=
  fun i => a i * s (ix2 (i 0) (0 : Fin 1)) + b (ix2 (0 : Fin 1) (i 1))

/-- The same followed by the rectifier `max · 0`. -/
def scaleBiasRelu {n C : Nat} (a : Mat n C) (s : Mat n 1) (b : Mat 1 C) : Mat n C :=
  fun i => max (scaleBias a s b i) 0

/-- The rows of `h` read at the source column, summed onto the rows the destination column names: entry `(v, c)` is
    the sum over the edges that land on `v` of `h (row read by the edge, c)`. -/
def aggregate {N E C : Nat} (hN : 0 < N) (src dst : Col E) (h : Mat N C) : Mat N C :=
  fun i => ∑ e ∈ Finset.univ.filter (fun e : Fin E => lands dst e (i 0)), h (ix2 (pickRow hN src e) (i 1))

/-- The layer with every edge scaled by its two normalisers before the sum; `dstn` is the destination column as
    the gather of normalisers reads it. -/
def layerRef {N E C : Nat} (hN : 0 < N) (src dst dstn : Col E) (dinv : Vect N) (xw : Mat N C) (b : Vect C) : Mat N C :=
  fun i => (∑ e ∈ Finset.univ.filter (fun e : Fin E => lands dst e (i 0)),
      xw (ix2 (pickRow hN src e) (i 1)) * (dinv (ix1 (pickRow hN src e)) * dinv (ix1 (pickRow hN dstn e))))
    + b (ix1 (i 1))

/-! ## The definitions at coordinates -/

theorem product_apply {n K C : Nat} (x : Mat n K) (w : Mat K C) (r : Fin n) (c : Fin C) :
    product x w (ix2 r c) = ∑ k : Fin K, x (ix2 r k) * w (ix2 k c) := rfl

theorem scaledProduct_apply {n K C : Nat} (x : Mat n K) (w : Mat K C) (s : Mat n 1) (r : Fin n) (c : Fin C) :
    scaledProduct x w s (ix2 r c) = (∑ k : Fin K, x (ix2 r k) * w (ix2 k c)) * s (ix2 r (0 : Fin 1)) := rfl

theorem scaleBias_apply {n C : Nat} (a : Mat n C) (s : Mat n 1) (b : Mat 1 C) (r : Fin n) (c : Fin C) :
    scaleBias a s b (ix2 r c) = a (ix2 r c) * s (ix2 r (0 : Fin 1)) + b (ix2 (0 : Fin 1) c) := rfl

theorem scaleBiasRelu_apply {n C : Nat} (a : Mat n C) (s : Mat n 1) (b : Mat 1 C) (r : Fin n) (c : Fin C) :
    scaleBiasRelu a s b (ix2 r c) = max (a (ix2 r c) * s (ix2 r (0 : Fin 1)) + b (ix2 (0 : Fin 1) c)) 0 := rfl

theorem aggregate_apply {N E C : Nat} (hN : 0 < N) (src dst : Col E) (h : Mat N C) (v : Fin N) (c : Fin C) :
    aggregate hN src dst h (ix2 v c)
      = ∑ e ∈ Finset.univ.filter (fun e : Fin E => lands dst e v), h (ix2 (pickRow hN src e) c) := rfl

theorem layerRef_apply {N E C : Nat} (hN : 0 < N) (src dst dstn : Col E) (dinv : Vect N) (xw : Mat N C) (b : Vect C)
    (v : Fin N) (c : Fin C) :
    layerRef hN src dst dstn dinv xw b (ix2 v c)
      = (∑ e ∈ Finset.univ.filter (fun e : Fin E => lands dst e v),
          xw (ix2 (pickRow hN src e) c) * (dinv (ix1 (pickRow hN src e)) * dinv (ix1 (pickRow hN dstn e))))
        + b (ix1 c) := rfl

end Cert.Gcn

end
-- ==== Proof.LibGraphAggregate.lean ====
/-
  A weighted neighbourhood sum read at an entry.

  A graph layer aggregates the rows of a feature matrix `h : [N, C]` along edges: edge `e` reads the row its source
  index names, scales it by the edge's weight `wt e`, and adds it onto the row its destination index names, all
  destinations starting from zero. As host operations this is a row gather at a column of source indices, a product
  with the weights sent to a column `[E] → [E, 1]` and then across the `C` columns, and a row scatter-add into the
  zero matrix at a column of destination indices. Read at `(v, c)` on the extended reals it is

      Σ over the edges e that land on v of  h (row read by e, c) · wt e,

  the same formula at every width `C`: column `c` of the aggregate depends on column `c` of `h` alone. The dimension
  records are the literal ones of the row gather and row scatter, over any proof of their conditions.
-/
import Idealize.ShloMosaic.PureOps.Ideal.Laws
import Idealize.ShloMosaic.Lib.ValueIdx
import Idealize.ShloMosaic.Lib.Pipeline.Value
import proofs.«139092_j81415400063394_1_alg».proof.Proof.LibRowGatherScatter

noncomputable section

open scoped BigOperators

namespace Idealize.ShloMosaic.RowOps

open Idealize.ShloMosaic Idealize.ShloMosaic.ValueIdx

/-- A vector of `E` entries sent to a column `[E, 1]` and then across `C` columns holds entry `e` all along row `e`. -/
theorem weightColumns_apply {α : Type} {E C : Nat} (hE : E ≠ 1)
    (b1 : (⟨1, ![E]⟩ : Shape).BroadcastsInDim ⟨2, ![E, 1]⟩ ![0])
    (b2 : (⟨2, ![E, 1]⟩ : Shape).BroadcastsInDim ⟨2, ![E, C]⟩ ![0, 1])
    (wt : (⟨1, ![E]⟩ : Shape).Idx → α) (e : Fin E) (c : Fin C) :
    broadcastInDim ⟨2, ![E, C]⟩ ![0, 1] b2 (broadcastInDim ⟨2, ![E, 1]⟩ ![0] b1 wt) (ix2 e c) = wt (ix1 e) := by
  rw [broadcastInDim_apply _ b2 _ (ix2 e c) (ix2 e (0 : Fin 1)) (fun a => by
        match a with
        | ⟨0, _⟩ => show e.val = if E = 1 then 0 else e.val; rw [if_neg hE]
        | ⟨1, _⟩ => show 0 = if (1 : Nat) = 1 then 0 else c.val; rw [if_pos rfl]),
    broadcastInDim_apply _ b1 _ (ix2 e (0 : Fin 1)) (ix1 e) (fun a => by
        match a with
        | ⟨0, _⟩ => show e.val = if E = 1 then 0 else e.val; rw [if_neg hE])]

/-- The f32 zero pattern sent to every entry of a matrix is the number zero at every entry. -/
theorem zeroMatrix_apply {N C : Nat}
    (bz : (⟨0, ![]⟩ : Shape).BroadcastsInDim ⟨2, ![N, C]⟩ ![]) (i : (⟨2, ![N, C]⟩ : Shape).Idx) :
    broadcastInDim ⟨2, ![N, C]⟩ ![] bz (constant (F := Ideal) ⟨0, ![]⟩ .f32 0x00000000#32) i = (0 : EReal) := by
  rw [broadcastInDim_apply _ bz _ i (fun a => a.elim0) (fun a => a.elim0)]
  show Ideal.ofBits .f32 0x00000000#32 = 0
  exact Ideal.ofBits_zero_f32

/-- THE AGGREGATE READ AT `(v, c)`: the sum, over the edges whose destination index is `v`, of entry `c` of the
    row the edge's source index reads, times the edge's weight. -/
theorem aggregate_apply {N E C w : Nat} (hN : 0 < N) (hE : E ≠ 1)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (bz : (⟨0, ![]⟩ : Shape).BroadcastsInDim ⟨2, ![N, C]⟩ ![])
    (b1 : (⟨1, ![E]⟩ : Shape).BroadcastsInDim ⟨2, ![E, 1]⟩ ![0])
    (b2 : (⟨2, ![E, 1]⟩ : Shape).BroadcastsInDim ⟨2, ![E, C]⟩ ![0, 1])
    (src dst : IVec ⟨2, ![E, 1]⟩ w) (wt : FVec Ideal ⟨1, ![E]⟩ .f32) (h : FVec Ideal ⟨2, ![N, C]⟩ .f32)
    (v : Fin N) (c : Fin C) :
    Host.scatterAdd (F := Ideal) (scatterRowsDims N E C wfs)
        (broadcastInDim ⟨2, ![N, C]⟩ ![] bz (constant (F := Ideal) ⟨0, ![]⟩ .f32 0x00000000#32)) dst
        (mulf (Host.gather (gatherRowsDims N E C wfg) h src)
          (broadcastInDim ⟨2, ![E, C]⟩ ![0, 1] b2 (broadcastInDim ⟨2, ![E, 1]⟩ ![0] b1 wt))) (ix2 v c)
      = ∑ e ∈ Finset.univ.filter (fun e : Fin E => lands dst e v), h (ix2 (pickRow hN src e) c) * wt (ix1 e) := by
  rw [scatterAdd_rows_apply wfs, zeroMatrix_apply, zero_add]
  refine Finset.sum_congr rfl fun e _ => ?_
  show FloatOps.mulf (Host.gather (gatherRowsDims N E C wfg) h src (ix2 e c))
      (broadcastInDim ⟨2, ![E, C]⟩ ![0, 1] b2 (broadcastInDim ⟨2, ![E, 1]⟩ ![0] b1 wt) (ix2 e c)) = _
  rw [gather_rows_apply hN wfg, weightColumns_apply hE b1 b2, Ideal.mulf_def]

end Idealize.ShloMosaic.RowOps

end
-- ==== Proof.LibVecBcast.lean ====
/-
  A vector laid along the rows or down the columns of a matrix by two host broadcasts.

  jnp adds a bias vector [d] to an [n, d] matrix by sending it to [1, d] and then to [n, d] (two broadcast_in_dim, the
  first naming axis 1, the second both axes); a per-row vector [n] written v[:, None] goes to [n, 1] (naming axis 0) and
  then to [n, d].  Read at (p, q) the first is the vector's entry q, the second its entry p.
-/
import Idealize.ShloMosaic.Lib.ValueIdx
import Idealize.ShloMosaic.Lib.Pipeline.Value

noncomputable section

namespace Cert.VecBcast

open Idealize.ShloMosaic Idealize.ShloMosaic.ValueIdx

variable {α : Type} {n d : ℕ}

/-- A vector [d] sent to [1, d] and then to [n, d] reads, at (p, q), its entry q. -/
theorem rowVec_bcast_apply (h1 : (⟨1, ![d]⟩ : Shape).BroadcastsInDim ⟨2, ![1, d]⟩ ![1])
    (h2 : (⟨2, ![1, d]⟩ : Shape).BroadcastsInDim ⟨2, ![n, d]⟩ ![0, 1]) (b : (⟨1, ![d]⟩ : Shape).Idx → α) (p : Fin n) (q : Fin d) :
    broadcastInDim ⟨2, ![n, d]⟩ ![0, 1] h2 (broadcastInDim ⟨2, ![1, d]⟩ ![1] h1 b) (ix2 p q) = b (ix1 q) := by
  have hq : q.val = if d = 1 then 0 else q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq)]
  exact broadcastInDim_apply ![1] h1 b (ix2 (0 : Fin 1) q) (ix1 q) (fun a => by
    match a with
    | ⟨0, _⟩ => exact hq)

/-- A per-row vector [n] sent to [n, 1] and then to [n, d] reads, at (p, q), its entry p. -/
theorem colVec_bcast_apply (h1 : (⟨1, ![n]⟩ : Shape).BroadcastsInDim ⟨2, ![n, 1]⟩ ![0])
    (h2 : (⟨2, ![n, 1]⟩ : Shape).BroadcastsInDim ⟨2, ![n, d]⟩ ![0, 1]) (v : (⟨1, ![n]⟩ : Shape).Idx → α) (p : Fin n) (q : Fin d) :
    broadcastInDim ⟨2, ![n, d]⟩ ![0, 1] h2 (broadcastInDim ⟨2, ![n, 1]⟩ ![0] h1 v) (ix2 p q) = v (ix1 p) := by
  have hp : p.val = if n = 1 then 0 else p.val := by
    split
    · have := p.isLt; omega
    · rfl
  rw [broadcastInDim_apply ![0, 1] h2 _ (ix2 p q) (ix2 p (0 : Fin 1)) (fun a => by
    match a with
    | ⟨0, _⟩ => exact hp
    | ⟨1, _⟩ => rfl)]
  exact broadcastInDim_apply ![0] h1 v (ix2 p (0 : Fin 1)) (ix1 p) (fun a => by
    match a with
    | ⟨0, _⟩ => exact hp)

end Cert.VecBcast

end
-- ==== Proof.LibGcnHostLayer.lean ====
/-
  One graph-convolution layer as the host computes it, read at an entry.

  The host forms the per-edge weight as the product of two gathers of the normaliser vector (at the source column
  and at the wrapped destination column), sends it across the feature columns, multiplies the gathered feature rows
  by it, scatter-adds the products into a zero matrix at the destination column, and adds the bias vector laid along
  the rows. Read at node `v`, feature `c` on the extended reals this is the specification's layer formula: the sum
  over the edges landing on `v` of the source row's entry times the two normalisers, plus the bias entry. The
  statement is generic in the sizes; the dimension records are the literal ones over any proof of their conditions.
-/
import proofs.«139092_j81415400063394_1_alg».proof.Proof.LibGcnSpec
import proofs.«139092_j81415400063394_1_alg».proof.Proof.LibGraphAggregate
import proofs.«139092_j81415400063394_1_alg».proof.Proof.LibVecBcast
import Idealize.ShloMosaic.Lib.ValueIdx
import Idealize.ShloMosaic.Lib.Pipeline.Value
import Idealize.ShloMosaic.PureOps.Ideal.Laws

noncomputable section

open scoped BigOperators

namespace Cert.Gcn

open Idealize.ShloMosaic Idealize.ShloMosaic.ValueIdx Idealize.ShloMosaic.RowOps

/-- THE HOST'S LAYER READ AT `(v, c)`: scatter-add, into zeros at `dst`, of the rows of `xw` gathered at `src` times
    the edge weights `dinv[src] · dinv[dstn]`, plus the bias along the rows, is `layerRef`. -/
theorem layer_form {N E C : Nat} (hN : 0 < N) (hE : E ≠ 1)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (wfv : GatherDims.WF ⟨1, ![N]⟩ ⟨2, ![E, 1]⟩ ⟨1, ![E]⟩ [] [0] [] [0] [] 1 ![1])
    (bz : (⟨0, ![]⟩ : Shape).BroadcastsInDim ⟨2, ![N, C]⟩ ![])
    (b1 : (⟨1, ![E]⟩ : Shape).BroadcastsInDim ⟨2, ![E, 1]⟩ ![0])
    (b2 : (⟨2, ![E, 1]⟩ : Shape).BroadcastsInDim ⟨2, ![E, C]⟩ ![0, 1])
    (c1 : (⟨1, ![C]⟩ : Shape).BroadcastsInDim ⟨2, ![1, C]⟩ ![1])
    (c2 : (⟨2, ![1, C]⟩ : Shape).BroadcastsInDim ⟨2, ![N, C]⟩ ![0, 1])
    (src dst dstn : Col E) (dinv : Vect N) (xw : Mat N C) (b : Vect C)
    (v : Fin N) (c : Fin C) :
    addf (Host.scatterAdd (F := Ideal) (scatterRowsDims N E C wfs)
          (broadcastInDim ⟨2, ![N, C]⟩ ![] bz (constant (F := Ideal) ⟨0, ![]⟩ .f32 0x00000000#32)) dst
          (mulf (Host.gather (gatherRowsDims N E C wfg) xw src)
            (broadcastInDim ⟨2, ![E, C]⟩ ![0, 1] b2 (broadcastInDim ⟨2, ![E, 1]⟩ ![0] b1
              (mulf (Host.gather (gatherVecDims N E wfv) dinv src) (Host.gather (gatherVecDims N E wfv) dinv dstn))))))
        (broadcastInDim ⟨2, ![N, C]⟩ ![0, 1] c2 (broadcastInDim ⟨2, ![1, C]⟩ ![1] c1 b)) (ix2 v c)
      = layerRef hN src dst dstn dinv xw b (ix2 v c) := by
  rw [addf_apply, Idealize.ShloMosaic.RowOps.aggregate_apply hN hE wfg wfs bz b1 b2, Cert.VecBcast.rowVec_bcast_apply c1 c2,
    layerRef_apply]
  refine congrArg (· + b (ix1 c)) (Finset.sum_congr rfl fun e _ => ?_)
  rw [mulf_apply, gather_vec_apply hN wfv, gather_vec_apply hN wfv]

end Cert.Gcn

end
-- ==== Proof.LibGcnLayer.lean ====
/-
  The algebra of one graph-convolution layer on the extended reals.

  A layer sends node features `X` to `out v c = ∑_{e into v} (∑_k X (g e) k · W k c) · (s e · t)`: every edge `e` into node `v`
  carries the transformed features of its source `g e`, scaled by the source's normaliser `s e` and the target's `t`.
  Because the transform is linear, the same number is obtained by aggregating first and transforming afterwards:
  `∑_k ((∑_{e into v} X (g e) k · s e) · t) · W k c`. On the extended reals this exchange of two finite sums and the
  distribution of the products over them hold when every entry is a real number (at an infinity `(a + b) · c` need not be
  `a · c + b · c`), so the law is stated for entries that are real, and proved by moving the whole expression into `ℝ`.
-/
import Idealize.ShloMosaic.PureOps.Ideal

open scoped BigOperators

namespace Cert.GcnLaw

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- THE LAYER LAW: aggregating the scaled source features over the edges into a node and then applying the linear
    transform equals transforming each source's features and then aggregating with the edge weights `s e · t`,
    when all entries are real. `S` is the set of edges into the node, `a e k` the source features of edge `e`,
    `s e` the source's normaliser, `t` the node's own, `W k` one column of the transform. -/
theorem layer_law {E K : Type*} [Fintype K] (S : Finset E) (a : E → K → EReal) (s : E → EReal) (t : EReal)
    (W : K → EReal) (ha : ∀ e k, IsReal (a e k)) (hs : ∀ e, IsReal (s e)) (ht : IsReal t) (hW : ∀ k, IsReal (W k)) :
    ∑ k, ((∑ e ∈ S, a e k * s e) * t) * W k = ∑ e ∈ S, (∑ k, a e k * W k) * (s e * t) := by
  choose a' ha' using ha
  choose s' hs' using hs
  obtain ⟨t', rfl⟩ := ht
  choose W' hW' using hW
  have hL : ∑ k, ((∑ e ∈ S, a e k * s e) * (t' : EReal)) * W k
      = ((∑ k, ((∑ e ∈ S, a' e k * s' e) * t') * W' k : ℝ) : EReal) := by
    rw [coe_sum]
    refine Finset.sum_congr rfl fun k _ => ?_
    rw [EReal.coe_mul, EReal.coe_mul, coe_sum, hW' k]
    congr 2
    refine Finset.sum_congr rfl fun e _ => ?_
    rw [EReal.coe_mul, ha' e k, hs' e]
  have hR : ∑ e ∈ S, (∑ k, a e k * W k) * (s e * (t' : EReal))
      = ((∑ e ∈ S, (∑ k, a' e k * W' k) * (s' e * t') : ℝ) : EReal) := by
    rw [coe_sum]
    refine Finset.sum_congr rfl fun e _ => ?_
    rw [EReal.coe_mul, EReal.coe_mul, coe_sum, hs' e]
    congr 1
    refine Finset.sum_congr rfl fun k _ => ?_
    rw [EReal.coe_mul, ha' e k, hW' k]
  rw [hL, hR]
  congr 1
  simp only [Finset.sum_mul, Finset.mul_sum]
  rw [Finset.sum_comm]
  refine Finset.sum_congr rfl fun e _ => Finset.sum_congr rfl fun k _ => ?_
  ring

end Cert.GcnLaw
-- ==== Proof.LibRealSums.lean ====
/-
  Finite sums of real numbers inside the extended reals, and the few float constants a mean over 64 rows and a
  batch-norm scale spell.

  On the extended reals multiplication does not distribute over a sum that mixes `⊤` and `⊥`; on real numbers it
  does. So a sum of products of real numbers, scaled by a real number, is the sum of the products with the scale moved
  inside each term:  (Σ_k x_k · w_k) · v = Σ_k x_k · (w_k · v).  A sum over `a + b` consecutive terms is the sum of its
  two stretches (associativity only, no finiteness). A quotient by the real 64 is the product with 1/64. For a real
  `s ≥ 0` and the f32 constant `ε = 0x3727C5AC > 0`, `γ · rsqrt (s + ε)` is a real number when `γ` is.
-/
import Mathlib.Algebra.BigOperators.Fin
import Idealize.ShloMosaic.PureOps.Ideal

noncomputable section

namespace Cert.LibRealSums

open Idealize.ShloMosaic

/-- An extended real that is a real number. -/
def IsReal (x : EReal) : Prop := ∃ r : ℝ, x = (r : EReal)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, times a real, is the sum with the factor moved inside each product. -/
theorem sum_mul_real {n : ℕ} (x w : Fin n → EReal) (v : EReal) (hx : ∀ k, IsReal (x k)) (hw : ∀ k, IsReal (w k))
    (hv : IsReal v) : (∑ k, x k * w k) * v = ∑ k, x k * (w k * v) := by
  choose xr hxr using hx
  choose wr hwr using hw
  obtain ⟨vr, rfl⟩ := hv
  simp only [hxr, hwr, ← EReal.coe_mul, ← coe_sum]
  congr 1
  rw [Finset.sum_mul]
  exact Finset.sum_congr rfl fun k _ => mul_assoc _ _ _

/-- A sum of products of reals is a real. -/
theorem isReal_sum_mul {n : ℕ} (x w : Fin n → EReal) (hx : ∀ k, IsReal (x k)) (hw : ∀ k, IsReal (w k)) :
    IsReal (∑ k, x k * w k) := by
  choose xr hxr using hx
  choose wr hwr using hw
  refine ⟨∑ k, xr k * wr k, ?_⟩
  simp only [hxr, hwr, ← EReal.coe_mul, ← coe_sum]

/-- On real numbers multiplication distributes over a sum of two. -/
theorem add_mul_real (a b v : EReal) (ha : IsReal a) (hb : IsReal b) (hv : IsReal v) : (a + b) * v = a * v + b * v := by
  obtain ⟨ar, rfl⟩ := ha
  obtain ⟨br, rfl⟩ := hb
  obtain ⟨vr, rfl⟩ := hv
  rw [← EReal.coe_add, ← EReal.coe_mul, ← EReal.coe_mul, ← EReal.coe_mul, ← EReal.coe_add, add_mul]

/-- The sum of two reals is a real. -/
theorem isReal_add (a b : EReal) (ha : IsReal a) (hb : IsReal b) : IsReal (a + b) := by
  obtain ⟨ar, rfl⟩ := ha
  obtain ⟨br, rfl⟩ := hb
  exact ⟨ar + br, (EReal.coe_add ar br).symm⟩

/-- `∑ k < a + b, f k = ∑ k < a, f k + ∑ k < b, f (a + k)`. -/
theorem sum_two {M : Type*} [AddCommMonoid M] (a b n : ℕ) (h : n = a + b) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- The f32 pattern of `+0.0` is the real zero. -/
theorem ofBits_zero : Ideal.ofBits .f32 0x00000000#32 = (0 : EReal) := by
  simp [Ideal.ofBits, Ideal.ieee]

/-- The f32 pattern `0x42800000` is the real 64. -/
theorem ofBits_64 : Ideal.ofBits .f32 0x42800000#32 = ((64 : ℝ) : EReal) := by
  simp [Ideal.ofBits, Ideal.ieee, -EReal.coe_mul]; norm_num

/-- The f32 pattern `0x3C800000` is the real 1/64. -/
theorem ofBits_inv64 : Ideal.ofBits .f32 0x3C800000#32 = ((1 / 64 : ℝ) : EReal) := by
  simp [Ideal.ofBits, Ideal.ieee, -EReal.coe_mul]; norm_num

/-- A quotient by the f32 constant 64 is the product with the f32 constant 1/64. -/
theorem div_64 (x : EReal) :
    Ideal.div x (Ideal.ofBits .f32 0x42800000#32) = x * Ideal.ofBits .f32 0x3C800000#32 := by
  rw [ofBits_64, ofBits_inv64]
  exact Ideal.div_coe (by norm_num) x

/-- The f32 pattern `0x3727C5AC` (the batch-norm ε) is a positive real. -/
theorem eps_pos : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

/-- For real `γ`, real `s ≥ 0` and the constant ε, `γ · rsqrt (s + ε)` is a real number. -/
theorem scale_isReal (g s : EReal) (hg : IsReal g) (hs : ∃ r : ℝ, 0 ≤ r ∧ s = (r : EReal)) :
    IsReal (g * Ideal.rsqrt (s + Ideal.ofBits .f32 0x3727C5AC#32)) := by
  obtain ⟨gr, rfl⟩ := hg
  obtain ⟨sr, hs0, rfl⟩ := hs
  obtain ⟨e, he, hE⟩ := eps_pos
  rw [hE, ← EReal.coe_add, Ideal.rsqrt_coe, if_neg (by linarith), if_neg (by linarith), ← EReal.coe_mul]
  exact ⟨_, rfl⟩

end Cert.LibRealSums

end
-- ==== Proof.LibRealArrays.lean ====
/-
  Real numbers among the extended reals, and the few facts about them that a normalised graph convolution needs.

  An extended real is REAL when it is the image of a real number. Sums, products, maxima of reals are real; the
  reciprocal square root of a positive real is real, and so is the guarded deg^(-1/2) — "rsqrt(deg) where deg > 0,
  else 0" — whatever deg is, because rsqrt(+∞) = 0. The float words 0, 100000 and the batch-norm ε denote the reals
  0, 100000 and a positive real. A host sum down the rows of an [a, b] matrix reads, at column q, the initial
  value plus the sum over the rows of the entries (p, q).
-/
import Idealize.ShloMosaic.PureOps.Ideal
import Idealize.ShloMosaic.PureOps.Ideal.Laws
import Idealize.ShloMosaic.Lib.ValueIdx
import Idealize.ShloMosaic.Lib.Pipeline.Value
import proofs.«139092_j81415400063394_1_alg».proof.Proof.LibGcnLayer
import proofs.«139092_j81415400063394_1_alg».proof.Proof.LibRealSums

noncomputable section

open scoped BigOperators

namespace Cert.Gnn

open Idealize.ShloMosaic Idealize.ShloMosaic.ValueIdx Cert.GcnLaw

/-- The reciprocal square root of a positive real is the real 1/√r. -/
theorem rsqrt_pos {r : ℝ} (hr : 0 < r) : Ideal.rsqrt (r : EReal) = (((Real.sqrt r)⁻¹ : ℝ) : EReal) := by
  rw [Ideal.rsqrt_coe, if_neg (by linarith), if_neg (by linarith)]

theorem isReal_rsqrt_pos {r : ℝ} (hr : 0 < r) : IsReal (Ideal.rsqrt (r : EReal)) := ⟨_, rsqrt_pos hr⟩

/-- The f32 word of +0.0 is the real zero. -/
theorem ofBits_zero : Ideal.ofBits .f32 0x00000000#32 = (0 : EReal) := Cert.LibRealSums.ofBits_zero

/-- The f32 word 0x47C35000 is the real 100000. -/
theorem ofBits_1e5 : Ideal.ofBits .f32 0x47C35000#32 = ((100000 : ℝ) : EReal) := by
  simp [Ideal.ofBits, Ideal.ieee, -EReal.coe_mul]; norm_num

/-- A quotient by the word 100000 is the product with the real 1/100000. -/
theorem div_1e5 (x : EReal) : Ideal.div x (Ideal.ofBits .f32 0x47C35000#32) = x * ((1 / 100000 : ℝ) : EReal) := by
  rw [ofBits_1e5]; exact Ideal.div_coe (by norm_num) x

theorem isReal_div_1e5 {x : EReal} (hx : IsReal x) : IsReal (Ideal.div x (Ideal.ofBits .f32 0x47C35000#32)) := by
  rw [div_1e5]; exact hx.mul (IsReal.coe _)

/-- deg^(-1/2) guarded by deg > 0 is real for EVERY extended real deg: a positive real has a real reciprocal
    square root, +∞ has 0, and everything else takes the guard's 0. -/
theorem isReal_guarded_rsqrt (d : EReal) :
    IsReal (Scalar.select (Ideal.cmp .ogt d (Ideal.ofBits .f32 0x00000000#32)) (Ideal.rsqrt d) (Ideal.ofBits .f32 0x00000000#32)) := by
  rw [ofBits_zero]
  induction d using EReal.rec with
  | bot =>
    have : Ideal.cmp .ogt (⊥ : EReal) 0 = 0#1 := by simp [Ideal.cmp]
    rw [this, select_zero]; exact IsReal.zero
  | coe r =>
    by_cases hr : 0 < r
    · have : Ideal.cmp .ogt (r : EReal) 0 = 1#1 := by
        simp [Ideal.cmp, hr]
      rw [this, select_one]; exact isReal_rsqrt_pos hr
    · have : Ideal.cmp .ogt (r : EReal) 0 = 0#1 := by
        simp [Ideal.cmp, hr]
      rw [this, select_zero]; exact IsReal.zero
  | top =>
    have : Ideal.cmp .ogt (⊤ : EReal) 0 = 1#1 := by simp [Ideal.cmp]
    rw [this, select_one, Ideal.rsqrt_top]; exact IsReal.zero

/-- The same for whole vectors: "rsqrt(d) where d > 0, else 0", entry by entry, is real everywhere. -/
theorem isReal_guarded_select {s : Shape} (d z0 z1 : FVec Ideal s .f32) (hz0 : ∀ i, z0 i = Ideal.ofBits .f32 0x00000000#32)
    (hz1 : ∀ i, z1 i = Ideal.ofBits .f32 0x00000000#32) (i : s.Idx) :
    IsReal (select (cmpf .ogt d z0) (Host.rsqrt d) z1 i) := by
  rw [select_apply, cmpf_apply, hz0, hz1]
  exact isReal_guarded_rsqrt (d i)

theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- An array all of whose entries are real. -/
def AllReal {s : Shape} (v : s.Idx → EReal) : Prop := ∀ i, IsReal (v i)

/-- A broadcast reads its operand's entries: it is real where the operand is. -/
theorem AllReal.bcast {s t : Shape} {dims : Fin s.rank → Fin t.rank} (h : s.BroadcastsInDim t dims) {x : s.Idx → EReal}
    (hx : AllReal x) : AllReal (broadcastInDim t dims h x) := fun _ => hx _

theorem AllReal.addf {s : Shape} {a b : FVec Ideal s .f32} (ha : AllReal a) (hb : AllReal b) : AllReal (addf a b) :=
  fun i => (ha i).add (hb i)

theorem AllReal.subf {s : Shape} {a b : FVec Ideal s .f32} (ha : AllReal a) (hb : AllReal b) : AllReal (subf a b) :=
  fun i => isReal_sub (ha i) (hb i)

theorem AllReal.mulf {s : Shape} {a b : FVec Ideal s .f32} (ha : AllReal a) (hb : AllReal b) : AllReal (mulf a b) :=
  fun i => (ha i).mul (hb i)

/-- A quotient, entry by entry, by a vector that holds the word 100000 everywhere. -/
theorem AllReal.div_1e5 {s : Shape} {a c : FVec Ideal s .f32} (ha : AllReal a)
    (hc : ∀ i, c i = Ideal.ofBits .f32 0x47C35000#32) : AllReal (Host.divf a c) := fun i => by
  show IsReal (Ideal.div (a i) (c i))
  rw [hc]; exact isReal_div_1e5 (ha i)

/-- The host's sum down the rows of an [a, b] matrix, at column q. -/
theorem hostColSum_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduceAdd (F := Ideal) (φ := .f32) x init h' hu (ix1 q)
      = init (Shape.Idx.first hu) + ∑ p : Fin a, x (ix2 p q) := by
  refine (Ideal.hostReduceAdd_single h' h x (init (Shape.Idx.first hu)) (ix1 q)).trans ?_
  refine congrArg (init (Shape.Idx.first hu) + ·) (Finset.sum_congr rfl fun p _ => ?_)
  exact congrArg x (funext fun ax => Fin.ext (by match ax with | ⟨0, _⟩ => rfl | ⟨1, _⟩ => rfl))

end Cert.Gnn

end
-- ==== Proof.AggReal.lean ====
/-
  One layer's aggregation is real wherever its inputs are.

  At node v and feature c the aggregation is the sum, over the edges that land on v, of the transformed feature
  of the edge's source row times the two normalisers dinv(source) · dinv(destination), plus the bias entry c.
  Every normaliser is a guarded deg^(-1/2), hence real whatever the edge list holds; so with real features and a
  real bias every entry of the aggregation is a finite sum of products of reals plus a real.
-/
import proofs.«139092_j81415400063394_1_alg».proof.Proof.RefStages
import proofs.«139092_j81415400063394_1_alg».proof.Proof.LibGcnHostLayer
import proofs.«139092_j81415400063394_1_alg».proof.Proof.LibRealArrays

noncomputable section

open scoped BigOperators

namespace Cert.Gnn

open Idealize.ShloMosaic Idealize.ShloMosaic.ValueIdx Cert.GcnLaw Cert.ReferenceIdeal

variable [Cert.ReferenceIdeal.Facts]
open Cert.ReferenceIdeal.Facts₀

/-- Every normaliser is real. -/
theorem isReal_dinv (ei : (⟨S2x1000000, .i32⟩ : BufTy).Contents (Elt Ideal)) (i : S100000.Idx) :
    IsReal (Stage.dinv (F := Ideal) ei i) := by
  unfold Stage.dinv
  exact isReal_guarded_select _ _ _ (fun _ => rfl) (fun _ => rfl) i

/-- The aggregation at node v, feature c: the weighted sum over the edges landing on v, plus the bias. -/
theorem agg_apply (h : S100000x64.Idx → EReal) (ei : (⟨S2x1000000, .i32⟩ : BufTy).Contents (Elt Ideal))
    (b : S64.Idx → EReal) (v : Fin 100000) (c : Fin 64) :
    Stage.agg (F := Ideal) h ei b (ix2 v c)
      = Cert.Gcn.layerRef (N := 100000) (E := 1100000) (C := 64) (by decide)
          (Stage.wrap (F := Ideal) (Stage.srcv (F := Ideal) ei)) (Stage.col (F := Ideal) (Stage.dstv (F := Ideal) ei))
          (Stage.wrap (F := Ideal) (Stage.dstv (F := Ideal) ei)) (Stage.dinv (F := Ideal) ei) h b (ix2 v c) := by
  unfold Stage.agg Stage.normv Stage.alongRows
  exact Cert.Gcn.layer_form (N := 100000) (E := 1100000) (C := 64) (by decide) (by decide)
    gather_S100000x64_S1100000x1_S1100000x64_1_0_n_n_0_1_164_wf scatter_S100000x64_S1100000x1_S1100000x64_1_0_0_1_wf
    gather_S100000_S1100000x1_S1100000_n_0_n_n_0_1_1_wf bcast_S_S100000x64 bcast_S1100000_S1100000x1_0
    bcast_S1100000x1_S1100000x64_0_1 bcast_S64_S1x64_1 bcast_S1x64_S100000x64_0_1 _ _ _ _ h b v c

/-- With real features and a real bias the aggregation is real at every entry. -/
theorem isReal_agg (h : S100000x64.Idx → EReal) (ei : (⟨S2x1000000, .i32⟩ : BufTy).Contents (Elt Ideal))
    (b : S64.Idx → EReal) (hh : ∀ i, IsReal (h i)) (hb : ∀ i, IsReal (b i)) (i : S100000x64.Idx) :
    IsReal (Stage.agg (F := Ideal) h ei b i) := by
  obtain ⟨v, c, rfl⟩ : ∃ (v : Fin 100000) (c : Fin 64), i = ix2 v c := ⟨i 0, i 1, eq_ix2 i⟩
  rw [agg_apply, Cert.Gcn.layerRef_apply]
  exact (IsReal.sum _ _ fun e _ => (hh _).mul ((isReal_dinv ei _).mul (isReal_dinv ei _))).add (hb _)

end Cert.Gnn

end
-- ==== Proof.BnReal.lean ====
/-
  The batch statistics of a real matrix are real, and the variance is not negative.

  For a [100000, 64] matrix with real entries: every column sum is a finite sum of reals; the mean is that sum
  times 1/100000; the centred entries are differences of reals; the variance is the sum of their squares times
  1/(100000 − 0), real and ≥ 0 (the routine's guard "100000 − 0 > 0" holds, so its not-a-number branch is never
  taken); and (variance + ε)^(-1/2), with ε > 0, is the reciprocal square root of a positive real.
-/
import proofs.«139092_j81415400063394_1_alg».proof.Proof.RefStages
import proofs.«139092_j81415400063394_1_alg».proof.Proof.LibRealArrays

noncomputable section

open scoped BigOperators

namespace Cert.Gnn

open Idealize.ShloMosaic Idealize.ShloMosaic.ValueIdx Cert.GcnLaw Cert.ReferenceIdeal

variable [Cert.ReferenceIdeal.Facts]
open Cert.ReferenceIdeal.Facts₀

/-- A column's sum: the zero word plus the sum of the column's entries. -/
theorem colSum_apply (z : S100000x64.Idx → EReal) (q : Fin 64) :
    Stage.colSum (F := Ideal) z (ix1 q) = Ideal.ofBits .f32 0x00000000#32 + ∑ p : Fin 100000, z (ix2 p q) := by
  unfold Stage.colSum
  exact hostColSum_apply z _ reducesTo_S100000x64_S64_d0 (by decide) h_S_ q

theorem allReal_colSum (z : S100000x64.Idx → EReal) (hz : AllReal z) : AllReal (Stage.colSum (F := Ideal) z) := fun i => by
  obtain ⟨q, rfl⟩ : ∃ q : Fin 64, i = ix1 q := ⟨i 0, eq_ix1 i⟩
  rw [colSum_apply, ofBits_zero]
  exact IsReal.zero.add (IsReal.sum _ _ fun p _ => hz _)

theorem allReal_meanv (z : S100000x64.Idx → EReal) (hz : AllReal z) : AllReal (Stage.meanv (F := Ideal) z) := by
  unfold Stage.meanv
  exact (allReal_colSum z hz).div_1e5 (fun _ => rfl)

theorem allReal_centred (z : S100000x64.Idx → EReal) (hz : AllReal z) : AllReal (Stage.centred (F := Ideal) z) := by
  unfold Stage.centred
  exact AllReal.subf hz (AllReal.bcast _ (AllReal.div_1e5 (AllReal.bcast _ (allReal_colSum z hz)) (fun _ => rfl)))

/-- The number of rows less the degrees of freedom taken off is the real 100000. -/
theorem rowsLessDdof_eq (j : S_.Idx) : Stage.rowsLessDdof (F := Ideal) j = ((100000 : ℝ) : EReal) := by
  unfold Stage.rowsLessDdof
  show Ideal.ofBits .f32 0x47C35000#32 - (((0#32 : BitVec 32).toInt : ℝ) : EReal) = _
  rw [ofBits_1e5]
  simp

/-- A column's variance is a real number that is not negative. -/
theorem varv_nonneg (z : S100000x64.Idx → EReal) (hz : AllReal z) (i : S64.Idx) :
    ∃ r : ℝ, 0 ≤ r ∧ Stage.varv (F := Ideal) z i = (r : EReal) := by
  obtain ⟨q, rfl⟩ : ∃ q : Fin 64, i = ix1 q := ⟨i 0, eq_ix1 i⟩
  choose cr hcr using allReal_centred z hz
  have hcond : (broadcastInDim S64 ![] bcast_S_S64
      (cmpf (F := Ideal) .ogt (Stage.rowsLessDdof (F := Ideal)) (constant (F := Ideal) S_ .f32 0x00000000#32))) (ix1 q) = 1#1 := by
    show Ideal.cmp .ogt (Stage.rowsLessDdof (F := Ideal) _) (Ideal.ofBits .f32 0x00000000#32) = 1#1
    rw [rowsLessDdof_eq, ofBits_zero]
    simp [Ideal.cmp]
  unfold Stage.varv
  rw [select_apply, hcond, select_one]
  show ∃ r : ℝ, 0 ≤ r ∧ Ideal.div (Stage.colSum (F := Ideal)
      (mulf (F := Ideal) (Stage.centred (F := Ideal) z) (Stage.centred (F := Ideal) z)) (ix1 q)) (Stage.rowsLessDdof (F := Ideal) _) = (r : EReal)
  rw [rowsLessDdof_eq, Ideal.div_coe (by norm_num), colSum_apply, ofBits_zero, zero_add]
  have hsum : (∑ p : Fin 100000, mulf (F := Ideal) (φ := .f32) (Stage.centred (F := Ideal) z) (Stage.centred (F := Ideal) z) (ix2 p q))
      = ((∑ p : Fin 100000, cr (ix2 p q) * cr (ix2 p q) : ℝ) : EReal) := by
    rw [coe_sum]
    refine Finset.sum_congr rfl fun p _ => ?_
    rw [mulf_apply, hcr, EReal.coe_mul]
  rw [hsum, ← EReal.coe_mul]
  refine ⟨_, ?_, rfl⟩
  exact mul_nonneg (Finset.sum_nonneg fun p _ => mul_self_nonneg _) (by norm_num)

/-- (variance + ε)^(-1/2) is real. -/
theorem allReal_invStd (z : S100000x64.Idx → EReal) (hz : AllReal z) : AllReal (Stage.invStd (F := Ideal) z) := fun i => by
  obtain ⟨r, hr0, hr⟩ := varv_nonneg z hz i
  obtain ⟨e, he, hE⟩ := Cert.LibRealSums.eps_pos
  unfold Stage.invStd
  show IsReal (Ideal.rsqrt (Stage.varv (F := Ideal) z i + Ideal.ofBits .f32 0x3727C5AC#32))
  rw [hr, hE, ← EReal.coe_add]
  exact isReal_rsqrt_pos (by linarith)

end Cert.Gnn

end
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.LibBnFold.lean ====
/-
  Batch normalisation in two arrangements, entry by entry, for any number of rows n and of feature columns d.

  With a column's mean m, its reciprocal standard deviation r, the learnt scale γ and shift β, the normalised and
  rectified entry is max(((z − m) · r) · γ + β, 0). Folding the statistics first into one scale s = γ · r and one
  shift t = β − m · s gives max(z · s + t, 0). On real numbers these agree (distribute s over z − m); on the
  extended reals the step needs every quantity real, which is why it is stated under that hypothesis.
-/
import proofs.«139092_j81415400063394_1_alg».proof.Proof.LibRealArrays
import proofs.«139092_j81415400063394_1_alg».proof.Proof.LibVecBcast
import proofs.«139092_j81415400063394_1_alg».proof.Proof.LibRowVector

noncomputable section

namespace Cert.Gnn

open Idealize.ShloMosaic Idealize.ShloMosaic.ValueIdx Cert.GcnLaw

/-- The two arrangements agree on real numbers. -/
theorem bn_law {a m r g b : EReal} (ha : IsReal a) (hm : IsReal m) (hr : IsReal r) (hg : IsReal g) (hb : IsReal b) :
    a * (g * r) + (b - m * (g * r)) = ((a - m) * r) * g + b := by
  obtain ⟨a, rfl⟩ := ha
  obtain ⟨m, rfl⟩ := hm
  obtain ⟨r, rfl⟩ := hr
  obtain ⟨g, rfl⟩ := hg
  obtain ⟨b, rfl⟩ := hb
  have h : a * (g * r) + (b - m * (g * r)) = ((a - m) * r) * g + b := by ring
  exact_mod_cast h

variable {n d : ℕ}

/-- The reference's arrangement, with the four per-column vectors laid along the rows, read at (p, q). -/
theorem refBn_entry (h1 : (⟨1, ![d]⟩ : Shape).BroadcastsInDim ⟨2, ![1, d]⟩ ![1])
    (h2 : (⟨2, ![1, d]⟩ : Shape).BroadcastsInDim ⟨2, ![n, d]⟩ ![0, 1])
    (hz : (⟨0, ![]⟩ : Shape).BroadcastsInDim ⟨2, ![n, d]⟩ ![])
    (z : FVec Ideal ⟨2, ![n, d]⟩ .f32) (mean inv g bt : FVec Ideal ⟨1, ![d]⟩ .f32) (p : Fin n) (q : Fin d) :
    maximumf (addf (mulf (mulf (subf z (broadcastInDim ⟨2, ![n, d]⟩ ![0, 1] h2 (broadcastInDim ⟨2, ![1, d]⟩ ![1] h1 mean)))
        (broadcastInDim ⟨2, ![n, d]⟩ ![0, 1] h2 (broadcastInDim ⟨2, ![1, d]⟩ ![1] h1 inv)))
        (broadcastInDim ⟨2, ![n, d]⟩ ![0, 1] h2 (broadcastInDim ⟨2, ![1, d]⟩ ![1] h1 g)))
        (broadcastInDim ⟨2, ![n, d]⟩ ![0, 1] h2 (broadcastInDim ⟨2, ![1, d]⟩ ![1] h1 bt)))
      (broadcastInDim ⟨2, ![n, d]⟩ ![] hz (constant (F := Ideal) ⟨0, ![]⟩ .f32 0x00000000#32)) (ix2 p q)
      = max (((z (ix2 p q) - mean (ix1 q)) * inv (ix1 q)) * g (ix1 q) + bt (ix1 q)) 0 := by
  rw [maximumf_apply, addf_apply, mulf_apply, mulf_apply, subf_apply,
    Cert.VecBcast.rowVec_bcast_apply h1 h2 mean p q, Cert.VecBcast.rowVec_bcast_apply h1 h2 inv p q,
    Cert.VecBcast.rowVec_bcast_apply h1 h2 g p q, Cert.VecBcast.rowVec_bcast_apply h1 h2 bt p q]
  exact congrArg (max _) ofBits_zero

/-- The folded arrangement, with scale and shift given as one-row matrices reshaped from vectors, read at (p, q). -/
theorem foldedBn_entry (hc : (⟨1, ![d]⟩ : Shape).ShapeCasts ⟨2, ![1, d]⟩)
    (z : FVec Ideal ⟨2, ![n, d]⟩ .f32) (mean inv g bt : FVec Ideal ⟨1, ![d]⟩ .f32) (p : Fin n) (q : Fin d) :
    max (z (ix2 p q) * shapeCast ⟨2, ![1, d]⟩ (mulf g inv) hc (ix2 (0 : Fin 1) q)
        + shapeCast ⟨2, ![1, d]⟩ (subf bt (mulf mean (mulf g inv))) hc (ix2 (0 : Fin 1) q)) 0
      = max (z (ix2 p q) * (g (ix1 q) * inv (ix1 q)) + (bt (ix1 q) - mean (ix1 q) * (g (ix1 q) * inv (ix1 q)))) 0 := by
  rw [Cert.RowVector.shapeCast_b_1b_apply, Cert.RowVector.shapeCast_b_1b_apply]
  rfl

/-- The two arrangements agree at (p, q) when the entry and the column's four statistics are real. -/
theorem folded_eq_ref (h1 : (⟨1, ![d]⟩ : Shape).BroadcastsInDim ⟨2, ![1, d]⟩ ![1])
    (h2 : (⟨2, ![1, d]⟩ : Shape).BroadcastsInDim ⟨2, ![n, d]⟩ ![0, 1])
    (hz : (⟨0, ![]⟩ : Shape).BroadcastsInDim ⟨2, ![n, d]⟩ ![])
    (hc : (⟨1, ![d]⟩ : Shape).ShapeCasts ⟨2, ![1, d]⟩)
    (z : FVec Ideal ⟨2, ![n, d]⟩ .f32) (mean inv g bt : FVec Ideal ⟨1, ![d]⟩ .f32) (p : Fin n) (q : Fin d)
    (hzr : IsReal (z (ix2 p q))) (hm : IsReal (mean (ix1 q))) (hi : IsReal (inv (ix1 q))) (hg : IsReal (g (ix1 q)))
    (hb : IsReal (bt (ix1 q))) :
    max (z (ix2 p q) * shapeCast ⟨2, ![1, d]⟩ (mulf g inv) hc (ix2 (0 : Fin 1) q)
        + shapeCast ⟨2, ![1, d]⟩ (subf bt (mulf mean (mulf g inv))) hc (ix2 (0 : Fin 1) q)) 0
      = maximumf (addf (mulf (mulf (subf z (broadcastInDim ⟨2, ![n, d]⟩ ![0, 1] h2 (broadcastInDim ⟨2, ![1, d]⟩ ![1] h1 mean)))
        (broadcastInDim ⟨2, ![n, d]⟩ ![0, 1] h2 (broadcastInDim ⟨2, ![1, d]⟩ ![1] h1 inv)))
        (broadcastInDim ⟨2, ![n, d]⟩ ![0, 1] h2 (broadcastInDim ⟨2, ![1, d]⟩ ![1] h1 g)))
        (broadcastInDim ⟨2, ![n, d]⟩ ![0, 1] h2 (broadcastInDim ⟨2, ![1, d]⟩ ![1] h1 bt)))
      (broadcastInDim ⟨2, ![n, d]⟩ ![] hz (constant (F := Ideal) ⟨0, ![]⟩ .f32 0x00000000#32)) (ix2 p q) := by
  rw [foldedBn_entry hc z mean inv g bt p q, refBn_entry h1 h2 hz z mean inv g bt p q, bn_law hzr hm hi hg hb]

/-- The normalised and rectified entry is real. -/
theorem isReal_refBn_entry {z m r g b : EReal} (hz : IsReal z) (hm : IsReal m) (hr : IsReal r) (hg : IsReal g) (hb : IsReal b) :
    IsReal (max (((z - m) * r) * g + b) 0) :=
  (((((isReal_sub hz hm).mul hr).mul hg).add hb)).max IsReal.zero

end Cert.Gnn

end
-- ==== Proof.LayerEq.lean ====
/-
  The kernel's arrangement of the network equals the reference's on real inputs.

  Both programs aggregate with the same operations, so the aggregation is one function of the transformed
  features, the edge list and the bias (the two spellings differ only in which copy of the shape and dimension
  records they name). The matrix product is the textbook sum at every entry on both sides. What is left is the
  normalisation: the kernel folds the statistics into one scale row and one shift row before the rectifier, the
  reference normalises entry by entry; on a real matrix the statistics are real, and the two arrangements agree
  entry by entry. Realness is carried layer by layer: products, aggregations and rectified normalisations of real
  arrays are real.
-/
import proofs.«139092_j81415400063394_1_alg».proof.Proof.RefStages
import proofs.«139092_j81415400063394_1_alg».proof.Proof.KerStages
import proofs.«139092_j81415400063394_1_alg».proof.Proof.AggReal
import proofs.«139092_j81415400063394_1_alg».proof.Proof.BnReal
import proofs.«139092_j81415400063394_1_alg».proof.Proof.LibBnFold
import proofs.«139092_j81415400063394_1_alg».proof.Proof.LibMatProd

noncomputable section

open scoped BigOperators

namespace Cert.Gnn

open Idealize.ShloMosaic Idealize.ShloMosaic.ValueIdx Cert.GcnLaw

variable [hK : Cert.KernelIdeal.Facts] [hR : Cert.ReferenceIdeal.Facts]

/-- A [100000, 64] matrix, a vector of 64 entries, of extended reals; the edge list. -/
abbrev Mat : Type := (⟨2, ![100000, 64]⟩ : Shape).Idx → EReal
abbrev Vec64 : Type := (⟨1, ![64]⟩ : Shape).Idx → EReal
abbrev Edges : Type := IVec (⟨2, ![2, 1000000]⟩ : Shape) 32

/-! ## The shared stages are one function -/

set_option maxHeartbeats 400000 in
theorem agg_eq (h : Mat) (ei : Edges) (b : Vec64) :
    Cert.KernelIdeal.Stage.agg (F := Ideal) h ei b = Cert.ReferenceIdeal.Stage.agg (F := Ideal) h ei b := rfl

set_option maxHeartbeats 400000 in
theorem meanv_eq (z : Mat) : Cert.KernelIdeal.Stage.meanv (F := Ideal) z = Cert.ReferenceIdeal.Stage.meanv (F := Ideal) z := rfl

set_option maxHeartbeats 400000 in
theorem invStd_eq (z : Mat) : Cert.KernelIdeal.Stage.invStd (F := Ideal) z = Cert.ReferenceIdeal.Stage.invStd (F := Ideal) z := rfl

/-! ## The matrix product -/

theorem allReal_matProd {m K n : ℕ} (a : (⟨2, ![m, K]⟩ : Shape).Idx → EReal) (w : (⟨2, ![K, n]⟩ : Shape).Idx → EReal)
    (ha : AllReal a) (hw : AllReal w) : AllReal (Cert.MatProd.matProd a w) := fun i =>
  IsReal.sum _ _ fun k _ => (ha _).mul (hw _)

set_option maxHeartbeats 400000 in
theorem dot1_eq (x : (⟨2, ![100000, 128]⟩ : Shape).Idx → EReal) (w : (⟨2, ![128, 64]⟩ : Shape).Idx → EReal) :
    Host.dotGeneral (F := Ideal) (φ₁ := .f32) (φ₂ := .f32) Cert.ReferenceIdeal.dot_S100000x128_S128x64_S100000x64_1_0_0_1_n_n none x w
      = Cert.MatProd.matProd x w :=
  Cert.MatProd.dotGeneral_eq (m := 100000) (K := 128) (n := 64) (φ₁ := .f32) (φ₂ := .f32)
    Cert.ReferenceIdeal.Facts₀.dot_S100000x128_S128x64_S100000x64_1_0_0_1_n_n_wf none .single x w

set_option maxHeartbeats 400000 in
theorem dot2_eq (x : Mat) (w : (⟨2, ![64, 64]⟩ : Shape).Idx → EReal) :
    Host.dotGeneral (F := Ideal) (φ₁ := .f32) (φ₂ := .f32) Cert.ReferenceIdeal.dot_S100000x64_S64x64_S100000x64_1_0_0_1_n_n none x w
      = Cert.MatProd.matProd x w :=
  Cert.MatProd.dotGeneral_eq (m := 100000) (K := 64) (n := 64) (φ₁ := .f32) (φ₂ := .f32)
    Cert.ReferenceIdeal.Facts₀.dot_S100000x64_S64x64_S100000x64_1_0_0_1_n_n_wf none .single x w

/-! ## The normalisation -/

set_option maxHeartbeats 400000 in
/-- The folded arrangement's entry. -/
theorem bnr_apply (z : Mat) (s t : (⟨2, ![1, 64]⟩ : Shape).Idx → EReal) (p : Fin 100000) (q : Fin 64) :
    Cert.KernelIdeal.Stage.bnr z s t (ix2 p q) = max (z (ix2 p q) * s (ix2 (0 : Fin 1) q) + t (ix2 (0 : Fin 1) q)) 0 := rfl

set_option maxHeartbeats 400000 in
theorem scaleRow_eq (z : Mat) (g : Vec64) :
    Cert.KernelIdeal.Stage.row (F := Ideal) (Cert.KernelIdeal.Stage.scalev (F := Ideal) z g)
      = shapeCast (⟨2, ![1, 64]⟩ : Shape) (mulf (F := Ideal) (φ := .f32) g (Cert.ReferenceIdeal.Stage.invStd (F := Ideal) z))
          Cert.KernelIdeal.Facts₀.shapeCasts_S64_S1x64 := rfl

set_option maxHeartbeats 400000 in
theorem shiftRow_eq (z : Mat) (g bt : Vec64) :
    Cert.KernelIdeal.Stage.row (F := Ideal) (Cert.KernelIdeal.Stage.shiftv (F := Ideal) z g bt)
      = shapeCast (⟨2, ![1, 64]⟩ : Shape) (subf (F := Ideal) (φ := .f32) bt (mulf (F := Ideal) (φ := .f32) (Cert.ReferenceIdeal.Stage.meanv (F := Ideal) z)
          (mulf (F := Ideal) (φ := .f32) g (Cert.ReferenceIdeal.Stage.invStd (F := Ideal) z))))
          Cert.KernelIdeal.Facts₀.shapeCasts_S64_S1x64 := rfl

/-- On a real matrix, with real γ and β, the kernel's fold-then-rectify is the reference's normalise-then-rectify. -/
theorem bn_eq (z : Mat) (g bt : Vec64) (hz : AllReal z) (hg : AllReal g) (hbt : AllReal bt) :
    Cert.KernelIdeal.Stage.bnr z (Cert.KernelIdeal.Stage.row (F := Ideal) (Cert.KernelIdeal.Stage.scalev (F := Ideal) z g))
        (Cert.KernelIdeal.Stage.row (F := Ideal) (Cert.KernelIdeal.Stage.shiftv (F := Ideal) z g bt))
      = Cert.ReferenceIdeal.Stage.bn (F := Ideal) z g bt := by
  funext i
  obtain ⟨p, q, rfl⟩ : ∃ (p : Fin 100000) (q : Fin 64), i = ix2 p q := ⟨i 0, i 1, eq_ix2 i⟩
  rw [bnr_apply, scaleRow_eq, shiftRow_eq]
  unfold Cert.ReferenceIdeal.Stage.bn Cert.ReferenceIdeal.Stage.alongRows
  exact folded_eq_ref (n := 100000) (d := 64) Cert.ReferenceIdeal.Facts₀.bcast_S64_S1x64_1
    Cert.ReferenceIdeal.Facts₀.bcast_S1x64_S100000x64_0_1 Cert.ReferenceIdeal.Facts₀.bcast_S_S100000x64
    Cert.KernelIdeal.Facts₀.shapeCasts_S64_S1x64 z (Cert.ReferenceIdeal.Stage.meanv (F := Ideal) z)
    (Cert.ReferenceIdeal.Stage.invStd (F := Ideal) z) g bt p q (hz _) (allReal_meanv z hz _) (allReal_invStd z hz _) (hg _) (hbt _)

/-- The reference's normalise-then-rectify of a real matrix is real. -/
theorem allReal_bn (z : Mat) (g bt : Vec64) (hz : AllReal z) (hg : AllReal g) (hbt : AllReal bt) :
    AllReal (Cert.ReferenceIdeal.Stage.bn (F := Ideal) z g bt) := fun i => by
  obtain ⟨p, q, rfl⟩ : ∃ (p : Fin 100000) (q : Fin 64), i = ix2 p q := ⟨i 0, i 1, eq_ix2 i⟩
  unfold Cert.ReferenceIdeal.Stage.bn Cert.ReferenceIdeal.Stage.alongRows
  rw [refBn_entry (n := 100000) (d := 64) Cert.ReferenceIdeal.Facts₀.bcast_S64_S1x64_1
    Cert.ReferenceIdeal.Facts₀.bcast_S1x64_S100000x64_0_1 Cert.ReferenceIdeal.Facts₀.bcast_S_S100000x64 z _ _ g bt p q]
  exact isReal_refBn_entry (hz _) (allReal_meanv z hz _) (allReal_invStd z hz _) (hg _) (hbt _)

/-! ## One layer, and the network -/

/-- One layer: the kernel's arrangement is the reference's, and the result is real. -/
theorem layer_eq {K : ℕ} (a : (⟨2, ![100000, K]⟩ : Shape).Idx → EReal) (ei : Edges) (w : (⟨2, ![K, 64]⟩ : Shape).Idx → EReal)
    (b g bt : Vec64) (ha : AllReal a) (hw : AllReal w) (hb : AllReal b) (hg : AllReal g) (hbt : AllReal bt) :
    Cert.KernelIdeal.Stage.layer (K := K) a ei w b g bt
        = Cert.ReferenceIdeal.Stage.bn (F := Ideal) (Cert.ReferenceIdeal.Stage.agg (F := Ideal) (Cert.MatProd.matProd a w) ei b) g bt
      ∧ AllReal (Cert.ReferenceIdeal.Stage.bn (F := Ideal) (Cert.ReferenceIdeal.Stage.agg (F := Ideal) (Cert.MatProd.matProd a w) ei b) g bt) := by
  have hz : AllReal (Cert.ReferenceIdeal.Stage.agg (F := Ideal) (Cert.MatProd.matProd a w) ei b) :=
    isReal_agg _ ei b (allReal_matProd a w ha hw) hb
  refine ⟨?_, allReal_bn _ g bt hz hg hbt⟩
  unfold Cert.KernelIdeal.Stage.layer Cert.KernelIdeal.Stage.mm
  rw [agg_eq]
  exact bn_eq _ g bt hz hg hbt

/-- The network: on real inputs the kernel's result is the reference's. -/
theorem out_eq (x : (⟨2, ![100000, 128]⟩ : Shape).Idx → EReal) (ei : Edges) (W1 : (⟨2, ![128, 64]⟩ : Shape).Idx → EReal)
    (b1 g1 bt1 : Vec64) (W2 : (⟨2, ![64, 64]⟩ : Shape).Idx → EReal) (b2 g2 bt2 : Vec64)
    (hx : AllReal x) (hW1 : AllReal W1) (hb1 : AllReal b1) (hg1 : AllReal g1) (hbt1 : AllReal bt1)
    (hW2 : AllReal W2) (hb2 : AllReal b2) (hg2 : AllReal g2) (hbt2 : AllReal bt2) :
    Cert.KernelIdeal.Stage.out x ei W1 b1 g1 bt1 W2 b2 g2 bt2
      = Cert.ReferenceIdeal.Stage.out (F := Ideal) x ei W1 b1 g1 bt1 W2 b2 g2 bt2 := by
  obtain ⟨h1, hr1⟩ := layer_eq (K := 128) x ei W1 b1 g1 bt1 hx hW1 hb1 hg1 hbt1
  unfold Cert.KernelIdeal.Stage.out Cert.ReferenceIdeal.Stage.out
  rw [h1, dot1_eq, dot2_eq]
  exact (layer_eq (K := 64) _ ei W2 b2 g2 bt2 hr1 hW2 hb2 hg2 hbt2).1

end Cert.Gnn

end
-- ==== Proof.Finite.lean ====
/-
  The float arguments hold real numbers.

  The precondition tests each of the nine float arguments entry by entry — the absolute value max(x, −x) compared
  with +∞ — and takes the conjunction of all the answers.  On the extended reals the absolute value of ±∞ is +∞,
  which is not below +∞; so where the conjunction is true every entry of every float argument is a real number.
  The step from one argument's test to its entries is stated once, over any shape, and used nine times.
-/
import proofs.«139092_j81415400063394_1_alg».proof.Pre_finite_inputs
import proofs.«139092_j81415400063394_1_alg».proof.Proof.LibRealArrays
import Idealize.ShloMosaic.Lib.ReduceAll
import Idealize.ShloMosaic.Lib.ValueIdx

noncomputable section

namespace Cert.Gnn

open Idealize.ShloMosaic Idealize.ShloMosaic.ValueIdx Cert.GcnLaw

/-- The shape of a scalar has one index. -/
instance scalar_subsingleton : Subsingleton (⟨0, ![]⟩ : Shape).Idx := ⟨fun a b => funext fun d => d.elim0⟩

/-- The f32 word 0x7F800000 is +∞. -/
theorem ofBits_inf : Ideal.ofBits .f32 0x7F800000#32 = (⊤ : EReal) := by
  simp [Ideal.ofBits, Ideal.ieee]

/-- An extended real whose absolute value max(x, −x) is below +∞ is a real number: at ±∞ the absolute value is +∞. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact IsReal.coe r
  | top => simp [Ideal.cmp] at h

/-- One argument's test: "every entry has |x| < +∞", as the one-entry array of truth values the host computes
    (the comparison entry by entry, then the conjunction over all entries, starting from true). -/
def allFinite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel) : IVec (⟨0, ![]⟩ : Shape) 1 :=
  Host.reduce IntOp.andi
    (cmpf .olt (Host.absf x) (broadcastInDim s ![] hb (constant (F := Ideal) (⟨0, ![]⟩ : Shape) .f32 0x7F800000#32)))
    (constantI (⟨0, ![]⟩ : Shape) 1 1#1) hr hu

/-- When that test is true, every entry of the argument is a real number. -/
theorem allReal_of_allFinite {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : allFinite x hb hr hu ix0 = 1#1) : AllReal x := by
  intro i
  have hi := Host.reduce_andi_all _ _ hr hu ix0 h i
  exact isReal_of_abs_lt_inf (x i) hi

/-- A conjunction of two truth values that is true has both true. -/
theorem both_true (x y : IVec (⟨0, ![]⟩ : Shape) 1) (h : andi x y ix0 = 1#1) : x ix0 = 1#1 ∧ y ix0 = 1#1 :=
  IntOp.andi_eq_one.1 h

section
variable [Cert.Pre_finite_inputs.Facts]
open Cert.Pre_finite_inputs Cert.Pre_finite_inputs.Facts

/-- The precondition is the conjunction of the nine arguments' tests, in the arguments' order (the integer edge
    list is not tested). -/
theorem pre_eq (a0 : FVec Ideal S100000x128 .f32) (a1 : IVec S2x1000000 32)
    (a2 : FVec Ideal S128x64 .f32) (a3 a4 a5 : FVec Ideal S64 .f32)
    (a6 : FVec Ideal S64x64 .f32) (a7 a8 a9 : FVec Ideal S64 .f32) :
    fn (F := Ideal) a0 a1 a2 a3 a4 a5 a6 a7 a8 a9
      = andi (andi (andi (andi (andi (andi (andi (andi
          (allFinite a0 bcast_S_S100000x128 reducesTo_S100000x128_S_d0_1 h_S_)
          (allFinite a2 bcast_S_S128x64 reducesTo_S128x64_S_d0_1 h_S_))
          (allFinite a3 bcast_S_S64 reducesTo_S64_S_d0 h_S_))
          (allFinite a4 bcast_S_S64 reducesTo_S64_S_d0 h_S_))
          (allFinite a5 bcast_S_S64 reducesTo_S64_S_d0 h_S_))
          (allFinite a6 bcast_S_S64x64 reducesTo_S64x64_S_d0_1 h_S_))
          (allFinite a7 bcast_S_S64 reducesTo_S64_S_d0 h_S_))
          (allFinite a8 bcast_S_S64 reducesTo_S64_S_d0 h_S_))
          (allFinite a9 bcast_S_S64 reducesTo_S64_S_d0 h_S_) := rfl

end

/-- Under the precondition every float argument has only real entries. -/
theorem allReal_of_pre [Cert.Pre_finite_inputs.Facts]
    (a0 : FVec Ideal Cert.Pre_finite_inputs.S100000x128 .f32) (a1 : IVec Cert.Pre_finite_inputs.S2x1000000 32)
    (a2 : FVec Ideal Cert.Pre_finite_inputs.S128x64 .f32) (a3 a4 a5 : FVec Ideal Cert.Pre_finite_inputs.S64 .f32)
    (a6 : FVec Ideal Cert.Pre_finite_inputs.S64x64 .f32) (a7 a8 a9 : FVec Ideal Cert.Pre_finite_inputs.S64 .f32)
    (h : Cert.Pre_finite_inputs.fn (F := Ideal) a0 a1 a2 a3 a4 a5 a6 a7 a8 a9 = fun _ => 1#1) :
    AllReal a0 ∧ AllReal a2 ∧ AllReal a3 ∧ AllReal a4 ∧ AllReal a5 ∧ AllReal a6 ∧ AllReal a7 ∧ AllReal a8 ∧ AllReal a9 := by
  have h0 := congrFun ((pre_eq a0 a1 a2 a3 a4 a5 a6 a7 a8 a9).symm.trans h) ix0
  obtain ⟨h0, f9⟩ := both_true _ _ h0
  obtain ⟨h0, f8⟩ := both_true _ _ h0
  obtain ⟨h0, f7⟩ := both_true _ _ h0
  obtain ⟨h0, f6⟩ := both_true _ _ h0
  obtain ⟨h0, f5⟩ := both_true _ _ h0
  obtain ⟨h0, f4⟩ := both_true _ _ h0
  obtain ⟨h0, f3⟩ := both_true _ _ h0
  obtain ⟨f0, f2⟩ := both_true _ _ h0
  exact ⟨allReal_of_allFinite a0 _ _ _ f0, allReal_of_allFinite a2 _ _ _ f2, allReal_of_allFinite a3 _ _ _ f3,
    allReal_of_allFinite a4 _ _ _ f4, allReal_of_allFinite a5 _ _ _ f5, allReal_of_allFinite a6 _ _ _ f6,
    allReal_of_allFinite a7 _ _ _ f7, allReal_of_allFinite a8 _ _ _ f8, allReal_of_allFinite a9 _ _ _ f9⟩

end Cert.Gnn

end
-- ==== Proof.Claims.lean ====
/-
  The five claims for the two-layer graph convolution network.

  The word-level kernel and its idealisation run to the end with their arguments intact: the generated frames.
  The idealisation rewrote nothing. The reference is a host program; its run, read back as one function of the
  arguments, gives its frame and its result. The kernel's run, read across its four regions, gives its result as
  the kernel's arrangement of the same network. Under the precondition every float argument is real, and on real
  arguments the two arrangements are one function (the normalisation's scale and shift may be folded before the
  rectifier only because every statistic is a real number); the edge list may hold anything.
-/
import proofs.«139092_j81415400063394_1_alg».proof.Defs
import proofs.«139092_j81415400063394_1_alg».proof.Proof.Gen.Kernel.Frame
import proofs.«139092_j81415400063394_1_alg».proof.Proof.Gen.KernelIdeal.Frame
import proofs.«139092_j81415400063394_1_alg».proof.Proof.Gen.ReferenceIdeal
import proofs.«139092_j81415400063394_1_alg».proof.Proof.Gen.Pre_finite_inputs
import proofs.«139092_j81415400063394_1_alg».proof.Proof.KerRun
import proofs.«139092_j81415400063394_1_alg».proof.Proof.RefRun
import proofs.«139092_j81415400063394_1_alg».proof.Proof.LayerEq
import proofs.«139092_j81415400063394_1_alg».proof.Proof.Finite

noncomputable section

namespace Cert.Proof.GnnClaims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end at the same array: the kernel's run ends at its arrangement of the network, the reference's
    at its own; the arguments agree, the precondition makes every float argument real, and on real arguments the
    two arrangements are equal. -/
theorem algebraic : Cert.algebraic_KernelIdeal_ReferenceIdeal := by
  intro m ρ m' ρ' hpre hagree
  refine ⟨fun c => Cert.KernelIdeal.Stage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.KerRun.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7, e8, e9⟩ := hagree c
  rw [e0, e1, e2, e3, e4, e5, e6, e7, e8, e9]
  obtain ⟨r0, r2, r3, r4, r5, r6, r7, r8, r9⟩ := Cert.Gnn.allReal_of_pre _ _ _ _ _ _ _ _ _ _ (hpre c)
  exact (Cert.Gnn.out_eq _ _ _ _ _ _ _ _ _ _ r0 r2 r3 r4 r5 r6 r7 r8 r9).symm

end Cert.Proof.GnnClaims

end
-- ==== Proof.lean ====
/-
  The certificate of a two-layer graph convolution network with batch normalisation: a kernel that computes each
  layer's matrix product and each normalise-and-rectify pass in row blocks, with the neighbourhood aggregation and
  the batch statistics between them, against the same network written with whole-array operations.

  The claims are proved in Proof/Claims.lean. The parts: the kernel's run across its four regions (Proof/KerRun*,
  Proof/KerRegion*), the reference's run (Proof/RefRun*), the stages both are read at (Proof/KerStages,
  Proof/RefStages), that the aggregation and the statistics of real arrays are real (Proof/AggReal, Proof/BnReal),
  that the two arrangements of the normalisation agree on reals (Proof/BnLaw, Proof/LayerEq), and that the
  precondition makes the float arguments real (Proof/Finite).
-/
import proofs.«139092_j81415400063394_1_alg».proof.Defs
import proofs.«139092_j81415400063394_1_alg».proof.Proof.Gen.Kernel
import proofs.«139092_j81415400063394_1_alg».proof.Proof.Gen.Kernel.Skeleton
import proofs.«139092_j81415400063394_1_alg».proof.Proof.Gen.Kernel.Launch
import proofs.«139092_j81415400063394_1_alg».proof.Proof.Gen.Kernel.Points
import proofs.«139092_j81415400063394_1_alg».proof.Proof.Gen.Kernel.Frame
import proofs.«139092_j81415400063394_1_alg».proof.Proof.Gen.KernelIdeal
import proofs.«139092_j81415400063394_1_alg».proof.Proof.Gen.KernelIdeal.Skeleton
import proofs.«139092_j81415400063394_1_alg».proof.Proof.Gen.KernelIdeal.Launch
import proofs.«139092_j81415400063394_1_alg».proof.Proof.Gen.KernelIdeal.Points
import proofs.«139092_j81415400063394_1_alg».proof.Proof.Gen.KernelIdeal.Frame
import proofs.«139092_j81415400063394_1_alg».proof.Proof.Gen.ReferenceIdeal
import proofs.«139092_j81415400063394_1_alg».proof.Proof.Gen.Pre_finite_inputs
import proofs.«139092_j81415400063394_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    GnnClaims.frame_k, GnnClaims.frame_ki, GnnClaims.frame_ri, GnnClaims.preserves, GnnClaims.algebraic⟩

end Cert.Proof

end
